-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S16x64x1024 : Shape := ⟨3, ![16, 64, 1024]⟩
abbrev S16x1024x64 : Shape := ⟨3, ![16, 1024, 64]⟩
abbrev S16x1x64 : Shape := ⟨3, ![16, 1, 64]⟩
abbrev S32x2048x64 : Shape := ⟨3, ![32, 2048, 64]⟩
abbrev S1x512x1024 : Shape := ⟨3, ![1, 512, 1024]⟩
abbrev S1x1024x64 : Shape := ⟨3, ![1, 1024, 64]⟩
abbrev S1x1x64 : Shape := ⟨3, ![1, 1, 64]⟩
abbrev S1x512x64 : Shape := ⟨3, ![1, 512, 64]⟩
abbrev S512x1024 : Shape := ⟨2, ![512, 1024]⟩
abbrev S1024x64 : Shape := ⟨2, ![1024, 64]⟩
abbrev S512x64 : Shape := ⟨2, ![512, 64]⟩
abbrev S1x64 : Shape := ⟨2, ![1, 64]⟩
abbrev S1024x16x64 : Shape := ⟨3, ![1024, 16, 64]⟩
abbrev S1x1024 : Shape := ⟨2, ![1, 1024]⟩
abbrev S1x2048x64 : Shape := ⟨3, ![1, 2048, 64]⟩
abbrev S1x64x1024 : Shape := ⟨3, ![1, 64, 1024]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S64x1024 : Shape := ⟨2, ![64, 1024]⟩

abbrev nBuf : Space → Nat
  | .hbm => 31
  | .vmem => 36
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S16x64x1024, .f32⟩
  | .hbm, ⟨12, _⟩ => ⟨S16x1024x64, .f32⟩
  | .hbm, ⟨13, _⟩ => ⟨S16x1024x64, .bf16⟩
  | .hbm, ⟨14, _⟩ => ⟨S16x1x64, .f32⟩
  | .hbm, ⟨15, _⟩ => ⟨S16x64x1024, .f32⟩
  | .hbm, ⟨16, _⟩ => ⟨S16x1024x64, .f32⟩
  | .hbm, ⟨17, _⟩ => ⟨S16x1024x64, .bf16⟩
  | .hbm, ⟨18, _⟩ => ⟨S16x1x64, .f32⟩
  | .hbm, ⟨19, _⟩ => ⟨S16x64x1024, .f32⟩
  | .hbm, ⟨20, _⟩ => ⟨S16x1024x64, .f32⟩
  | .hbm, ⟨21, _⟩ => ⟨S16x1024x64, .bf16⟩
  | .hbm, ⟨22, _⟩ => ⟨S16x1x64, .f32⟩
  | .hbm, ⟨23, _⟩ => ⟨S32x2048x64, .bf16⟩
  | .hbm, ⟨24, _⟩ => ⟨S32x2048x64, .bf16⟩
  | .hbm, ⟨25, _⟩ => ⟨S32x2048x64, .bf16⟩
  | .hbm, ⟨26, _⟩ => ⟨S1024x16x64, .f32⟩
  | .hbm, ⟨27, _⟩ => ⟨S16x64x1024, .f32⟩
  | .hbm, ⟨28, _⟩ => ⟨S16x64x1024, .bf16⟩
  | .hbm, ⟨29, _⟩ => ⟨S1x1024, .f32⟩
  | .hbm, ⟨30, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x64, .bf16⟩
  | .local _ .vmem, ⟨3, _⟩ => ⟨S1x1024x64, .bf16⟩
  | .local _ .vmem, ⟨4, _⟩ => ⟨S1x1x64, .f32⟩
  | .local _ .vmem, ⟨5, _⟩ => ⟨S1x1x64, .f32⟩
  | .local _ .vmem, ⟨6, _⟩ => ⟨S1x512x64, .bf16⟩
  | .local _ .vmem, ⟨7, _⟩ => ⟨S1x512x64, .bf16⟩
  | .local _ .vmem, ⟨8, _⟩ => ⟨S1x512x1024, .f32⟩
  | .local _ .vmem, ⟨9, _⟩ => ⟨S1x512x1024, .f32⟩
  | .local _ .vmem, ⟨10, _⟩ => ⟨S1x1024x64, .bf16⟩
  | .local _ .vmem, ⟨11, _⟩ => ⟨S1x1024x64, .bf16⟩
  | .local _ .vmem, ⟨12, _⟩ => ⟨S1x1x64, .f32⟩
  | .local _ .vmem, ⟨13, _⟩ => ⟨S1x1x64, .f32⟩
  | .local _ .vmem, ⟨14, _⟩ => ⟨S1x512x64, .bf16⟩
  | .local _ .vmem, ⟨15, _⟩ => ⟨S1x512x64, .bf16⟩
  | .local _ .vmem, ⟨16, _⟩ => ⟨S1x512x1024, .f32⟩
  | .local _ .vmem, ⟨17, _⟩ => ⟨S1x512x1024, .f32⟩
  | .local _ .vmem, ⟨18, _⟩ => ⟨S1x1024x64, .bf16⟩
  | .local _ .vmem, ⟨19, _⟩ => ⟨S1x1024x64, .bf16⟩
  | .local _ .vmem, ⟨20, _⟩ => ⟨S1x1x64, .f32⟩
  | .local _ .vmem, ⟨21, _⟩ => ⟨S1x1x64, .f32⟩
  | .local _ .vmem, ⟨22, _⟩ => ⟨S1x512x64, .bf16⟩
  | .local _ .vmem, ⟨23, _⟩ => ⟨S1x512x64, .bf16⟩
  | .local _ .vmem, ⟨24, _⟩ => ⟨S1x512x64, .bf16⟩
  | .local _ .vmem, ⟨25, _⟩ => ⟨S1x512x64, .bf16⟩
  | .local _ .vmem, ⟨26, _⟩ => ⟨S1x2048x64, .bf16⟩
  | .local _ .vmem, ⟨27, _⟩ => ⟨S1x2048x64, .bf16⟩
  | .local _ .vmem, ⟨28, _⟩ => ⟨S1x2048x64, .bf16⟩
  | .local _ .vmem, ⟨29, _⟩ => ⟨S1x2048x64, .bf16⟩
  | .local _ .vmem, ⟨30, _⟩ => ⟨S1x64x1024, .bf16⟩
  | .local _ .vmem, ⟨31, _⟩ => ⟨S1x64x1024, .bf16⟩
  | .local _ .vmem, ⟨32, _⟩ => ⟨S1x1024, .f32⟩
  | .local _ .vmem, ⟨33, _⟩ => ⟨S1x512x1024, .f32⟩
  | .local _ .vmem, ⟨34, _⟩ => ⟨S1x512x1024, .f32⟩
  | .local _ .vmem, ⟨35, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, arg2.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![16, 2, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, arg2.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨3, ![16, 2, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, arg2.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1x1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S1x1x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1x512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨3, ![2, 4, 16], ![false, false, false]⟩

def k3_cond2 (i : grid3.Coords) : BitVec 1 :=
  let arg2 : BitVec 32 := BitVec.ofNat 32 (i 2).val
  let c15_i32 : BitVec 32 := 15#32
  let v30 : BitVec 1 := Scalar.cmpi .eq arg2 c15_i32
  let v31 : BitVec 32 := Scalar.extui v30
  let c0_i32_20 : BitVec 32 := 0#32
  let v32 : BitVec 1 := Scalar.cmpi .ne v31 c0_i32_20
  v32

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x64x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, false, true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 2 → Memref sig .tc .vmem S1x512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

class Facts₀ : Prop where
  shapeCasts_S1024x1024_S16x64x1024 : S1024x1024.ShapeCasts S16x64x1024
  transposes_S16x64x1024_S16x1024x64_0_2_1 : S16x64x1024.Transposes [0, 2, 1] S16x1024x64
  bitsLt_bf16_f32 : FTy.bits .bf16 < FTy.bits .f32
  shapeCasts_S1024_S16x1x64 : S1024.ShapeCasts S16x1x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S1024x1024_S1024x16x64 : S1024x1024.ShapeCasts S1024x16x64
  transposes_S1024x16x64_S16x64x1024_1_2_0 : S1024x16x64.Transposes [1, 2, 0] S16x64x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x64_S512x64_1_0_0_1_n_n_wf : DotDims.WF S512x1024 S1024x64 S512x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .bf16 = 32 ∨ (Rect.block (s := S16x1024x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S16x1x64.size a
  hwx0_2 : ∀ i : grid0.Coords, EltTy.bits .f32 = 32 ∨ (Rect.block (s := S16x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .bf16 = 32 ∨ (Rect.block (s := S32x2048x64) S1x512x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x1024.size a
  hwx1_0 : ∀ i : grid1.Coords, EltTy.bits .f32 = 32 ∨ (Rect.block (s := S2x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S16x1024x64.size a
  hwx1_1 : ∀ i : grid1.Coords, EltTy.bits .bf16 = 32 ∨ (Rect.block (s := S16x1024x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S16x1x64.size a
  hwx1_2 : ∀ i : grid1.Coords, EltTy.bits .f32 = 32 ∨ (Rect.block (s := S16x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S2x2048x1024.size a
  hwx2_0 : ∀ i : grid2.Coords, EltTy.bits .f32 = 32 ∨ (Rect.block (s := S2x2048x1024) S1x512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S16x1024x64.size a
  hwx2_1 : ∀ i : grid2.Coords, EltTy.bits .bf16 = 32 ∨ (Rect.block (s := S16x1024x64) S1x1024x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x64.size a ≤ S16x1x64.size a
  hwx2_2 : ∀ i : grid2.Coords, EltTy.bits .f32 = 32 ∨ (Rect.block (s := S16x1x64) S1x1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x64.size a ≤ S32x2048x64.size a
  hwx2_3 : ∀ i : grid2.Coords, EltTy.bits .bf16 = 32 ∨ (Rect.block (s := S32x2048x64) S1x512x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S32x2048x64.size a
  hwx3_0 : ∀ i : grid3.Coords, EltTy.bits .bf16 = 32 ∨ (Rect.block (s := S32x2048x64) S1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S32x2048x64.size a
  hwx3_1 : ∀ i : grid3.Coords, EltTy.bits .bf16 = 32 ∨ (Rect.block (s := S32x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .bf16 = 32 ∨ (Rect.block (s := S32x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x64x1024.size a ≤ S16x64x1024.size a
  hwx3_3 : ∀ i : grid3.Coords, EltTy.bits .bf16 = 32 ∨ (Rect.block (s := S16x64x1024) S1x64x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x512x1024.size a ≤ S2x2048x1024.size a
  hwx3_5 : ∀ i : grid3.Coords, EltTy.bits .f32 = 32 ∨ (Rect.block (s := S2x2048x1024) S1x512x1024.size (cc3_transform_5 i) (hinb3_5 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x64x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v19) S1x512x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S_, .f32⟩
  | .hbm, ⟨33, _⟩ => ⟨S2x16x2048, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x64, .f32⟩
  | .hbm, ⟨45, _⟩ => ⟨S2x2048x16x64, .f32⟩
  | .hbm, ⟨46, _⟩ => ⟨S2x2048x1024, .f32⟩
  | .hbm, ⟨47, _⟩ => ⟨S2x2048x1024, .f32⟩
  | .hbm, ⟨48, _⟩ => ⟨S1x1x1024, .f32⟩
  | .hbm, ⟨49, _⟩ => ⟨S2x2048x1024, .f32⟩
  | .hbm, ⟨50, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.WProj0.lean ====
/-
  The class-A half of projection region 0 (pallas_call 0: one head's projection of one 512-row tile per grid point),
  stated at a parameter `V`, the contents of core `c`'s buffers when the region is entered.

  A grid point is (head h, batch b, row tile i). Its three input windows hold a 512×1024 tile of the activations, the
  head's 1024×64 slice of the transposed weights and the head's 1×64 bias; the body stores, whole, the 512×64 tile
  `x · w + bias` into the output window. So after the body at a point every input buffer still holds its block and the
  output buffer holds the payload of the three blocks; nothing else of the core's state is touched.
-/
import proofs.«104749_j59691455480063_2_alg».proof.Proof.Gen.Kernel.Launch
import proofs.«104749_j59691455480063_2_alg».proof.Proof.Gen.Kernel.Skeleton
import proofs.«104749_j59691455480063_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Proj0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, whether the point fetched it or the block index has not moved
    since the fetch, for any proof data whose array is the region-entry contents and whose body leaves the block in place. -/
theorem before_in0 {c : Dev nD} (dat : Dat τ (Elt F) Unit ℕ (UR sig nD τ) ℕ cfg0 c)
    (hA : dat.A 0 = V c (Pipeline.arrRef spec0 0)) (hafter : ∀ t, dat.after 0 t = blk V c 0 t) (t : Fin cfg0.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block at every point, whether the point fetched it or the block index has not moved
    since the fetch, for any proof data whose array is the region-entry contents and whose body leaves the block in place. -/
theorem before_in1 {c : Dev nD} (dat : Dat τ (Elt F) Unit ℕ (UR sig nD τ) ℕ cfg0 c)
    (hA : dat.A 1 = V c (Pipeline.arrRef spec0 1)) (hafter : ∀ t, dat.after 1 t = blk V c 1 t) (t : Fin cfg0.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block at every point, whether the point fetched it or the block index has not moved
    since the fetch, for any proof data whose array is the region-entry contents and whose body leaves the block in place. -/
theorem before_in2 {c : Dev nD} (dat : Dat τ (Elt F) Unit ℕ (UR sig nD τ) ℕ cfg0 c)
    (hA : dat.A 2 = V c (Pipeline.arrRef spec0 2)) (hafter : ∀ t, dat.after 2 t = blk V c 2 t) (t : Fin cfg0.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S1x512x1024 := Rect.unit (s := S1x512x1024) ![0, 0, 0] S1x512x1024.size inb_S1x512x1024_S1x512x1024_0_0_0
abbrev rW : Rect S1x1024x64 := Rect.unit (s := S1x1024x64) ![0, 0, 0] S1x1024x64.size inb_S1x1024x64_S1x1024x64_0_0_0
abbrev rB : Rect S1x1x64 := Rect.unit (s := S1x1x64) ![0, 0, 0] S1x1x64.size inb_S1x1x64_S1x1x64_0_0_0
abbrev rO : Rect S1x512x64 := Rect.unit (s := S1x512x64) ![0, 0, 0] S1x512x64.size inb_S1x512x64_S1x512x64_0_0_0

/-- The output window's buffer after the body, from the three input blocks: the one store, of the whole tile. -/
def outTile (x : Vec F S1x512x1024 .f32) (w : Vec F S1x1024x64 .bf16) (b : Vec F S1x1x64 .f32) : Vec F S1x512x64 .bf16 :=
  View.canon [⟨rO, k0_pay1 (View.ld x rX) (View.ld w rW) (View.ld b rB)⟩]

/-- The one store covers the buffer. -/
theorem cover (p : Vec F S1x512x64 .bf16) (y : S1x512x64.Idx) :
    ∃ pc ∈ ([⟨rO, p⟩] : List (View.Piece (Elt F) S1x512x64 .bf16)), y ∈ pc.1.set :=
  View.cover_of_tiled [⟨rO, p⟩] S1x512x64.size (by rfl) y

/-! ## The body's triple -/

set_option maxHeartbeats 1000000 in
/-- On whole staging buffers, the inputs' at contents `x`, `w`, `b` and the output's at anything, the body runs to the
    continuation with the inputs' as they were and the output's at `outTile x w b`. -/
theorem sound_kernel (c : Dev nD) (E : Set ℕ) (i : grid0.Coords)
    (arg3 : Memref sig .tc .vmem S1x512x1024 .f32) (harg3 : arg3.IsWhole) (arg4 : Memref sig .tc .vmem S1x1024x64 .bf16) (harg4 : arg4.IsWhole)
    (arg5 : Memref sig .tc .vmem S1x1x64 .f32) (harg5 : arg5.IsWhole) (arg6 : Memref sig .tc .vmem S1x512x64 .bf16) (harg6 : arg6.IsWhole)
    (x : Vec F S1x512x1024 .f32) (w : Vec F S1x1024x64 .bf16) (b : Vec F S1x1x64 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d)
        ∗ (iprop(owns (c : Thread nD τ) arg3 fullShare x ∗ owns (c : Thread nD τ) arg4 fullShare w ∗ owns (c : Thread nD τ) arg5 fullShare b
            ∗ owns (c : Thread nD τ) arg6 fullShare (outTile x w b)) -∗ K ⟨⟩))
      ⊢ wp frame (wpE (defs₀ (F := F)) Variants.none c none) E (cc0__proj_head_kernel i arg3 harg3 arg4 harg4 arg5 harg5 arg6 harg6) K := by
  simp only [cc0__proj_head_kernel_eq_skeleton]; unfold cc0__proj_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data -/

/-- The proof data of this pipeline on core `c`: the arrays as the region finds them; after the body at a point each
    input's buffer at its block and the output's at the payload of the three blocks; the invariant is the scoped buffers no
    window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outTile (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = outTile (blk V c 0 t) (blk V c 1 t) (blk V c 2 t) := by dsimp only [dat]

theorem before_0 (c : Dev nD) (t : Fin cfg0.N) (d) : (dat V c).before 0 t d = blk V c 0 t :=
  before_in0 V (dat V c) (A_eq V c 0) (after_0 V c) t d
theorem before_1 (c : Dev nD) (t : Fin cfg0.N) (d) : (dat V c).before 1 t d = blk V c 1 t :=
  before_in1 V (dat V c) (A_eq V c 1) (after_1 V c) t d
theorem before_2 (c : Dev nD) (t : Fin cfg0.N) (d) : (dat V c).before 2 t d = blk V c 2 t :=
  before_in2 V (dat V c) (A_eq V c 2) (after_2 V c) t d

/-! ## The body at a grid point -/

/-- What the body is called with at point `t`: the invariant, the core's dues, every window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Proj0

end
-- ==== Proof.WProj1.lean ====
/-
  The class-A half of projection region 1 (pallas_call 1: one head's projection of one 512-row tile per grid point),
  stated at a parameter `V`, the contents of core `c`'s buffers when the region is entered.

  A grid point is (head h, batch b, row tile i). Its three input windows hold a 512×1024 tile of the activations, the
  head's 1024×64 slice of the transposed weights and the head's 1×64 bias; the body stores, whole, the 512×64 tile
  `x · w + bias` into the output window. So after the body at a point every input buffer still holds its block and the
  output buffer holds the payload of the three blocks; nothing else of the core's state is touched.
-/
import proofs.«104749_j59691455480063_2_alg».proof.Proof.Gen.Kernel.Launch
import proofs.«104749_j59691455480063_2_alg».proof.Proof.Gen.Kernel.Skeleton
import proofs.«104749_j59691455480063_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Proj1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether the point fetched it or the block index has not moved
    since the fetch, for any proof data whose array is the region-entry contents and whose body leaves the block in place. -/
theorem before_in0 {c : Dev nD} (dat : Dat τ (Elt F) Unit ℕ (UR sig nD τ) ℕ cfg1 c)
    (hA : dat.A 0 = V c (Pipeline.arrRef spec1 0)) (hafter : ∀ t, dat.after 0 t = blk V c 0 t) (t : Fin cfg1.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block at every point, whether the point fetched it or the block index has not moved
    since the fetch, for any proof data whose array is the region-entry contents and whose body leaves the block in place. -/
theorem before_in1 {c : Dev nD} (dat : Dat τ (Elt F) Unit ℕ (UR sig nD τ) ℕ cfg1 c)
    (hA : dat.A 1 = V c (Pipeline.arrRef spec1 1)) (hafter : ∀ t, dat.after 1 t = blk V c 1 t) (t : Fin cfg1.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block at every point, whether the point fetched it or the block index has not moved
    since the fetch, for any proof data whose array is the region-entry contents and whose body leaves the block in place. -/
theorem before_in2 {c : Dev nD} (dat : Dat τ (Elt F) Unit ℕ (UR sig nD τ) ℕ cfg1 c)
    (hA : dat.A 2 = V c (Pipeline.arrRef spec1 2)) (hafter : ∀ t, dat.after 2 t = blk V c 2 t) (t : Fin cfg1.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S1x512x1024 := Rect.unit (s := S1x512x1024) ![0, 0, 0] S1x512x1024.size inb_S1x512x1024_S1x512x1024_0_0_0
abbrev rW : Rect S1x1024x64 := Rect.unit (s := S1x1024x64) ![0, 0, 0] S1x1024x64.size inb_S1x1024x64_S1x1024x64_0_0_0
abbrev rB : Rect S1x1x64 := Rect.unit (s := S1x1x64) ![0, 0, 0] S1x1x64.size inb_S1x1x64_S1x1x64_0_0_0
abbrev rO : Rect S1x512x64 := Rect.unit (s := S1x512x64) ![0, 0, 0] S1x512x64.size inb_S1x512x64_S1x512x64_0_0_0

/-- The output window's buffer after the body, from the three input blocks: the one store, of the whole tile. -/
def outTile (x : Vec F S1x512x1024 .f32) (w : Vec F S1x1024x64 .bf16) (b : Vec F S1x1x64 .f32) : Vec F S1x512x64 .bf16 :=
  View.canon [⟨rO, k1_pay1 (View.ld x rX) (View.ld w rW) (View.ld b rB)⟩]

/-- The one store covers the buffer. -/
theorem cover (p : Vec F S1x512x64 .bf16) (y : S1x512x64.Idx) :
    ∃ pc ∈ ([⟨rO, p⟩] : List (View.Piece (Elt F) S1x512x64 .bf16)), y ∈ pc.1.set :=
  View.cover_of_tiled [⟨rO, p⟩] S1x512x64.size (by rfl) y

/-! ## The body's triple -/

set_option maxHeartbeats 1000000 in
/-- On whole staging buffers, the inputs' at contents `x`, `w`, `b` and the output's at anything, the body runs to the
    continuation with the inputs' as they were and the output's at `outTile x w b`. -/
theorem sound_kernel (c : Dev nD) (E : Set ℕ) (i : grid1.Coords)
    (arg3 : Memref sig .tc .vmem S1x512x1024 .f32) (harg3 : arg3.IsWhole) (arg4 : Memref sig .tc .vmem S1x1024x64 .bf16) (harg4 : arg4.IsWhole)
    (arg5 : Memref sig .tc .vmem S1x1x64 .f32) (harg5 : arg5.IsWhole) (arg6 : Memref sig .tc .vmem S1x512x64 .bf16) (harg6 : arg6.IsWhole)
    (x : Vec F S1x512x1024 .f32) (w : Vec F S1x1024x64 .bf16) (b : Vec F S1x1x64 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d)
        ∗ (iprop(owns (c : Thread nD τ) arg3 fullShare x ∗ owns (c : Thread nD τ) arg4 fullShare w ∗ owns (c : Thread nD τ) arg5 fullShare b
            ∗ owns (c : Thread nD τ) arg6 fullShare (outTile x w b)) -∗ K ⟨⟩))
      ⊢ wp frame (wpE (defs₀ (F := F)) Variants.none c none) E (cc1__proj_head_kernel i arg3 harg3 arg4 harg4 arg5 harg5 arg6 harg6) K := by
  simp only [cc1__proj_head_kernel_eq_skeleton]; unfold cc1__proj_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data -/

/-- The proof data of this pipeline on core `c`: the arrays as the region finds them; after the body at a point each
    input's buffer at its block and the output's at the payload of the three blocks; the invariant is the scoped buffers no
    window stages and the generator register, untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outTile (blk V c 0 t) (blk V c 1 t) (blk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = outTile (blk V c 0 t) (blk V c 1 t) (blk V c 2 t) := by dsimp only [dat]

theorem before_0 (c : Dev nD) (t : Fin cfg1.N) (d) : (dat V c).before 0 t d = blk V c 0 t :=
  before_in0 V (dat V c) (A_eq V c 0) (after_0 V c) t d
theorem before_1 (c : Dev nD) (t : Fin cfg1.N) (d) : (dat V c).before 1 t d = blk V c 1 t :=
  before_in1 V (dat V c) (A_eq V c 1) (after_1 V c) t d
theorem before_2 (c : Dev nD) (t : Fin cfg1.N) (d) : (dat V c).before 2 t d = blk V c 2 t :=
  before_in2 V (dat V c) (A_eq V c 2) (after_2 V c) t d

/-! ## The body at a grid point -/

/-- What the body is called with at point `t`: the invariant, the core's dues, every window's current buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Proj1

end
-- ==== Proof.WProj2.lean ====
/-
  The class-A half of projection region 2 (pallas_call 2: one head's projection of one 512-row tile per grid point),
  stated at a parameter `V`, the contents of core `c`'s buffers when the region is entered.

  A grid point is (head h, batch b, row tile i). Its three input windows hold a 512×1024 tile of the activations, the
  head's 1024×64 slice of the transposed weights and the head's 1×64 bias; the body stores, whole, the 512×64 tile
  `x · w + bias` into the output window. So after the body at a point every input buffer still holds its block and the
  output buffer holds the payload of the three blocks; nothing else of the core's state is touched.
-/
import proofs.«104749_j59691455480063_2_alg».proof.Proof.Gen.Kernel.Launch
import proofs.«104749_j59691455480063_2_alg».proof.Proof.Gen.Kernel.Skeleton
import proofs.«104749_j59691455480063_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Proj2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the window's array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, whether the point fetched it or the block index has not moved
    since the fetch, for any proof data whose array is the region-entry contents and whose body leaves the block in place. -/
theorem before_in0 {c : Dev nD} (dat : Dat τ (Elt F) Unit ℕ (UR sig nD τ) ℕ cfg2 c)
    (hA : dat.A 0 = V c (Pipeline.arrRef spec2 0)) (hafter : ∀ t, dat.after 0 t = blk V c 0 t) (t : Fin cfg2.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block at every point, whether the point fetched it or the block index has not moved
    since the fetch, for any proof data whose array is the region-entry contents and whose body leaves the block in place. -/
theorem before_in1 {c : Dev nD} (dat : Dat τ (Elt F) Unit ℕ (UR sig nD τ) ℕ cfg2 c)
    (hA : dat.A 1 = V c (Pipeline.arrRef spec2 1)) (hafter : ∀ t, dat.after 1 t = blk V c 1 t) (t : Fin cfg2.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block at every point, whether the point fetched it or the block index has not moved
    since the fetch, for any proof data whose array is the region-entry contents and whose body leaves the block in place. -/
theorem before_in2 {c : Dev nD} (dat : Dat τ (Elt F) Unit ℕ (UR sig nD τ) ℕ cfg2 c)
    (hA : dat.A 2 = V c (Pipeline.arrRef spec2 2)) (hafter : ∀ t, dat.after 2 t = blk V c 2 t) (t : Fin cfg2.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S1x512x1024 := Rect.unit (s := S1x512x1024) ![0, 0, 0] S1x512x1024.size inb_S1x512x1024_S1x512x1024_0_0_0
abbrev rW : Rect S1x1024x64 := Rect.unit (s := S1x1024x64) ![0, 0, 0] S1x1024x64.size inb_S1x1024x64_S1x1024x64_0_0_0
abbrev rB : Rect S1x1x64 := Rect.unit (s := S1x1x64) ![0, 0, 0] S1x1x64.size inb_S1x1x64_S1x1x64_0_0_0
abbrev rO : Rect S1x512x64 := Rect.unit (s := S1x512x64) ![0, 0, 0] S1x512x64.size inb_S1x512x64_S1x512x64_0_0_0

/-- The output window's buffer after the body, from the three input blocks: the one store, of the whole tile. -/
def outTile (x : Vec F S1x512x1024 .f32) (w : Vec F S1x1024x64 .bf16) (b : Vec F S1x1x64 .f32) : Vec F S1x512x64 .bf16 :=
  View.canon [⟨rO, k2_pay1 (View.ld x rX) (View.ld w rW) (View.ld b rB)⟩]

/-- The one store covers the buffer. -/
theorem cover (p : Vec F S1x512x64 .bf16) (y : S1x512x64.Idx) :
    ∃ pc ∈ ([⟨rO, p⟩] : List (View.Piece (Elt F) S1x512x64 .bf16)), y ∈ pc.1.set :=
  View.cover_of_tiled [⟨rO, p⟩] S1x512x64.size (by rfl) y

/-! ## The body's triple -/

set_option maxHeartbeats 1000000 in
/-- On whole staging buffers, the inputs' at contents `x`, `w`, `b` and the output's at anything, the body runs to the
    continuation with the inputs' as they were and the output's at `outTile x w b`. -/
theorem sound_kernel (c : Dev nD) (E : Set ℕ) (i : grid2.Coords)
    (arg3 : Memref sig .tc .vmem S1x512x1024 .f32) (harg3 : arg3.IsWhole) (arg4 : Memref sig .tc .vmem S1x1024x64 .bf16) (harg4 : arg4.IsWhole)
    (arg5 : Memref sig .tc .vmem S1x1x64 .f32) (harg5 : arg5.IsWhole) (arg6 : Memref sig .tc .vmem S1x512x64 .bf16) (harg6 : arg6.IsWhole)
    (x : Vec F S1x512x1024 .f32) (w : Vec F S1x1024x64 .bf16) (b : Vec F S1x1x64 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d)
        ∗ (iprop(owns (c : Thread nD τ) arg3 fullShare x ∗ owns (c : Thread nD τ) arg4 fullShare w ∗ owns (c : Thread nD τ) arg5 fullShare b
            ∗ owns (c : Thread nD τ) arg6 fullShare (outTile x w b)) -∗ K ⟨⟩))
      ⊢ wp frame (wpE (defs₀ (F := F)) Variants.none c none) E (cc2__proj_head_kernel i arg3 harg3 arg4 harg4 arg5 harg5 arg6 harg6) K := by
  simp only [cc2__proj_head_kernel_eq_skeleton]; unfold cc2__proj_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data -/

/-- The proof data of this pipeline on core `c`: the arrays as the region finds them; after the body at a point each
    input's buffer at its block and the output's at the payload of the three blocks; the invariant is the scoped buffers no
    window stages and the generator register, untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outTile (blk V c 0 t) (blk V c 1 t) (blk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) :
    (dat V c).after 3 t = outTile (blk V c 0 t) (blk V c 1 t) (blk V c 2 t) := by dsimp only [dat]

theorem before_0 (c : Dev nD) (t : Fin cfg2.N) (d) : (dat V c).before 0 t d = blk V c 0 t :=
  before_in0 V (dat V c) (A_eq V c 0) (after_0 V c) t d
theorem before_1 (c : Dev nD) (t : Fin cfg2.N) (d) : (dat V c).before 1 t d = blk V c 1 t :=
  before_in1 V (dat V c) (A_eq V c 1) (after_1 V c) t d
theorem before_2 (c : Dev nD) (t : Fin cfg2.N) (d) : (dat V c).before 2 t d = blk V c 2 t :=
  before_in2 V (dat V c) (A_eq V c 2) (after_2 V c) t d

/-! ## The body at a grid point -/

/-- What the body is called with at point `t`: the invariant, the core's dues, every window's current buffer. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- What it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Proj2

end
-- ==== Proof.WRun.lean ====
/-
  The whole program as six segments — a stretch of host operations (the weights re-laid per head), the three projection
  regions, a second host stretch (the output weights re-laid per head, the bias as a row), the attention region — run
  from the launch to the return, with the contents of every unscoped buffer named at every boundary.

  Boundary contents, on core `c`: `U1` is the launch memory after the first host stretch; each projection region changes
  one buffer, its result array, to what its write-backs leave (`U2`, `U3`, `U4`); `U5` is `U4` after the second host
  stretch; the attention region changes the program's result array (`U6`). No segment writes an argument array.

  The attention region's half (its proof data and body obligation, and how its invariant takes in and gives back the
  scratch buffer it carries) enters as hypotheses: the module that proves them instantiates this one.
-/
import proofs.«104749_j59691455480063_2_alg».proof.Proof.Gen.Kernel.Regions
import proofs.«104749_j59691455480063_2_alg».proof.Proof.WProj0
import proofs.«104749_j59691455480063_2_alg».proof.Proof.WProj1
import proofs.«104749_j59691455480063_2_alg».proof.Proof.WProj2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev U0 (c : Dev nD) : Valuation τ sig (Elt F) := fun b => m (c, b)
/-- After the first host stretch: where projection region 0 is entered. -/
abbrev U1 (c : Dev nD) : Valuation τ sig (Elt F) := StableHlo.after hostOps0 (U0 m c)
abbrev T1 (c : Dev nD) (b : Ref sig .tc) : Buf (Elt F) ((c : Thread nD τ).loc b) := U1 m c b
/-- What projection region 0 leaves in its result array: its write-backs folded. -/
def o2 (c : Dev nD) : Buf (Elt F) ((c : Thread nD τ).loc main_v12) := (Proj0.dat (T1 m) c).arrAt 3 cfg0.N
/-- After projection region 0. -/
def U2 (c : Dev nD) : Valuation τ sig (Elt F) := Function.update (U1 m c) (Proc.devRef .tc main_v12) (o2 m c)
abbrev T2 (c : Dev nD) (b : Ref sig .tc) : Buf (Elt F) ((c : Thread nD τ).loc b) := U2 m c b
def o3 (c : Dev nD) : Buf (Elt F) ((c : Thread nD τ).loc main_v13) := (Proj1.dat (T2 m) c).arrAt 3 cfg1.N
/-- After projection region 1. -/
def U3 (c : Dev nD) : Valuation τ sig (Elt F) := Function.update (U2 m c) (Proc.devRef .tc main_v13) (o3 m c)
abbrev T3 (c : Dev nD) (b : Ref sig .tc) : Buf (Elt F) ((c : Thread nD τ).loc b) := U3 m c b
def o4 (c : Dev nD) : Buf (Elt F) ((c : Thread nD τ).loc main_v14) := (Proj2.dat (T3 m) c).arrAt 3 cfg2.N
/-- After projection region 2. -/
def U4 (c : Dev nD) : Valuation τ sig (Elt F) := Function.update (U3 m c) (Proc.devRef .tc main_v14) (o4 m c)
/-- After the second host stretch: where the attention region is entered. -/
abbrev U5 (c : Dev nD) : Valuation τ sig (Elt F) := StableHlo.after hostOps3 (U4 m c)
abbrev T5 (c : Dev nD) (b : Ref sig .tc) : Buf (Elt F) ((c : Thread nD τ).loc b) := U5 m c b

abbrev T4 (c : Dev nD) (b : Ref sig .tc) : Buf (Elt F) ((c : Thread nD τ).loc b) := U4 m c b

/-- At projection region 0's exit each of its arrays holds what the pipeline leaves: the inputs what they held (an input
    window's array is never written), the result array the folded write-backs. -/
theorem arr0 (c : Dev nD) : ∀ w : Fin cfg0.W, (Proj0.dat (T1 m) c).arrAt w cfg0.N = T2 m c (Pipeline.arrRef spec0 w)
  | ⟨0, _⟩ => (((Proj0.dat (T1 m) c).arrAt_in 0 rfl _).trans (Proj0.A_eq (T1 m) c 0)).trans
      (by unfold T2 U2; exact (Function.update_of_ne (StableHlo.devRef_ne_of_ne (by decide)) _ _).symm)
  | ⟨1, _⟩ => (((Proj0.dat (T1 m) c).arrAt_in 1 rfl _).trans (Proj0.A_eq (T1 m) c 1)).trans
      (by unfold T2 U2; exact (Function.update_of_ne (StableHlo.devRef_ne_of_ne (by decide)) _ _).symm)
  | ⟨2, _⟩ => (((Proj0.dat (T1 m) c).arrAt_in 2 rfl _).trans (Proj0.A_eq (T1 m) c 2)).trans
      (by unfold T2 U2; exact (Function.update_of_ne (StableHlo.devRef_ne_of_ne (by decide)) _ _).symm)
  | ⟨3, _⟩ => (Function.update_self (Proc.devRef .tc main_v12 : DevRef τ sig) (o2 m c) (U1 m c)).symm
/-- Every buffer that is none of the region's arrays holds at exit what it held at entry. -/
theorem rest0 (c : Dev nD) : ∀ b, b ∉ Finset.univ.image (Pipeline.arrRef spec0) → T2 m c b = T1 m c b :=
  fun b hb => by
    unfold T2 U2
    exact Function.update_of_ne (StableHlo.devRef_ne_of_ne fun e => hb (Finset.mem_image.mpr ⟨3, Finset.mem_univ _, e.symm⟩)) _ _

/-- At projection region 1's exit each of its arrays holds what the pipeline leaves: the inputs what they held (an input
    window's array is never written), the result array the folded write-backs. -/
theorem arr1 (c : Dev nD) : ∀ w : Fin cfg1.W, (Proj1.dat (T2 m) c).arrAt w cfg1.N = T3 m c (Pipeline.arrRef spec1 w)
  | ⟨0, _⟩ => (((Proj1.dat (T2 m) c).arrAt_in 0 rfl _).trans (Proj1.A_eq (T2 m) c 0)).trans
      (by unfold T3 U3; exact (Function.update_of_ne (StableHlo.devRef_ne_of_ne (by decide)) _ _).symm)
  | ⟨1, _⟩ => (((Proj1.dat (T2 m) c).arrAt_in 1 rfl _).trans (Proj1.A_eq (T2 m) c 1)).trans
      (by unfold T3 U3; exact (Function.update_of_ne (StableHlo.devRef_ne_of_ne (by decide)) _ _).symm)
  | ⟨2, _⟩ => (((Proj1.dat (T2 m) c).arrAt_in 2 rfl _).trans (Proj1.A_eq (T2 m) c 2)).trans
      (by unfold T3 U3; exact (Function.update_of_ne (StableHlo.devRef_ne_of_ne (by decide)) _ _).symm)
  | ⟨3, _⟩ => (Function.update_self (Proc.devRef .tc main_v13 : DevRef τ sig) (o3 m c) (U2 m c)).symm
/-- Every buffer that is none of the region's arrays holds at exit what it held at entry. -/
theorem rest1 (c : Dev nD) : ∀ b, b ∉ Finset.univ.image (Pipeline.arrRef spec1) → T3 m c b = T2 m c b :=
  fun b hb => by
    unfold T3 U3
    exact Function.update_of_ne (StableHlo.devRef_ne_of_ne fun e => hb (Finset.mem_image.mpr ⟨3, Finset.mem_univ _, e.symm⟩)) _ _

/-- At projection region 2's exit each of its arrays holds what the pipeline leaves: the inputs what they held (an input
    window's array is never written), the result array the folded write-backs. -/
theorem arr2 (c : Dev nD) : ∀ w : Fin cfg2.W, (Proj2.dat (T3 m) c).arrAt w cfg2.N = T4 m c (Pipeline.arrRef spec2 w)
  | ⟨0, _⟩ => (((Proj2.dat (T3 m) c).arrAt_in 0 rfl _).trans (Proj2.A_eq (T3 m) c 0)).trans
      (by unfold T4 U4; exact (Function.update_of_ne (StableHlo.devRef_ne_of_ne (by decide)) _ _).symm)
  | ⟨1, _⟩ => (((Proj2.dat (T3 m) c).arrAt_in 1 rfl _).trans (Proj2.A_eq (T3 m) c 1)).trans
      (by unfold T4 U4; exact (Function.update_of_ne (StableHlo.devRef_ne_of_ne (by decide)) _ _).symm)
  | ⟨2, _⟩ => (((Proj2.dat (T3 m) c).arrAt_in 2 rfl _).trans (Proj2.A_eq (T3 m) c 2)).trans
      (by unfold T4 U4; exact (Function.update_of_ne (StableHlo.devRef_ne_of_ne (by decide)) _ _).symm)
  | ⟨3, _⟩ => (Function.update_self (Proc.devRef .tc main_v14 : DevRef τ sig) (o4 m c) (U3 m c)).symm
/-- Every buffer that is none of the region's arrays holds at exit what it held at entry. -/
theorem rest2 (c : Dev nD) : ∀ b, b ∉ Finset.univ.image (Pipeline.arrRef spec2) → T4 m c b = T3 m c b :=
  fun b hb => by
    unfold T4 U4
    exact Function.update_of_ne (StableHlo.devRef_ne_of_ne fun e => hb (Finset.mem_image.mpr ⟨3, Finset.mem_univ _, e.symm⟩)) _ _

/-! ## The attention region's half, assumed -/

variable (dat3 : (c : Dev nD) → Dat τ (Elt F) Unit ℕ (UR sig nD τ) ℕ cfg3 c)

/-- What the attention region leaves in the program's result array. -/
def o6 (c : Dev nD) : Buf (Elt F) ((c : Thread nD τ).loc main_v19) := (dat3 c).arrAt 5 cfg3.N
/-- After the attention region: the contents the program returns with. -/
def U6 (c : Dev nD) : Valuation τ sig (Elt F) := Function.update (U5 m c) (Proc.devRef .tc main_v19) (o6 dat3 c)
abbrev T6 (c : Dev nD) (b : Ref sig .tc) : Buf (Elt F) ((c : Thread nD τ).loc b) := U6 m dat3 c b

theorem arr3 (hA3 : ∀ c w, (dat3 c).A w = T5 m c (Pipeline.arrRef spec3 w)) (c : Dev nD) :
    ∀ w : Fin cfg3.W, (dat3 c).arrAt w cfg3.N = T6 m dat3 c (Pipeline.arrRef spec3 w)
  | ⟨0, _⟩ => (((dat3 c).arrAt_in 0 rfl _).trans (hA3 c 0)).trans
      (by unfold T6 U6; exact (Function.update_of_ne (StableHlo.devRef_ne_of_ne (by decide)) _ _).symm)
  | ⟨1, _⟩ => (((dat3 c).arrAt_in 1 rfl _).trans (hA3 c 1)).trans
      (by unfold T6 U6; exact (Function.update_of_ne (StableHlo.devRef_ne_of_ne (by decide)) _ _).symm)
  | ⟨2, _⟩ => (((dat3 c).arrAt_in 2 rfl _).trans (hA3 c 2)).trans
      (by unfold T6 U6; exact (Function.update_of_ne (StableHlo.devRef_ne_of_ne (by decide)) _ _).symm)
  | ⟨3, _⟩ => (((dat3 c).arrAt_in 3 rfl _).trans (hA3 c 3)).trans
      (by unfold T6 U6; exact (Function.update_of_ne (StableHlo.devRef_ne_of_ne (by decide)) _ _).symm)
  | ⟨4, _⟩ => (((dat3 c).arrAt_in 4 rfl _).trans (hA3 c 4)).trans
      (by unfold T6 U6; exact (Function.update_of_ne (StableHlo.devRef_ne_of_ne (by decide)) _ _).symm)
  | ⟨5, _⟩ => (Function.update_self (Proc.devRef .tc main_v19 : DevRef τ sig) (o6 dat3 c) (U5 m c)).symm
theorem rest3 (c : Dev nD) : ∀ b, b ∉ Finset.univ.image (Pipeline.arrRef spec3) → T6 m dat3 c b = T5 m c b :=
  fun b hb => by
    unfold T6 U6
    exact Function.update_of_ne (StableHlo.devRef_ne_of_ne fun e => hb (Finset.mem_image.mpr ⟨5, Finset.mem_univ _, e.symm⟩)) _ _

/-! ## The proof data of the four pipelines, and what rides beside the buffers -/

/-- Every pipeline's proof data, each at its region's entry contents: a literal match, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => Proj0.dat (T1 m) c
  | ⟨1, _⟩ => fun c => Proj1.dat (T2 m) c
  | ⟨2, _⟩ => fun c => Proj2.dat (T3 m) c
  | ⟨3, _⟩ => fun c => dat3 c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and its dues, at nothing. -/
abbrev R (c : Dev nD) : sProp 𝕄 := iprop((∃ r, prngReg c r) ∗ ∃ W, owes (c : Thread nD τ) (0 : CellTallies nD τ sig Unit) W)

/-- A host stretch as a segment over the unscoped buffers from contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- Projection region 0 over the thread state: entered with every unscoped buffer at `U1`, left with them at `U2`.
    Its four arrays are split out of the unscoped buffers at entry and put back at their final contents at exit; the
    generator register goes into the region's invariant and comes back; nothing is owed; the kernel has no semaphore. -/
def reg0 : Pipeline.RegionSeg (pcfgs (F := F)) adm (pdats m dat3) () defs₀ 𝒱₀ L lv 0 where
  win := launch0.win.to₀
  block_pos := launch0.block_pos
  stage_whole := launch0.stage_whole
  K := PEmpty
  osem k := k.elim
  ho := Pipeline.OwnSemFacts.none _
  hbody c := (Proj0.body_obligation (T1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m dat3) launch0.win launch0.arr_whole c
      ((pdats m dat3 0 c).share_full fun _ => rfl) (T1 m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (pdats m dat3 0 c).Φ 0 = Pipeline.ΦA spec0 c from rfl]; unfold Pipeline.ΦA
    iintro ⟨Hgen, -, Hsc⟩
    isplitl [Hsc]; · iexact Hsc
    iexact Hgen
  hout c := by
    rw [Pipeline.ownSems0_none, show (pdats m dat3 0 c).Φ (Fin.last _) = Pipeline.ΦA spec0 c from rfl]; unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m dat3) ((pdats m dat3 0 c).share_full fun _ => rfl)
      (T1 m c) (fun b => U2 m c b) ((pdats m dat3 0 c).arrAt · cfg0.N) (arr0 m c) (rest0 m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- Projection region 1 over the thread state: entered with every unscoped buffer at `U2`, left with them at `U3`.
    Its four arrays are split out of the unscoped buffers at entry and put back at their final contents at exit; the
    generator register goes into the region's invariant and comes back; nothing is owed; the kernel has no semaphore. -/
def reg1 : Pipeline.RegionSeg (pcfgs (F := F)) adm (pdats m dat3) () defs₀ 𝒱₀ L lv 1 where
  win := launch1.win.to₀
  block_pos := launch1.block_pos
  stage_whole := launch1.stage_whole
  K := PEmpty
  osem k := k.elim
  ho := Pipeline.OwnSemFacts.none _
  hbody c := (Proj1.body_obligation (T2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) adm (pdats m dat3) launch1.win launch1.arr_whole c
      ((pdats m dat3 1 c).share_full fun _ => rfl) (T2 m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (pdats m dat3 1 c).Φ 0 = Pipeline.ΦA spec1 c from rfl]; unfold Pipeline.ΦA
    iintro ⟨Hgen, -, Hsc⟩
    isplitl [Hsc]; · iexact Hsc
    iexact Hgen
  hout c := by
    rw [Pipeline.ownSems0_none, show (pdats m dat3 1 c).Φ (Fin.last _) = Pipeline.ΦA spec1 c from rfl]; unfold Pipeline.ΦA
    iintro ⟨Hsc, Hgen⟩
    isplitl [Hgen]; · iexact Hgen
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m dat3) ((pdats m dat3 1 c).share_full fun _ => rfl)
      (T2 m c) (fun b => U3 m c b) ((pdats m dat3 1 c).arrAt · cfg1.N) (arr1 m c) (rest1 m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- Projection region 2 over the thread state: entered with every unscoped buffer at `U3`, left with them at `U4`.
    Its four arrays are split out of the unscoped buffers at entry and put back at their final contents at exit; the
    generator register goes into the region's invariant and comes back; nothing is owed; the kernel has no semaphore. -/
def reg2 : Pipeline.RegionSeg (pcfgs (F := F)) adm (pdats m dat3) () defs₀ 𝒱₀ L lv 2 where
  win := launch2.win.to₀
  block_pos := launch2.block_pos
  stage_whole := launch2.stage_whole
  K := PEmpty
  osem k := k.elim
  ho := Pipeline.OwnSemFacts.none _
  hbody c := (Proj2.body_obligation (T3 m) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) adm (pdats m dat3) launch2.win launch2.arr_whole c
      ((pdats m dat3 2 c).share_full fun _ => rfl) (T3 m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (pdats m dat3 2 c).Φ 0 = Pipeline.ΦA spec2 c from rfl]; unfold Pipeline.ΦA
    iintro ⟨Hgen, -, Hsc⟩
    isplitl [Hsc]; · iexact Hsc
    iexact Hgen
  hout c := by
    rw [Pipeline.ownSems0_none, show (pdats m dat3 2 c).Φ (Fin.last _) = Pipeline.ΦA spec2 c from rfl]; unfold Pipeline.ΦA
    iintro ⟨Hsc, Hgen⟩
    isplitl [Hgen]; · iexact Hgen
    isplitr; · iempintro
    iexact Hsc
  hexit c := by
    have hjoin := Pipeline.unscopedBufs_of_arrays (p := 2) (pcfgs (F := F)) adm (Ix := Unit) (Name := ℕ) (U := UR sig nD τ) (Lvl := ℕ)
      launch2.win launch2.arr_whole c (pdats m dat3) ((pdats m dat3 2 c).share_full fun _ => rfl)
      (T3 m c) (fun b => U4 m c b) ((pdats m dat3 2 c).arrAt · cfg2.N) (arr2 m c) (rest2 m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

/-! ## The attention region as a segment, and the run -/

/-- The attention region's half, at the contents `U5` it is entered with: its proof data, reading its arrays off `U5`,
    at full shares, owing nothing, with no bound on recorded waits; the body obligation at every point; and its invariant
    made, before the first point, from the generator register and the scoped buffers no window stages, and giving them
    back after the last. -/
structure AttnHalf where
  dat : (c : Dev nD) → Dat τ (Elt F) Unit ℕ (UR sig nD τ) ℕ cfg3 c
  hA : ∀ c w, (dat c).A w = T5 m c (Pipeline.arrRef spec3 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, iprop((∃ r, prngReg c r) ∗ Pipeline.scopedRest (Ix := Unit) (Name := ℕ) (U := UR sig nD τ) (Lvl := ℕ) (Val := Elt F) spec3 c)
    ⊢ ((dat c).Φ 0 : sProp 𝕄)
  hout : ∀ c, ((dat c).Φ (Fin.last cfg3.N) : sProp 𝕄)
    ⊢ iprop((∃ r, prngReg c r) ∗ Pipeline.scopedRest (Ix := Unit) (Name := ℕ) (U := UR sig nD τ) (Lvl := ℕ) (Val := Elt F) spec3 c)

variable (a : AttnHalf m)

/-- The last thread state without the dues: every unscoped buffer at the final contents, the generator register at some state. -/
abbrev Tend (c : Dev nD) : sProp 𝕄 :=
  iprop(StableHlo.held (c : Thread nD τ) (Pipeline.ucRefs τ sig) (U6 m a.dat c) ∗ ∃ r, prngReg c r)

set_option backward.isDefEq.respectTransparency.types false in
/-- The attention region over the thread state: entered with every unscoped buffer at `U5`, left with them at `U6`. Its
    six arrays are split out at entry and put back at exit; its invariant takes the generator register and the scoped
    buffers no window stages — among them the scratch it carries from head to head — and gives them back. -/
def reg3 : Pipeline.RegionSeg (pcfgs (F := F)) adm (pdats m a.dat) () defs₀ 𝒱₀ L lv 3 where
  win := launch3.win.to₀
  block_pos := launch3.block_pos
  stage_whole := launch3.stage_whole
  K := PEmpty
  osem k := k.elim
  ho := Pipeline.OwnSemFacts.none _
  hbody c := (a.hbody c).loose
  hwaits := Pipeline.hwaits_of_owed_zero _ _ _ _ L lv 3 fun c t => a.howed c t
  pre c := iprop(StableHlo.held (c : Thread nD τ) (Pipeline.ucRefs τ sig) (U5 m c) ∗ R c)
  post c := iprop(Tend m a c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (T5 m c)
  hentry c := by
    rw [Pipeline.ownSems0_none]
    have hsplit := Pipeline.arrays_of_unscopedBufs (p := 3) (pcfgs (F := F)) adm (pdats m a.dat) launch3.win launch3.arr_whole c
      ((pdats m a.dat 3 c).share_full fun w => a.hq c w) (T5 m c) fun w => a.hA c w
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      rw [show (pdats m a.dat 3 c).owed 0 = 0 from a.howed c 0]
      icases Hdue with ⟨%W, Hdue⟩; iexists W; isplitr; · ipureintro; exact fun _ _ => Or.inl (by rw [show (pdats m a.dat 3 c).recorded 0 = Set.univ from a.hrec c 0]; trivial)
      iexact Hdue
    isplitl [Hgen]; · iexact Hgen
    iexact Hrest
  hin c := by
    rw [show (pdats m a.dat 3 c).Φ 0 = (a.dat c).Φ 0 from rfl]
    iintro ⟨Hgen, -, Hsc⟩
    iapply a.hin c
    isplitl [Hgen]; · iexact Hgen
    iexact Hsc
  hout c := by
    rw [Pipeline.ownSems0_none, show (pdats m a.dat 3 c).Φ (Fin.last _) = (a.dat c).Φ (Fin.last cfg3.N) from rfl]
    iintro H
    ihave H2 := a.hout c $$ H
    icases H2 with ⟨Hgen, Hsc⟩
    isplitl [Hgen]; · iexact Hgen
    isplitr; · iempintro
    iexact Hsc
  hexit c := by
    have hjoin := Pipeline.unscopedBufs_of_arrays (p := 3) (pcfgs (F := F)) adm (Ix := Unit) (Name := ℕ) (U := UR sig nD τ) (Lvl := ℕ)
      launch3.win launch3.arr_whole c (pdats m a.dat) ((pdats m a.dat 3 c).share_full fun w => a.hq c w)
      (T5 m c) (fun b => U6 m a.dat c b) ((pdats m a.dat 3 c).arrAt · cfg3.N) (arr3 m a.dat a.hA c) (rest3 m a.dat c)
    rw [Pipeline.unscopedBufs_held] at hjoin
    iintro ⟨Harr, Hdue, Hgen, Hrest⟩
    imodintro
    isplitl [Harr Hrest Hgen]
    · isplitl [Harr Hrest]
      · iapply hjoin; isplitl [Harr] <;> iassumption
      iexact Hgen
    unfold Pipeline.Dat.owesAt Pipeline.owesWithin
    rw [show (pdats m a.dat 3 c).owed (Fin.last _) = 0 from a.howed c _]
    icases Hdue with ⟨%W, -, Hdue⟩; iexists W; iexact Hdue

/-- The program's six segments in order. -/
abbrev segs : List (Pipeline.Seg (pcfgs (F := F)) adm (pdats m a.dat) () defs₀ 𝒱₀ L lv) :=
  [ .host (hseg hostOps0 hostOps0_sub hostOps0_fresh (U0 m)),
    .region (reg0 m a.dat),
    .region (reg1 m a.dat),
    .region (reg2 m a.dat),
    .host (hseg hostOps3 hostOps3_sub hostOps3_fresh (U4 m)),
    .region (reg3 m a) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of the program terminates, nothing faulting,
    and in every final state each unscoped buffer of each core holds the last boundary's contents `U6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m a.dat c b) :=
  Pipeline.θ_run_regions_kit (pcfgs (F := F)) adm (pdats m a.dat) () cellOf_inj emb₁ defs₀ 𝒱₀ L lv m ρ main
    (segs m a)
    (fun c Q => by
      rw [main_segs adm (pdats m a.dat) () 𝒱₀ L lv (hseg hostOps0 hostOps0_sub hostOps0_fresh (U0 m))
        (hseg hostOps3 hostOps3_sub hostOps3_fresh (U4 m)) (reg0 m a.dat) (reg1 m a.dat) (reg2 m a.dat)
        (reg3 m a) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tend m a)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m a.dat c b)
    (hfin := fun c s' => by
      iintro ⟨⟨Hh, -⟩, HSI⟩
      unfold StableHlo.held
      imodintro
      iapply (pointsTo_read_all (Pipeline.ucRefs τ sig) (fun b => (((c : Thread nD τ)).1, b)) (U6 m a.dat c) s')
      isplitl [Hh] <;> iassumption)
    (hQ := fun s h => h)

end Cert.Kernel.Whole

end
-- ==== Proof.WAttnBase.lean ====
/-
  The attention kernel of the fourth call, one grid point at a time: what is shared by its three head cases.

  The grid is (batch, query tile, head), the head innermost, sixteen heads. The body zeroes its accumulator at head 0,
  adds one head's contribution at every head, and at head 15 writes accumulator plus bias to the output block. The two
  conditions depend on the head coordinate alone, so a point is in exactly one of three cases: first head, a middle
  head, last head.
-/
import proofs.«104749_j59691455480063_2_alg».proof.Proof.Gen.Kernel.Launch
import proofs.«104749_j59691455480063_2_alg».proof.Proof.Gen.Kernel.Skeleton
import proofs.«104749_j59691455480063_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, and where they hold -/

/-- The body zeroes its accumulator here: the head coordinate is 0. -/
abbrev isFirst (i : grid3.Coords) : Prop :=
  (Scalar.cmpi .ne (Scalar.extui (Scalar.cmpi .eq (BitVec.ofNat 32 (i 2).val) 0#32)) 0#32) = 1#1
/-- The body writes the output block here: the head coordinate is 15. -/
abbrev isLast (i : grid3.Coords) : Prop := k3_cond2 i = 1#1

/-- The first-head points are those whose position is a multiple of 16. -/
theorem isFirst_iff : ∀ t : Fin cfg3.N, isFirst (grid3.coords t) ↔ t.val % 16 = 0 :=
  (by decide +kernel : ∀ t : Fin grid3.N, isFirst (grid3.coords t) ↔ t.val % 16 = 0)
/-- The last-head points are those whose position is 15 modulo 16. -/
theorem isLast_iff : ∀ t : Fin cfg3.N, isLast (grid3.coords t) ↔ t.val % 16 = 15 :=
  (by decide +kernel : ∀ t : Fin grid3.N, isLast (grid3.coords t) ↔ t.val % 16 = 15)

/-! ## Where the windows are idle -/

theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel
theorem live_4 : ∀ t : Fin cfg3.N, cfg3.idle 4 (grid3.coords t) = false := by decide +kernel
/-- Off the last head the output window is idle, -/
theorem idle_5 : ∀ t : Fin cfg3.N, ¬isLast (grid3.coords t) → cfg3.idle 5 (grid3.coords t) = true := by decide +kernel
/-- and its block is not written back; -/
theorem noFlush_5 : ∀ t : Fin cfg3.N, ¬isLast (grid3.coords t) → (cfg3.win 5).flush t = false := by decide +kernel
/-- at the last head it is live. -/
theorem live_5 : ∀ t : Fin cfg3.N, isLast (grid3.coords t) → cfg3.idle 5 (grid3.coords t) = false := by decide +kernel

/-! ## Whole-buffer loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole of a whole buffer held at the contents that read `X` reads `X`. -/
theorem readAt_all {sp : Space} {s : Shape} {e : EltTy} {m : Memref sig .tc sp s e} (h : m.IsWhole) (X : s.Idx → Elt F e)
    {off : Fin s.rank → Nat} (hoff : off = fun _ => 0) (inb : ∀ a, off a + s.size a ≤ s.size a) :
    View.readAt (Elt F) m.view (Rect.unit off s.size inb).toLoadRect (h.unread X) = X := by
  rw [View.readAt_eq_ld, h.read_unread, View.ld_unit_zero hoff]

/-- One store of the whole buffer, the last, leaves its payload, whatever was stored before and held before. -/
theorem read_stored_all {sp : Space} {s : Shape} {e : EltTy} (v : View sig .tc sp s e) (f : v.ty.Contents (Elt F))
    {off : Fin s.rank → Nat} (hoff : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero hoff inb y⟩),
    View.canon_cons_unit_zero hoff]

end Cert.Kernel.Attn

end
-- ==== Proof.WAttnFirst.lean ====
/-
  The attention kernel at a first-head point: the accumulator, whatever it held, is set to zero, and one head's
  contribution is added to it; the output block is not touched.
-/
import proofs.«104749_j59691455480063_2_alg».proof.Proof.WAttnBase

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a first-head point, on whole buffers — the five inputs at `x0 … x4`, the output block at `y5`, the accumulator at
    anything — the body runs to the continuation with the inputs and the output block as they were and the accumulator at
    the first head's contribution added to the zero block. -/
theorem run_first (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole)
    (hc0 : isFirst i) (hc1 : ¬isLast i) (x0 : Vec F S1x512x64 .bf16) (x1 : Vec F S1x2048x64 .bf16) (x2 : Vec F S1x2048x64 .bf16) (x3 : Vec F S1x64x1024 .bf16) (x4 : Vec F S1x1024 .f32)
    (y5 : Vec F S1x512x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y5
        ∗ owns (c : Thread nD τ) arg9 fullShare (k3_pay3 x0 x1 x2 x3 (k3_pay2 (F := F)))) -∗ K ⟨⟩))
      ⊢ wp frame (wpE (defs₀ (F := F)) Variants.none c none) E (cc3__attn_o_kernel i arg3 harg3 arg4 harg4 arg5 harg5 arg6 harg6 arg7 harg7 arg8 harg8 arg9 harg9) K := by
  simp only [cc3__attn_o_kernel_eq_skeleton]; unfold cc3__attn_o_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact hf4
    iexact H4
  isplitl [H5]
  · iexists _; isplitr; · ipureintro; exact hf5
    iexact H5
  iexists _; isplitr
  swap; · iexact H9
  ipureintro
  rw [read_stored_all _ _ hz2]
  sl_unfold_run_names
  rw [View.readCov_unit_zero (S := S512x1024) _ hz2]
  simp only [readAt_all harg3 _ hz3, readAt_all harg4 _ hz3, readAt_all harg5 _ hz3, readAt_all harg6 _ hz3]

end Cert.Kernel.Attn

end
-- ==== Proof.WAttnMid.lean ====
/-
  The attention kernel at a middle-head point: one head's contribution is added to the accumulator; the output block is
  not touched.
-/
import proofs.«104749_j59691455480063_2_alg».proof.Proof.WAttnFirst

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle-head point, on whole buffers — the five inputs at `x0 … x4`, the output block at `y5`, the accumulator at
    `a` — the body runs to the continuation with the inputs and the output block as they were and the accumulator at `a`
    plus this head's contribution. -/
theorem run_mid (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole)
    (hc0 : ¬isFirst i) (hc1 : ¬isLast i) (x0 : Vec F S1x512x64 .bf16) (x1 : Vec F S1x2048x64 .bf16) (x2 : Vec F S1x2048x64 .bf16) (x3 : Vec F S1x64x1024 .bf16) (x4 : Vec F S1x1024 .f32)
    (y5 : Vec F S1x512x1024 .f32) (a : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y5
        ∗ owns (c : Thread nD τ) arg9 fullShare a
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y5
        ∗ owns (c : Thread nD τ) arg9 fullShare (k3_pay3 x0 x1 x2 x3 a)) -∗ K ⟨⟩))
      ⊢ wp frame (wpE (defs₀ (F := F)) Variants.none c none) E (cc3__attn_o_kernel i arg3 harg3 arg4 harg4 arg5 harg5 arg6 harg6 arg7 harg7 arg8 harg8 arg9 harg9) K := by
  simp only [cc3__attn_o_kernel_eq_skeleton]; unfold cc3__attn_o_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, Hk⟩
  obtain rfl := harg3.eq_unread hf0; obtain rfl := harg4.eq_unread hf1; obtain rfl := harg5.eq_unread hf2
  obtain rfl := harg6.eq_unread hf3; obtain rfl := harg9.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact hf4
    iexact H4
  isplitl [H5]
  · iexists _; isplitr; · ipureintro; exact hf5
    iexact H5
  iexists _; isplitr
  swap; · iexact H9
  ipureintro
  rw [read_stored_all _ _ hz2]
  simp only [readAt_all harg3 _ hz3, readAt_all harg4 _ hz3, readAt_all harg5 _ hz3, readAt_all harg6 _ hz3, readAt_all harg9 _ hz2]

end Cert.Kernel.Attn

end
-- ==== Proof.WAttnLast.lean ====
/-
  The attention kernel at a last-head point: the last head's contribution is added to the accumulator, and the
  accumulator plus the bias row is written to the output block.
-/
import proofs.«104749_j59691455480063_2_alg».proof.Proof.WAttnMid

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a last-head point, on whole buffers — the five inputs at `x0 … x4`, the output block at anything, the accumulator
    at `a` — the body runs to the continuation with the inputs as they were, the accumulator at `a` plus this head's
    contribution, and the output block at that sum plus the bias row. -/
theorem run_last (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole)
    (hc0 : ¬isFirst i) (hc1 : isLast i) (x0 : Vec F S1x512x64 .bf16) (x1 : Vec F S1x2048x64 .bf16) (x2 : Vec F S1x2048x64 .bf16) (x3 : Vec F S1x64x1024 .bf16) (x4 : Vec F S1x1024 .f32)
    (a : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare a
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare (k3_pay1 (k3_pay3 x0 x1 x2 x3 a) x4)
        ∗ owns (c : Thread nD τ) arg9 fullShare (k3_pay3 x0 x1 x2 x3 a)) -∗ K ⟨⟩))
      ⊢ wp frame (wpE (defs₀ (F := F)) Variants.none c none) E (cc3__attn_o_kernel i arg3 harg3 arg4 harg4 arg5 harg5 arg6 harg6 arg7 harg7 arg8 harg8 arg9 harg9) K := by
  simp only [cc3__attn_o_kernel_eq_skeleton]; unfold cc3__attn_o_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    rw [read_stored_all _ _ hz3]
    sl_unfold_run_names
    rw [View.readCov_unit_zero (S := S512x1024) _ hz2]
    simp only [readAt_all harg3 _ hz3, readAt_all harg4 _ hz3, readAt_all harg5 _ hz3, readAt_all harg6 _ hz3, readAt_all harg7 _ hz2, readAt_all harg9 _ hz2]
  iexists _; isplitr
  swap; · iexact H9
  ipureintro
  sl_unfold_run_names
  rw [read_stored_all _ _ hz2]
  simp only [readAt_all harg3 _ hz3, readAt_all harg4 _ hz3, readAt_all harg5 _ hz3, readAt_all harg6 _ hz3, readAt_all harg9 _ hz2]

end Cert.Kernel.Attn

end
-- ==== Proof.WAttn.lean ====
/-
  The attention kernel of the fourth call as one pipeline: its frame half, at any contents `V` of the core's buffers when
  the call is entered.

  The accumulator buffer is carried from point to point over the sixteen heads of a (batch, query tile) pair: `acc3` names
  what it holds after each point, the invariant `PhiS` keeps the buffer at that value between points, and the proof data
  `dat3` states what every window's staging buffer holds after the body. The body obligation follows from the three head
  cases' runs by the position modulo 16.
-/
import proofs.«104749_j59691455480063_2_alg».proof.Proof.WAttnLast

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accumulator over the sixteen heads -/

/-- The accumulator after the body at position `n`: this head's contribution added to the zero block at a first head,
    to what the point before left otherwise. -/
def acc3 (c : Dev nD) : (n : ℕ) → n < cfg3.N → Vec F S512x1024 .f32
  | 0, hn => k3_pay3 (iblk3 V c 0 ⟨0, hn⟩) (iblk3 V c 1 ⟨0, hn⟩) (iblk3 V c 2 ⟨0, hn⟩) (iblk3 V c 3 ⟨0, hn⟩) (k3_pay2 (F := F))
  | n + 1, hn => k3_pay3 (iblk3 V c 0 ⟨n + 1, hn⟩) (iblk3 V c 1 ⟨n + 1, hn⟩) (iblk3 V c 2 ⟨n + 1, hn⟩) (iblk3 V c 3 ⟨n + 1, hn⟩)
      (if (n + 1) % 16 = 0 then k3_pay2 (F := F) else acc3 c n (Nat.lt_of_succ_lt hn))

/-- At a first head the accumulator starts from the zero block. -/
theorem acc3_first (c : Dev nD) (t : Fin cfg3.N) (h : t.val % 16 = 0) :
    acc3 V c t.val t.isLt = k3_pay3 (iblk3 V c 0 t) (iblk3 V c 1 t) (iblk3 V c 2 t) (iblk3 V c 3 t) (k3_pay2 (F := F)) := by
  obtain ⟨n, hn⟩ := t
  cases n with
  | zero => rfl
  | succ n => exact congrArg (k3_pay3 _ _ _ _) (if_pos h)

/-- At any other head it continues from what the point before left. -/
theorem acc3_next (c : Dev nD) (t : Fin cfg3.N) (h : ¬t.val % 16 = 0) :
    acc3 V c t.val t.isLt = k3_pay3 (iblk3 V c 0 t) (iblk3 V c 1 t) (iblk3 V c 2 t) (iblk3 V c 3 t)
      (acc3 V c (t.val - 1) (Nat.lt_of_le_of_lt (Nat.sub_le _ _) t.isLt)) := by
  obtain ⟨n, hn⟩ := t
  cases n with
  | zero => exact absurd (Nat.zero_mod _) h
  | succ n => exact congrArg (k3_pay3 _ _ _ _) (if_neg h)

/-! ## The invariant: the accumulator buffer between points -/

/-- The accumulator buffer, whole. -/
abbrev scM : Memref sig .tc .vmem S512x1024 .f32 := Memref.whole cc3_scratch0

/-- The other scoped buffers, unopened. -/
abbrev restBut (c : Dev nD) : sProp 𝕄 :=
  Pipeline.scopedRestBut (Ix := Unit) (Name := ℕ) (U := UR sig nD τ) (Lvl := ℕ) (Val := Elt F) spec3 c [cc3_scratch0]

/-- What the call is entered with and left with: the accumulator buffer at some contents, the other scoped buffers, the
    generator register at some state. -/
theorem PhiA3_eq (c : Dev nD) :
    (Pipeline.ΦA spec3 c : sProp 𝕄)
      = iprop(iprop(iprop((∃ d, owns (c : Thread nD τ) scM fullShare d)) ∗ restBut c) ∗ (∃ r, prngReg c r)) := by
  unfold Pipeline.ΦA; rw [scopedRest3_split]; simp only [scM, owns_whole]; try rfl

/-- The invariant before position `n`: before the first point what the call is entered with; afterwards the same with
    the accumulator buffer at what the point before left. -/
def PhiS (c : Dev nD) : (n : ℕ) → n ≤ cfg3.N → sProp 𝕄
  | 0, _ => Pipeline.ΦA spec3 c
  | n + 1, hn => iprop(iprop(owns (c : Thread nD τ) scM fullShare (acc3 V c n hn) ∗ restBut c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare (acc3 V c n hn) ∗ restBut c) ∗ (∃ r, prngReg c r)) := rfl

theorem PhiS_pos (c : Dev nD) (n : ℕ) (h : n ≤ cfg3.N) (hz : n ≠ 0) :
    PhiS V c n h = iprop(iprop(owns (c : Thread nD τ) scM fullShare (acc3 V c (n - 1) (by omega)) ∗ restBut c) ∗ (∃ r, prngReg c r)) := by
  cases n with
  | zero => exact absurd rfl hz
  | succ n => rfl

/-- At any position the invariant yields the accumulator buffer at some contents: its named contents forgotten. -/
theorem PhiS_forget (c : Dev nD) (n : ℕ) (h : n ≤ cfg3.N) : PhiS V c n h ⊢ Pipeline.ΦA spec3 c := by
  cases n with
  | zero => exact Idealize.SL.BI.Entails.refl _
  | succ n =>
    rw [PhiS_succ, PhiA3_eq]
    iintro ⟨⟨HS, Hb⟩, Hg⟩
    isplitl [HS Hb]
    · isplitl [HS]
      · iexists _; iexact HS
      iexact Hb
    iexact Hg

/-! ## The proof data of the call -/

/-- The proof data of the call on core `c`: the arrays as the call finds them; after the body at point `t` each input's
    buffer at its block, the output's at the accumulator there plus the bias row (what the last head stores; at the other
    heads the window is idle and this is not read); the invariant `PhiS`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (acc3 V c t.val t.isLt) (iblk3 V c 4 t)
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc (c : Dev nD) (t : Fin cfg3.N) :
    (dat3 V c).Φ t.castSucc = PhiS V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = k3_pay1 (acc3 V c t.val t.isLt) (iblk3 V c 4 t) := by dsimp only [dat3]

/-- Each input's current staging buffer holds its block at every point, fetched there or not: where it is not fetched
    the block index has not moved and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
      (fun t => by rw [after3_4]; unfold Dat.blockOf iblk3; rw [A_eq3]; try rfl) t d).trans
    (by unfold Dat.fetched Dat.blockOf iblk3; rw [A_eq3]; try rfl)

/-! ## The body obligation -/

/-- What the body leaves in each input window's buffer: its block, the windows being live everywhere. -/
theorem leaves3_0 (c : Dev nD) (t : Fin cfg3.N) :
    (dat3 V c).leavesExact 0 t = owns (c : Thread nD τ) (st3_0 t) fullShare (iblk3 V c 0 t) := by
  unfold Dat.leavesExact; rw [live_0 t, after3_0]
theorem leaves3_1 (c : Dev nD) (t : Fin cfg3.N) :
    (dat3 V c).leavesExact 1 t = owns (c : Thread nD τ) (st3_1 t) fullShare (iblk3 V c 1 t) := by
  unfold Dat.leavesExact; rw [live_1 t, after3_1]
theorem leaves3_2 (c : Dev nD) (t : Fin cfg3.N) :
    (dat3 V c).leavesExact 2 t = owns (c : Thread nD τ) (st3_2 t) fullShare (iblk3 V c 2 t) := by
  unfold Dat.leavesExact; rw [live_2 t, after3_2]
theorem leaves3_3 (c : Dev nD) (t : Fin cfg3.N) :
    (dat3 V c).leavesExact 3 t = owns (c : Thread nD τ) (st3_3 t) fullShare (iblk3 V c 3 t) := by
  unfold Dat.leavesExact; rw [live_3 t, after3_3]
theorem leaves3_4 (c : Dev nD) (t : Fin cfg3.N) :
    (dat3 V c).leavesExact 4 t = owns (c : Thread nD τ) (st3_4 t) fullShare (iblk3 V c 4 t) := by
  unfold Dat.leavesExact; rw [live_4 t, after3_4]

/-- The invariant at any position opened: the accumulator buffer at some contents, the other scoped buffers, the
    generator register. -/
theorem PhiS_open (c : Dev nD) (n : ℕ) (h : n ≤ cfg3.N) :
    PhiS V c n h ⊢ iprop(iprop(iprop((∃ d, owns (c : Thread nD τ) scM fullShare d)) ∗ restBut c) ∗ (∃ r, prngReg c r)) :=
  (PhiS_forget V c n h).trans (Entails.of_eq (PhiA3_eq c))

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point. The inputs' buffers hold their blocks; the position modulo 16 says which head case the point is
    in, and that case's run applies: at a first head the accumulator buffer is taken at whatever it holds, at the other
    heads at what the point before left; it is handed back at this point's accumulator. Off the last head the output
    window is idle and its buffer is handed back as found; at the last head it is left at the accumulator plus bias. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS V c (t.val + 1) t.isLt from rfl, PhiS_succ]
  rw [leaves3_0, leaves3_1, leaves3_2, leaves3_3, leaves3_4, PhiS_castSucc V c t]
  have hN : t.val < 128 := lt_of_lt_of_eq t.isLt (show cfg3.N = 128 from N_3)
  by_cases h0 : t.val % 16 = 0
  · have hc0 : isFirst (grid3.coords t) := (isFirst_iff t).mpr h0
    have hc1 : ¬isLast (grid3.coords t) := fun h => by have := (isLast_iff t).mp h; omega
    rw [Dat.leavesExact_idle (dat3 V c) 5 t (idle_5 t hc1) (noFlush_5 t hc1)]
    rw [acc3_first V c t h0]
    iintro ⟨HΦ, Ho, ⟨%d0, H0⟩, ⟨%d1, H1⟩, ⟨%d2, H2⟩, ⟨%d3, H3⟩, ⟨%d4, H4⟩, ⟨%d5, H5⟩⟩
    ihave HA := (PhiS_open V c _ _) $$ HΦ
    icases HA with ⟨⟨HS, Hb⟩, Hg⟩
    iapply (run_first c (grid3.coords t) _ _ _ _ _ _ _ _ _ _ _ _ _ _ hc0 hc1
      (iblk3 V c 0 t) (iblk3 V c 1 t) (iblk3 V c 2 t) (iblk3 V c 3 t) (iblk3 V c 4 t) ((dat3 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hb Hg]
    · isplitl [HS Hb]
      · isplitl [HS]; · iexact HS
        iexact Hb
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬isFirst (grid3.coords t) := fun h => h0 ((isFirst_iff t).mp h)
    have hz : t.val ≠ 0 := fun h => h0 (by rw [h])
    rw [acc3_next V c t h0, PhiS_pos V c _ _ hz]
    by_cases h1 : t.val % 16 = 15
    · have hc1 : isLast (grid3.coords t) := (isLast_iff t).mpr h1
      rw [show (dat3 V c).leavesExact 5 t = owns (c : Thread nD τ) (st3_5 t) fullShare ((dat3 V c).after 5 t) from by
        unfold Dat.leavesExact; rw [live_5 t hc1], after3_5, acc3_next V c t h0]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run_last c (grid3.coords t) _ _ _ _ _ _ _ _ _ _ _ _ _ _ hc0 hc1
        (iblk3 V c 0 t) (iblk3 V c 1 t) (iblk3 V c 2 t) (iblk3 V c 3 t) (iblk3 V c 4 t) (acc3 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬isLast (grid3.coords t) := fun h => h1 ((isLast_iff t).mp h)
      rw [Dat.leavesExact_idle (dat3 V c) 5 t (idle_5 t hc1) (noFlush_5 t hc1)]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run_mid c (grid3.coords t) _ _ _ _ _ _ _ _ _ _ _ _ _ _ hc0 hc1
        (iblk3 V c 0 t) (iblk3 V c 1 t) (iblk3 V c 2 t) (iblk3 V c 3 t) (iblk3 V c 4 t) ((dat3 V c).before 5 t d5) (acc3 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the call, at every point. -/
theorem body_obligation3 (c : Dev nD) : BodyObligation (dat3 (F := F) V c) (defs₀ (F := F)) Variants.none () Set.univ := fun t => by
  rw [bigSep_W3, bigSep_W3]
  exact sound_body3 V c t

/-! ## Entering and leaving the call -/

/-- What the call is entered with is the invariant before the first point. -/
theorem hin3' (c : Dev nD) : Pipeline.ΦA spec3 c ⊢ (dat3 V c).Φ 0 := by
  rw [show (dat3 V c).Φ 0 = PhiS V c 0 (Nat.zero_le _) from rfl, PhiS_zero V c 0 _ rfl]

/-- The same, from the generator register and the scoped buffers as two conjuncts. -/
theorem hin3 (c : Dev nD) :
    iprop((∃ r, prngReg c r) ∗ Pipeline.scopedRest (Ix := Unit) (Name := ℕ) (U := UR sig nD τ) (Lvl := ℕ) (Val := Elt F) spec3 c) ⊢ ((dat3 V c).Φ 0 : sProp 𝕄) :=
  (show iprop((∃ r, prngReg c r) ∗ Pipeline.scopedRest (Ix := Unit) (Name := ℕ) (U := UR sig nD τ) (Lvl := ℕ) (Val := Elt F) spec3 c) ⊢ (Pipeline.ΦA spec3 c : sProp 𝕄) from by
    unfold Pipeline.ΦA
    iintro ⟨Hg, Hr⟩
    isplitl [Hr]; · iexact Hr
    iexact Hg).trans (hin3' V c)

/-- After the last point the invariant gives back what the call was entered with: the accumulator's named contents are
    forgotten. -/
theorem hout3' (c : Dev nD) : (dat3 V c).Φ (Fin.last cfg3.N) ⊢ Pipeline.ΦA spec3 c := by
  rw [show (dat3 V c).Φ (Fin.last cfg3.N) = PhiS V c (Fin.last cfg3.N).val (Nat.le_of_lt_succ (Fin.last cfg3.N).isLt) from rfl]
  exact PhiS_forget V c _ _

/-- The same, to the generator register and the scoped buffers as two conjuncts. -/
theorem hout3 (c : Dev nD) :
    ((dat3 V c).Φ (Fin.last cfg3.N) : sProp 𝕄) ⊢ iprop((∃ r, prngReg c r) ∗ Pipeline.scopedRest (Ix := Unit) (Name := ℕ) (U := UR sig nD τ) (Lvl := ℕ) (Val := Elt F) spec3 c) :=
  (hout3' V c).trans (show (Pipeline.ΦA spec3 c : sProp 𝕄) ⊢ iprop((∃ r, prngReg c r) ∗ Pipeline.scopedRest (Ix := Unit) (Name := ℕ) (U := UR sig nD τ) (Lvl := ℕ) (Val := Elt F) spec3 c) from by
    unfold Pipeline.ΦA
    iintro ⟨Hr, Hg⟩
    isplitl [Hg]; · iexact Hg
    iexact Hr)

/-- The three side facts of the proof data: full shares, nothing owed, nothing recorded beyond the default. -/
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

/-- info: 'Cert.Kernel.Attn.body_obligation3' depends on axioms: [propext, Classical.choice, Quot.sound] -/
#guard_msgs in #print axioms body_obligation3

end Cert.Kernel.Attn

end
-- ==== Proof.WFrame.lean ====
/-
  The frame: every weakly fair execution of the program terminates, nothing faulting, and the eleven argument arrays end
  holding what they held at launch.

  It is read off the run of the six segments: a host stretch changes only the buffers it writes and a region only its
  result array, none of which is an argument, so the last boundary's contents at an argument are the launch contents.
  The attention region's half comes from the module that proves it, at the contents the region is entered with.
-/
import proofs.«104749_j59691455480063_2_alg».proof.Proof.WRun
import proofs.«104749_j59691455480063_2_alg».proof.Proof.WAttn

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## What each segment leaves alone -/

/-- The first host stretch changes only the buffers it writes. -/
theorem U1_arg (c : Dev nD) (r : Ref sig .tc) (h : r ∉ hostOps0_W) : U1 m c r = m ((c : Thread nD τ).loc r) :=
  V1_of m c r h
/-- A projection region changes its result array only. -/
theorem U2_of (c : Dev nD) (r : Ref sig .tc) (h : r ≠ main_v12) : U2 m c r = U1 m c r := by
  unfold U2; exact Function.update_of_ne (StableHlo.devRef_ne_of_ne h) _ _
theorem U3_of (c : Dev nD) (r : Ref sig .tc) (h : r ≠ main_v13) : U3 m c r = U2 m c r := by
  unfold U3; exact Function.update_of_ne (StableHlo.devRef_ne_of_ne h) _ _
theorem U4_of (c : Dev nD) (r : Ref sig .tc) (h : r ≠ main_v14) : U4 m c r = U3 m c r := by
  unfold U4; exact Function.update_of_ne (StableHlo.devRef_ne_of_ne h) _ _
/-- The second host stretch changes only the buffers it writes. -/
theorem U5_of (c : Dev nD) (r : Ref sig .tc) (h : r ∉ hostOps3_W) : U5 m c r = U4 m c r :=
  StableHlo.after_of_writes_sub hostOps3 _ hostOps3_writes h
/-- The launch contents of an argument reach the second host stretch unchanged. -/
theorem U4_arg (c : Dev nD) (r : Ref sig .tc) (h0 : r ∉ hostOps0_W) (h12 : r ≠ main_v12) (h13 : r ≠ main_v13) (h14 : r ≠ main_v14) :
    U4 m c r = m ((c : Thread nD τ).loc r) :=
  (U4_of m c r h14).trans <| (U3_of m c r h13).trans <| (U2_of m c r h12).trans (U1_arg m c r h0)
/-- The attention region changes the program's result array only. -/
theorem U6_of (dat3 : (c : Dev nD) → Dat τ (Elt F) Unit ℕ (UR sig nD τ) ℕ cfg3 c) (c : Dev nD) (r : Ref sig .tc) (h : r ≠ main_v19) :
    U6 m dat3 c r = U5 m c r := by
  unfold U6; exact Function.update_of_ne (StableHlo.devRef_ne_of_ne h) _ _
/-- An argument array holds its launch contents at the last boundary. -/
theorem U6_arg (dat3 : (c : Dev nD) → Dat τ (Elt F) Unit ℕ (UR sig nD τ) ℕ cfg3 c) (c : Dev nD) (r : Ref sig .tc)
    (h0 : r ∉ hostOps0_W) (h3 : r ∉ hostOps3_W) (h12 : r ≠ main_v12) (h13 : r ≠ main_v13) (h14 : r ≠ main_v14) (h19 : r ≠ main_v19) :
    U6 m dat3 c r = m ((c : Thread nD τ).loc r) :=
  (U6_of m dat3 c r h19).trans <| (U5_of m c r h3).trans (U4_arg m c r h0 h12 h13 h14)

/-! ## The attention region's half, and the frame -/

/-- The attention region's half at the contents it is entered with. -/
def attnHalf : AttnHalf m where
  dat := fun c => Attn.dat3 (T5 m) c
  hA := Attn.A_eq3 (T5 m)
  hq := fun _ _ => rfl
  howed := fun _ _ => rfl
  hrec := fun _ _ => rfl
  hbody := Attn.body_obligation3 (T5 m)
  hin := Attn.hin3 (T5 m)
  hout := Attn.hout3 (T5 m)

/-- The run with the attention region's half supplied: every unscoped buffer ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = U6 m (attnHalf m).dat c b) :=
  run_all m ρ (attnHalf m)

/-- THE FRAME: the program terminates, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (U6_arg m _ c main_arg0 (by decide) (by decide) (by decide) (by decide) (by decide) (by decide)),
    (h c _ (mem_uc main_arg1 (by decide))).trans (U6_arg m _ c main_arg1 (by decide) (by decide) (by decide) (by decide) (by decide) (by decide)),
    (h c _ (mem_uc main_arg2 (by decide))).trans (U6_arg m _ c main_arg2 (by decide) (by decide) (by decide) (by decide) (by decide) (by decide)),
    (h c _ (mem_uc main_arg3 (by decide))).trans (U6_arg m _ c main_arg3 (by decide) (by decide) (by decide) (by decide) (by decide) (by decide)),
    (h c _ (mem_uc main_arg4 (by decide))).trans (U6_arg m _ c main_arg4 (by decide) (by decide) (by decide) (by decide) (by decide) (by decide)),
    (h c _ (mem_uc main_arg5 (by decide))).trans (U6_arg m _ c main_arg5 (by decide) (by decide) (by decide) (by decide) (by decide) (by decide)),
    (h c _ (mem_uc main_arg6 (by decide))).trans (U6_arg m _ c main_arg6 (by decide) (by decide) (by decide) (by decide) (by decide) (by decide)),
    (h c _ (mem_uc main_arg7 (by decide))).trans (U6_arg m _ c main_arg7 (by decide) (by decide) (by decide) (by decide) (by decide) (by decide)),
    (h c _ (mem_uc main_arg8 (by decide))).trans (U6_arg m _ c main_arg8 (by decide) (by decide) (by decide) (by decide) (by decide) (by decide)),
    (h c _ (mem_uc main_arg9 (by decide))).trans (U6_arg m _ c main_arg9 (by decide) (by decide) (by decide) (by decide) (by decide) (by decide)),
    (h c _ (mem_uc main_arg10 (by decide))).trans (U6_arg m _ c main_arg10 (by decide) (by decide) (by decide) (by decide) (by decide) (by decide))⟩)
    (run m ρ)

end Cert.Kernel.Whole

end
-- ==== Proof.Proj0.lean ====
/-
  The class-A half of projection region 0 (pallas_call 0: one head's projection of one 512-row tile per grid point),
  stated at a parameter `V`, the contents of core `c`'s buffers when the region is entered.

  A grid point is (head h, batch b, row tile i). Its three input windows hold a 512×1024 tile of the activations, the
  head's 1024×64 slice of the transposed weights and the head's 1×64 bias; the body stores, whole, the 512×64 tile
  `x · w + bias` into the output window. So after the body at a point every input buffer still holds its block and the
  output buffer holds the payload of the three blocks; nothing else of the core's state is touched.
-/
import proofs.«104749_j59691455480063_2_alg».proof.Proof.Gen.KernelIdeal.Launch
import proofs.«104749_j59691455480063_2_alg».proof.Proof.Gen.KernelIdeal.Skeleton
import proofs.«104749_j59691455480063_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Proj0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, whether the point fetched it or the block index has not moved
    since the fetch, for any proof data whose array is the region-entry contents and whose body leaves the block in place. -/
theorem before_in0 {c : Dev nD} (dat : Dat τ (Elt F) Unit ℕ (UR sig nD τ) ℕ cfg0 c)
    (hA : dat.A 0 = V c (Pipeline.arrRef spec0 0)) (hafter : ∀ t, dat.after 0 t = blk V c 0 t) (t : Fin cfg0.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block at every point, whether the point fetched it or the block index has not moved
    since the fetch, for any proof data whose array is the region-entry contents and whose body leaves the block in place. -/
theorem before_in1 {c : Dev nD} (dat : Dat τ (Elt F) Unit ℕ (UR sig nD τ) ℕ cfg0 c)
    (hA : dat.A 1 = V c (Pipeline.arrRef spec0 1)) (hafter : ∀ t, dat.after 1 t = blk V c 1 t) (t : Fin cfg0.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block at every point, whether the point fetched it or the block index has not moved
    since the fetch, for any proof data whose array is the region-entry contents and whose body leaves the block in place. -/
theorem before_in2 {c : Dev nD} (dat : Dat τ (Elt F) Unit ℕ (UR sig nD τ) ℕ cfg0 c)
    (hA : dat.A 2 = V c (Pipeline.arrRef spec0 2)) (hafter : ∀ t, dat.after 2 t = blk V c 2 t) (t : Fin cfg0.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S1x512x1024 := Rect.unit (s := S1x512x1024) ![0, 0, 0] S1x512x1024.size inb_S1x512x1024_S1x512x1024_0_0_0
abbrev rW : Rect S1x1024x64 := Rect.unit (s := S1x1024x64) ![0, 0, 0] S1x1024x64.size inb_S1x1024x64_S1x1024x64_0_0_0
abbrev rB : Rect S1x1x64 := Rect.unit (s := S1x1x64) ![0, 0, 0] S1x1x64.size inb_S1x1x64_S1x1x64_0_0_0
abbrev rO : Rect S1x512x64 := Rect.unit (s := S1x512x64) ![0, 0, 0] S1x512x64.size inb_S1x512x64_S1x512x64_0_0_0

/-- The output window's buffer after the body, from the three input blocks: the one store, of the whole tile. -/
def outTile (x : Vec F S1x512x1024 .f32) (w : Vec F S1x1024x64 .bf16) (b : Vec F S1x1x64 .f32) : Vec F S1x512x64 .bf16 :=
  View.canon [⟨rO, k0_pay1 (View.ld x rX) (View.ld w rW) (View.ld b rB)⟩]

/-- The one store covers the buffer. -/
theorem cover (p : Vec F S1x512x64 .bf16) (y : S1x512x64.Idx) :
    ∃ pc ∈ ([⟨rO, p⟩] : List (View.Piece (Elt F) S1x512x64 .bf16)), y ∈ pc.1.set :=
  View.cover_of_tiled [⟨rO, p⟩] S1x512x64.size (by rfl) y

/-! ## The body's triple -/

set_option maxHeartbeats 1000000 in
/-- On whole staging buffers, the inputs' at contents `x`, `w`, `b` and the output's at anything, the body runs to the
    continuation with the inputs' as they were and the output's at `outTile x w b`. -/
theorem sound_kernel (c : Dev nD) (E : Set ℕ) (i : grid0.Coords)
    (arg3 : Memref sig .tc .vmem S1x512x1024 .f32) (harg3 : arg3.IsWhole) (arg4 : Memref sig .tc .vmem S1x1024x64 .bf16) (harg4 : arg4.IsWhole)
    (arg5 : Memref sig .tc .vmem S1x1x64 .f32) (harg5 : arg5.IsWhole) (arg6 : Memref sig .tc .vmem S1x512x64 .bf16) (harg6 : arg6.IsWhole)
    (x : Vec F S1x512x1024 .f32) (w : Vec F S1x1024x64 .bf16) (b : Vec F S1x1x64 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d)
        ∗ (iprop(owns (c : Thread nD τ) arg3 fullShare x ∗ owns (c : Thread nD τ) arg4 fullShare w ∗ owns (c : Thread nD τ) arg5 fullShare b
            ∗ owns (c : Thread nD τ) arg6 fullShare (outTile x w b)) -∗ K ⟨⟩))
      ⊢ wp frame (wpE (defs₀ (F := F)) Variants.none c none) E (cc0__proj_head_kernel i arg3 harg3 arg4 harg4 arg5 harg5 arg6 harg6) K := by
  simp only [cc0__proj_head_kernel_eq_skeleton]; unfold cc0__proj_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data -/

/-- The proof data of this pipeline on core `c`: the arrays as the region finds them; after the body at a point each
    input's buffer at its block and the output's at the payload of the three blocks; the invariant is the scoped buffers no
    window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outTile (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = outTile (blk V c 0 t) (blk V c 1 t) (blk V c 2 t) := by dsimp only [dat]

theorem before_0 (c : Dev nD) (t : Fin cfg0.N) (d) : (dat V c).before 0 t d = blk V c 0 t :=
  before_in0 V (dat V c) (A_eq V c 0) (after_0 V c) t d
theorem before_1 (c : Dev nD) (t : Fin cfg0.N) (d) : (dat V c).before 1 t d = blk V c 1 t :=
  before_in1 V (dat V c) (A_eq V c 1) (after_1 V c) t d
theorem before_2 (c : Dev nD) (t : Fin cfg0.N) (d) : (dat V c).before 2 t d = blk V c 2 t :=
  before_in2 V (dat V c) (A_eq V c 2) (after_2 V c) t d

/-! ## The body at a grid point -/

/-- What the body is called with at point `t`: the invariant, the core's dues, every window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj0

end
-- ==== Proof.Proj1.lean ====
/-
  The class-A half of projection region 1 (pallas_call 1: one head's projection of one 512-row tile per grid point),
  stated at a parameter `V`, the contents of core `c`'s buffers when the region is entered.

  A grid point is (head h, batch b, row tile i). Its three input windows hold a 512×1024 tile of the activations, the
  head's 1024×64 slice of the transposed weights and the head's 1×64 bias; the body stores, whole, the 512×64 tile
  `x · w + bias` into the output window. So after the body at a point every input buffer still holds its block and the
  output buffer holds the payload of the three blocks; nothing else of the core's state is touched.
-/
import proofs.«104749_j59691455480063_2_alg».proof.Proof.Gen.KernelIdeal.Launch
import proofs.«104749_j59691455480063_2_alg».proof.Proof.Gen.KernelIdeal.Skeleton
import proofs.«104749_j59691455480063_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Proj1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether the point fetched it or the block index has not moved
    since the fetch, for any proof data whose array is the region-entry contents and whose body leaves the block in place. -/
theorem before_in0 {c : Dev nD} (dat : Dat τ (Elt F) Unit ℕ (UR sig nD τ) ℕ cfg1 c)
    (hA : dat.A 0 = V c (Pipeline.arrRef spec1 0)) (hafter : ∀ t, dat.after 0 t = blk V c 0 t) (t : Fin cfg1.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block at every point, whether the point fetched it or the block index has not moved
    since the fetch, for any proof data whose array is the region-entry contents and whose body leaves the block in place. -/
theorem before_in1 {c : Dev nD} (dat : Dat τ (Elt F) Unit ℕ (UR sig nD τ) ℕ cfg1 c)
    (hA : dat.A 1 = V c (Pipeline.arrRef spec1 1)) (hafter : ∀ t, dat.after 1 t = blk V c 1 t) (t : Fin cfg1.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block at every point, whether the point fetched it or the block index has not moved
    since the fetch, for any proof data whose array is the region-entry contents and whose body leaves the block in place. -/
theorem before_in2 {c : Dev nD} (dat : Dat τ (Elt F) Unit ℕ (UR sig nD τ) ℕ cfg1 c)
    (hA : dat.A 2 = V c (Pipeline.arrRef spec1 2)) (hafter : ∀ t, dat.after 2 t = blk V c 2 t) (t : Fin cfg1.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S1x512x1024 := Rect.unit (s := S1x512x1024) ![0, 0, 0] S1x512x1024.size inb_S1x512x1024_S1x512x1024_0_0_0
abbrev rW : Rect S1x1024x64 := Rect.unit (s := S1x1024x64) ![0, 0, 0] S1x1024x64.size inb_S1x1024x64_S1x1024x64_0_0_0
abbrev rB : Rect S1x1x64 := Rect.unit (s := S1x1x64) ![0, 0, 0] S1x1x64.size inb_S1x1x64_S1x1x64_0_0_0
abbrev rO : Rect S1x512x64 := Rect.unit (s := S1x512x64) ![0, 0, 0] S1x512x64.size inb_S1x512x64_S1x512x64_0_0_0

/-- The output window's buffer after the body, from the three input blocks: the one store, of the whole tile. -/
def outTile (x : Vec F S1x512x1024 .f32) (w : Vec F S1x1024x64 .bf16) (b : Vec F S1x1x64 .f32) : Vec F S1x512x64 .bf16 :=
  View.canon [⟨rO, k1_pay1 (View.ld x rX) (View.ld w rW) (View.ld b rB)⟩]

/-- The one store covers the buffer. -/
theorem cover (p : Vec F S1x512x64 .bf16) (y : S1x512x64.Idx) :
    ∃ pc ∈ ([⟨rO, p⟩] : List (View.Piece (Elt F) S1x512x64 .bf16)), y ∈ pc.1.set :=
  View.cover_of_tiled [⟨rO, p⟩] S1x512x64.size (by rfl) y

/-! ## The body's triple -/

set_option maxHeartbeats 1000000 in
/-- On whole staging buffers, the inputs' at contents `x`, `w`, `b` and the output's at anything, the body runs to the
    continuation with the inputs' as they were and the output's at `outTile x w b`. -/
theorem sound_kernel (c : Dev nD) (E : Set ℕ) (i : grid1.Coords)
    (arg3 : Memref sig .tc .vmem S1x512x1024 .f32) (harg3 : arg3.IsWhole) (arg4 : Memref sig .tc .vmem S1x1024x64 .bf16) (harg4 : arg4.IsWhole)
    (arg5 : Memref sig .tc .vmem S1x1x64 .f32) (harg5 : arg5.IsWhole) (arg6 : Memref sig .tc .vmem S1x512x64 .bf16) (harg6 : arg6.IsWhole)
    (x : Vec F S1x512x1024 .f32) (w : Vec F S1x1024x64 .bf16) (b : Vec F S1x1x64 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d)
        ∗ (iprop(owns (c : Thread nD τ) arg3 fullShare x ∗ owns (c : Thread nD τ) arg4 fullShare w ∗ owns (c : Thread nD τ) arg5 fullShare b
            ∗ owns (c : Thread nD τ) arg6 fullShare (outTile x w b)) -∗ K ⟨⟩))
      ⊢ wp frame (wpE (defs₀ (F := F)) Variants.none c none) E (cc1__proj_head_kernel i arg3 harg3 arg4 harg4 arg5 harg5 arg6 harg6) K := by
  simp only [cc1__proj_head_kernel_eq_skeleton]; unfold cc1__proj_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data -/

/-- The proof data of this pipeline on core `c`: the arrays as the region finds them; after the body at a point each
    input's buffer at its block and the output's at the payload of the three blocks; the invariant is the scoped buffers no
    window stages and the generator register, untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outTile (blk V c 0 t) (blk V c 1 t) (blk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = outTile (blk V c 0 t) (blk V c 1 t) (blk V c 2 t) := by dsimp only [dat]

theorem before_0 (c : Dev nD) (t : Fin cfg1.N) (d) : (dat V c).before 0 t d = blk V c 0 t :=
  before_in0 V (dat V c) (A_eq V c 0) (after_0 V c) t d
theorem before_1 (c : Dev nD) (t : Fin cfg1.N) (d) : (dat V c).before 1 t d = blk V c 1 t :=
  before_in1 V (dat V c) (A_eq V c 1) (after_1 V c) t d
theorem before_2 (c : Dev nD) (t : Fin cfg1.N) (d) : (dat V c).before 2 t d = blk V c 2 t :=
  before_in2 V (dat V c) (A_eq V c 2) (after_2 V c) t d

/-! ## The body at a grid point -/

/-- What the body is called with at point `t`: the invariant, the core's dues, every window's current buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Proj1

end
-- ==== Proof.Proj2.lean ====
/-
  The class-A half of projection region 2 (pallas_call 2: one head's projection of one 512-row tile per grid point),
  stated at a parameter `V`, the contents of core `c`'s buffers when the region is entered.

  A grid point is (head h, batch b, row tile i). Its three input windows hold a 512×1024 tile of the activations, the
  head's 1024×64 slice of the transposed weights and the head's 1×64 bias; the body stores, whole, the 512×64 tile
  `x · w + bias` into the output window. So after the body at a point every input buffer still holds its block and the
  output buffer holds the payload of the three blocks; nothing else of the core's state is touched.
-/
import proofs.«104749_j59691455480063_2_alg».proof.Proof.Gen.KernelIdeal.Launch
import proofs.«104749_j59691455480063_2_alg».proof.Proof.Gen.KernelIdeal.Skeleton
import proofs.«104749_j59691455480063_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Proj2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the window's array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, whether the point fetched it or the block index has not moved
    since the fetch, for any proof data whose array is the region-entry contents and whose body leaves the block in place. -/
theorem before_in0 {c : Dev nD} (dat : Dat τ (Elt F) Unit ℕ (UR sig nD τ) ℕ cfg2 c)
    (hA : dat.A 0 = V c (Pipeline.arrRef spec2 0)) (hafter : ∀ t, dat.after 0 t = blk V c 0 t) (t : Fin cfg2.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1 holds its block at every point, whether the point fetched it or the block index has not moved
    since the fetch, for any proof data whose array is the region-entry contents and whose body leaves the block in place. -/
theorem before_in1 {c : Dev nD} (dat : Dat τ (Elt F) Unit ℕ (UR sig nD τ) ℕ cfg2 c)
    (hA : dat.A 1 = V c (Pipeline.arrRef spec2 1)) (hafter : ∀ t, dat.after 1 t = blk V c 1 t) (t : Fin cfg2.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2 holds its block at every point, whether the point fetched it or the block index has not moved
    since the fetch, for any proof data whose array is the region-entry contents and whose body leaves the block in place. -/
theorem before_in2 {c : Dev nD} (dat : Dat τ (Elt F) Unit ℕ (UR sig nD τ) ℕ cfg2 c)
    (hA : dat.A 2 = V c (Pipeline.arrRef spec2 2)) (hafter : ∀ t, dat.after 2 t = blk V c 2 t) (t : Fin cfg2.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rX : Rect S1x512x1024 := Rect.unit (s := S1x512x1024) ![0, 0, 0] S1x512x1024.size inb_S1x512x1024_S1x512x1024_0_0_0
abbrev rW : Rect S1x1024x64 := Rect.unit (s := S1x1024x64) ![0, 0, 0] S1x1024x64.size inb_S1x1024x64_S1x1024x64_0_0_0
abbrev rB : Rect S1x1x64 := Rect.unit (s := S1x1x64) ![0, 0, 0] S1x1x64.size inb_S1x1x64_S1x1x64_0_0_0
abbrev rO : Rect S1x512x64 := Rect.unit (s := S1x512x64) ![0, 0, 0] S1x512x64.size inb_S1x512x64_S1x512x64_0_0_0

/-- The output window's buffer after the body, from the three input blocks: the one store, of the whole tile. -/
def outTile (x : Vec F S1x512x1024 .f32) (w : Vec F S1x1024x64 .bf16) (b : Vec F S1x1x64 .f32) : Vec F S1x512x64 .bf16 :=
  View.canon [⟨rO, k2_pay1 (View.ld x rX) (View.ld w rW) (View.ld b rB)⟩]

/-- The one store covers the buffer. -/
theorem cover (p : Vec F S1x512x64 .bf16) (y : S1x512x64.Idx) :
    ∃ pc ∈ ([⟨rO, p⟩] : List (View.Piece (Elt F) S1x512x64 .bf16)), y ∈ pc.1.set :=
  View.cover_of_tiled [⟨rO, p⟩] S1x512x64.size (by rfl) y

/-! ## The body's triple -/

set_option maxHeartbeats 1000000 in
/-- On whole staging buffers, the inputs' at contents `x`, `w`, `b` and the output's at anything, the body runs to the
    continuation with the inputs' as they were and the output's at `outTile x w b`. -/
theorem sound_kernel (c : Dev nD) (E : Set ℕ) (i : grid2.Coords)
    (arg3 : Memref sig .tc .vmem S1x512x1024 .f32) (harg3 : arg3.IsWhole) (arg4 : Memref sig .tc .vmem S1x1024x64 .bf16) (harg4 : arg4.IsWhole)
    (arg5 : Memref sig .tc .vmem S1x1x64 .f32) (harg5 : arg5.IsWhole) (arg6 : Memref sig .tc .vmem S1x512x64 .bf16) (harg6 : arg6.IsWhole)
    (x : Vec F S1x512x1024 .f32) (w : Vec F S1x1024x64 .bf16) (b : Vec F S1x1x64 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d)
        ∗ (iprop(owns (c : Thread nD τ) arg3 fullShare x ∗ owns (c : Thread nD τ) arg4 fullShare w ∗ owns (c : Thread nD τ) arg5 fullShare b
            ∗ owns (c : Thread nD τ) arg6 fullShare (outTile x w b)) -∗ K ⟨⟩))
      ⊢ wp frame (wpE (defs₀ (F := F)) Variants.none c none) E (cc2__proj_head_kernel i arg3 harg3 arg4 harg4 arg5 harg5 arg6 harg6) K := by
  simp only [cc2__proj_head_kernel_eq_skeleton]; unfold cc2__proj_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data -/

/-- The proof data of this pipeline on core `c`: the arrays as the region finds them; after the body at a point each
    input's buffer at its block and the output's at the payload of the three blocks; the invariant is the scoped buffers no
    window stages and the generator register, untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outTile (blk V c 0 t) (blk V c 1 t) (blk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) :
    (dat V c).after 3 t = outTile (blk V c 0 t) (blk V c 1 t) (blk V c 2 t) := by dsimp only [dat]

theorem before_0 (c : Dev nD) (t : Fin cfg2.N) (d) : (dat V c).before 0 t d = blk V c 0 t :=
  before_in0 V (dat V c) (A_eq V c 0) (after_0 V c) t d
theorem before_1 (c : Dev nD) (t : Fin cfg2.N) (d) : (dat V c).before 1 t d = blk V c 1 t :=
  before_in1 V (dat V c) (A_eq V c 1) (after_1 V c) t d
theorem before_2 (c : Dev nD) (t : Fin cfg2.N) (d) : (dat V c).before 2 t d = blk V c 2 t :=
  before_in2 V (dat V c) (A_eq V c 2) (after_2 V c) t d

/-! ## The body at a grid point -/

/-- What the body is called with at point `t`: the invariant, the core's dues, every window's current buffer. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- What it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Proj2

end
-- ==== Proof.Run.lean ====
/-
  The whole program as six segments — a stretch of host operations (the weights re-laid per head), the three projection
  regions, a second host stretch (the output weights re-laid per head, the bias as a row), the attention region — run
  from the launch to the return, with the contents of every unscoped buffer named at every boundary.

  Boundary contents, on core `c`: `U1` is the launch memory after the first host stretch; each projection region changes
  one buffer, its result array, to what its write-backs leave (`U2`, `U3`, `U4`); `U5` is `U4` after the second host
  stretch; the attention region changes the program's result array (`U6`). No segment writes an argument array.

  The attention region's half (its proof data and body obligation, and how its invariant takes in and gives back the
  scratch buffer it carries) enters as hypotheses: the module that proves them instantiates this one.
-/
import proofs.«104749_j59691455480063_2_alg».proof.Proof.Gen.KernelIdeal.Regions
import proofs.«104749_j59691455480063_2_alg».proof.Proof.Proj0
import proofs.«104749_j59691455480063_2_alg».proof.Proof.Proj1
import proofs.«104749_j59691455480063_2_alg».proof.Proof.Proj2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev U0 (c : Dev nD) : Valuation τ sig (Elt F) := fun b => m (c, b)
/-- After the first host stretch: where projection region 0 is entered. -/
abbrev U1 (c : Dev nD) : Valuation τ sig (Elt F) := StableHlo.after hostOps0 (U0 m c)
abbrev T1 (c : Dev nD) (b : Ref sig .tc) : Buf (Elt F) ((c : Thread nD τ).loc b) := U1 m c b
/-- What projection region 0 leaves in its result array: its write-backs folded. -/
def o2 (c : Dev nD) : Buf (Elt F) ((c : Thread nD τ).loc main_v12) := (Proj0.dat (T1 m) c).arrAt 3 cfg0.N
/-- After projection region 0. -/
def U2 (c : Dev nD) : Valuation τ sig (Elt F) := Function.update (U1 m c) (Proc.devRef .tc main_v12) (o2 m c)
abbrev T2 (c : Dev nD) (b : Ref sig .tc) : Buf (Elt F) ((c : Thread nD τ).loc b) := U2 m c b
def o3 (c : Dev nD) : Buf (Elt F) ((c : Thread nD τ).loc main_v13) := (Proj1.dat (T2 m) c).arrAt 3 cfg1.N
/-- After projection region 1. -/
def U3 (c : Dev nD) : Valuation τ sig (Elt F) := Function.update (U2 m c) (Proc.devRef .tc main_v13) (o3 m c)
abbrev T3 (c : Dev nD) (b : Ref sig .tc) : Buf (Elt F) ((c : Thread nD τ).loc b) := U3 m c b
def o4 (c : Dev nD) : Buf (Elt F) ((c : Thread nD τ).loc main_v14) := (Proj2.dat (T3 m) c).arrAt 3 cfg2.N
/-- After projection region 2. -/
def U4 (c : Dev nD) : Valuation τ sig (Elt F) := Function.update (U3 m c) (Proc.devRef .tc main_v14) (o4 m c)
/-- After the second host stretch: where the attention region is entered. -/
abbrev U5 (c : Dev nD) : Valuation τ sig (Elt F) := StableHlo.after hostOps3 (U4 m c)
abbrev T5 (c : Dev nD) (b : Ref sig .tc) : Buf (Elt F) ((c : Thread nD τ).loc b) := U5 m c b

abbrev T4 (c : Dev nD) (b : Ref sig .tc) : Buf (Elt F) ((c : Thread nD τ).loc b) := U4 m c b

/-- At projection region 0's exit each of its arrays holds what the pipeline leaves: the inputs what they held (an input
    window's array is never written), the result array the folded write-backs. -/
theorem arr0 (c : Dev nD) : ∀ w : Fin cfg0.W, (Proj0.dat (T1 m) c).arrAt w cfg0.N = T2 m c (Pipeline.arrRef spec0 w)
  | ⟨0, _⟩ => (((Proj0.dat (T1 m) c).arrAt_in 0 rfl _).trans (Proj0.A_eq (T1 m) c 0)).trans
      (by unfold T2 U2; exact (Function.update_of_ne (StableHlo.devRef_ne_of_ne (by decide)) _ _).symm)
  | ⟨1, _⟩ => (((Proj0.dat (T1 m) c).arrAt_in 1 rfl _).trans (Proj0.A_eq (T1 m) c 1)).trans
      (by unfold T2 U2; exact (Function.update_of_ne (StableHlo.devRef_ne_of_ne (by decide)) _ _).symm)
  | ⟨2, _⟩ => (((Proj0.dat (T1 m) c).arrAt_in 2 rfl _).trans (Proj0.A_eq (T1 m) c 2)).trans
      (by unfold T2 U2; exact (Function.update_of_ne (StableHlo.devRef_ne_of_ne (by decide)) _ _).symm)
  | ⟨3, _⟩ => (Function.update_self (Proc.devRef .tc main_v12 : DevRef τ sig) (o2 m c) (U1 m c)).symm
/-- Every buffer that is none of the region's arrays holds at exit what it held at entry. -/
theorem rest0 (c : Dev nD) : ∀ b, b ∉ Finset.univ.image (Pipeline.arrRef spec0) → T2 m c b = T1 m c b :=
  fun b hb => by
    unfold T2 U2
    exact Function.update_of_ne (StableHlo.devRef_ne_of_ne fun e => hb (Finset.mem_image.mpr ⟨3, Finset.mem_univ _, e.symm⟩)) _ _

/-- At projection region 1's exit each of its arrays holds what the pipeline leaves: the inputs what they held (an input
    window's array is never written), the result array the folded write-backs. -/
theorem arr1 (c : Dev nD) : ∀ w : Fin cfg1.W, (Proj1.dat (T2 m) c).arrAt w cfg1.N = T3 m c (Pipeline.arrRef spec1 w)
  | ⟨0, _⟩ => (((Proj1.dat (T2 m) c).arrAt_in 0 rfl _).trans (Proj1.A_eq (T2 m) c 0)).trans
      (by unfold T3 U3; exact (Function.update_of_ne (StableHlo.devRef_ne_of_ne (by decide)) _ _).symm)
  | ⟨1, _⟩ => (((Proj1.dat (T2 m) c).arrAt_in 1 rfl _).trans (Proj1.A_eq (T2 m) c 1)).trans
      (by unfold T3 U3; exact (Function.update_of_ne (StableHlo.devRef_ne_of_ne (by decide)) _ _).symm)
  | ⟨2, _⟩ => (((Proj1.dat (T2 m) c).arrAt_in 2 rfl _).trans (Proj1.A_eq (T2 m) c 2)).trans
      (by unfold T3 U3; exact (Function.update_of_ne (StableHlo.devRef_ne_of_ne (by decide)) _ _).symm)
  | ⟨3, _⟩ => (Function.update_self (Proc.devRef .tc main_v13 : DevRef τ sig) (o3 m c) (U2 m c)).symm
/-- Every buffer that is none of the region's arrays holds at exit what it held at entry. -/
theorem rest1 (c : Dev nD) : ∀ b, b ∉ Finset.univ.image (Pipeline.arrRef spec1) → T3 m c b = T2 m c b :=
  fun b hb => by
    unfold T3 U3
    exact Function.update_of_ne (StableHlo.devRef_ne_of_ne fun e => hb (Finset.mem_image.mpr ⟨3, Finset.mem_univ _, e.symm⟩)) _ _

/-- At projection region 2's exit each of its arrays holds what the pipeline leaves: the inputs what they held (an input
    window's array is never written), the result array the folded write-backs. -/
theorem arr2 (c : Dev nD) : ∀ w : Fin cfg2.W, (Proj2.dat (T3 m) c).arrAt w cfg2.N = T4 m c (Pipeline.arrRef spec2 w)
  | ⟨0, _⟩ => (((Proj2.dat (T3 m) c).arrAt_in 0 rfl _).trans (Proj2.A_eq (T3 m) c 0)).trans
      (by unfold T4 U4; exact (Function.update_of_ne (StableHlo.devRef_ne_of_ne (by decide)) _ _).symm)
  | ⟨1, _⟩ => (((Proj2.dat (T3 m) c).arrAt_in 1 rfl _).trans (Proj2.A_eq (T3 m) c 1)).trans
      (by unfold T4 U4; exact (Function.update_of_ne (StableHlo.devRef_ne_of_ne (by decide)) _ _).symm)
  | ⟨2, _⟩ => (((Proj2.dat (T3 m) c).arrAt_in 2 rfl _).trans (Proj2.A_eq (T3 m) c 2)).trans
      (by unfold T4 U4; exact (Function.update_of_ne (StableHlo.devRef_ne_of_ne (by decide)) _ _).symm)
  | ⟨3, _⟩ => (Function.update_self (Proc.devRef .tc main_v14 : DevRef τ sig) (o4 m c) (U3 m c)).symm
/-- Every buffer that is none of the region's arrays holds at exit what it held at entry. -/
theorem rest2 (c : Dev nD) : ∀ b, b ∉ Finset.univ.image (Pipeline.arrRef spec2) → T4 m c b = T3 m c b :=
  fun b hb => by
    unfold T4 U4
    exact Function.update_of_ne (StableHlo.devRef_ne_of_ne fun e => hb (Finset.mem_image.mpr ⟨3, Finset.mem_univ _, e.symm⟩)) _ _

/-! ## The attention region's half, assumed -/

variable (dat3 : (c : Dev nD) → Dat τ (Elt F) Unit ℕ (UR sig nD τ) ℕ cfg3 c)

/-- What the attention region leaves in the program's result array. -/
def o6 (c : Dev nD) : Buf (Elt F) ((c : Thread nD τ).loc main_v19) := (dat3 c).arrAt 5 cfg3.N
/-- After the attention region: the contents the program returns with. -/
def U6 (c : Dev nD) : Valuation τ sig (Elt F) := Function.update (U5 m c) (Proc.devRef .tc main_v19) (o6 dat3 c)
abbrev T6 (c : Dev nD) (b : Ref sig .tc) : Buf (Elt F) ((c : Thread nD τ).loc b) := U6 m dat3 c b

theorem arr3 (hA3 : ∀ c w, (dat3 c).A w = T5 m c (Pipeline.arrRef spec3 w)) (c : Dev nD) :
    ∀ w : Fin cfg3.W, (dat3 c).arrAt w cfg3.N = T6 m dat3 c (Pipeline.arrRef spec3 w)
  | ⟨0, _⟩ => (((dat3 c).arrAt_in 0 rfl _).trans (hA3 c 0)).trans
      (by unfold T6 U6; exact (Function.update_of_ne (StableHlo.devRef_ne_of_ne (by decide)) _ _).symm)
  | ⟨1, _⟩ => (((dat3 c).arrAt_in 1 rfl _).trans (hA3 c 1)).trans
      (by unfold T6 U6; exact (Function.update_of_ne (StableHlo.devRef_ne_of_ne (by decide)) _ _).symm)
  | ⟨2, _⟩ => (((dat3 c).arrAt_in 2 rfl _).trans (hA3 c 2)).trans
      (by unfold T6 U6; exact (Function.update_of_ne (StableHlo.devRef_ne_of_ne (by decide)) _ _).symm)
  | ⟨3, _⟩ => (((dat3 c).arrAt_in 3 rfl _).trans (hA3 c 3)).trans
      (by unfold T6 U6; exact (Function.update_of_ne (StableHlo.devRef_ne_of_ne (by decide)) _ _).symm)
  | ⟨4, _⟩ => (((dat3 c).arrAt_in 4 rfl _).trans (hA3 c 4)).trans
      (by unfold T6 U6; exact (Function.update_of_ne (StableHlo.devRef_ne_of_ne (by decide)) _ _).symm)
  | ⟨5, _⟩ => (Function.update_self (Proc.devRef .tc main_v19 : DevRef τ sig) (o6 dat3 c) (U5 m c)).symm
theorem rest3 (c : Dev nD) : ∀ b, b ∉ Finset.univ.image (Pipeline.arrRef spec3) → T6 m dat3 c b = T5 m c b :=
  fun b hb => by
    unfold T6 U6
    exact Function.update_of_ne (StableHlo.devRef_ne_of_ne fun e => hb (Finset.mem_image.mpr ⟨5, Finset.mem_univ _, e.symm⟩)) _ _

/-! ## The proof data of the four pipelines, and what rides beside the buffers -/

/-- Every pipeline's proof data, each at its region's entry contents: a literal match, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => Proj0.dat (T1 m) c
  | ⟨1, _⟩ => fun c => Proj1.dat (T2 m) c
  | ⟨2, _⟩ => fun c => Proj2.dat (T3 m) c
  | ⟨3, _⟩ => fun c => dat3 c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and its dues, at nothing. -/
abbrev R (c : Dev nD) : sProp 𝕄 := iprop((∃ r, prngReg c r) ∗ ∃ W, owes (c : Thread nD τ) (0 : CellTallies nD τ sig Unit) W)

/-- A host stretch as a segment over the unscoped buffers from contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- Projection region 0 over the thread state: entered with every unscoped buffer at `U1`, left with them at `U2`.
    Its four arrays are split out of the unscoped buffers at entry and put back at their final contents at exit; the
    generator register goes into the region's invariant and comes back; nothing is owed; the kernel has no semaphore. -/
def reg0 : Pipeline.RegionSeg (pcfgs (F := F)) adm (pdats m dat3) () defs₀ 𝒱₀ L lv 0 where
  win := launch0.win.to₀
  block_pos := launch0.block_pos
  stage_whole := launch0.stage_whole
  K := PEmpty
  osem k := k.elim
  ho := Pipeline.OwnSemFacts.none _
  hbody c := (Proj0.body_obligation (T1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m dat3) launch0.win launch0.arr_whole c
      ((pdats m dat3 0 c).share_full fun _ => rfl) (T1 m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (pdats m dat3 0 c).Φ 0 = Pipeline.ΦA spec0 c from rfl]; unfold Pipeline.ΦA
    iintro ⟨Hgen, -, Hsc⟩
    isplitl [Hsc]; · iexact Hsc
    iexact Hgen
  hout c := by
    rw [Pipeline.ownSems0_none, show (pdats m dat3 0 c).Φ (Fin.last _) = Pipeline.ΦA spec0 c from rfl]; unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m dat3) ((pdats m dat3 0 c).share_full fun _ => rfl)
      (T1 m c) (fun b => U2 m c b) ((pdats m dat3 0 c).arrAt · cfg0.N) (arr0 m c) (rest0 m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- Projection region 1 over the thread state: entered with every unscoped buffer at `U2`, left with them at `U3`.
    Its four arrays are split out of the unscoped buffers at entry and put back at their final contents at exit; the
    generator register goes into the region's invariant and comes back; nothing is owed; the kernel has no semaphore. -/
def reg1 : Pipeline.RegionSeg (pcfgs (F := F)) adm (pdats m dat3) () defs₀ 𝒱₀ L lv 1 where
  win := launch1.win.to₀
  block_pos := launch1.block_pos
  stage_whole := launch1.stage_whole
  K := PEmpty
  osem k := k.elim
  ho := Pipeline.OwnSemFacts.none _
  hbody c := (Proj1.body_obligation (T2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) adm (pdats m dat3) launch1.win launch1.arr_whole c
      ((pdats m dat3 1 c).share_full fun _ => rfl) (T2 m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (pdats m dat3 1 c).Φ 0 = Pipeline.ΦA spec1 c from rfl]; unfold Pipeline.ΦA
    iintro ⟨Hgen, -, Hsc⟩
    isplitl [Hsc]; · iexact Hsc
    iexact Hgen
  hout c := by
    rw [Pipeline.ownSems0_none, show (pdats m dat3 1 c).Φ (Fin.last _) = Pipeline.ΦA spec1 c from rfl]; unfold Pipeline.ΦA
    iintro ⟨Hsc, Hgen⟩
    isplitl [Hgen]; · iexact Hgen
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m dat3) ((pdats m dat3 1 c).share_full fun _ => rfl)
      (T2 m c) (fun b => U3 m c b) ((pdats m dat3 1 c).arrAt · cfg1.N) (arr1 m c) (rest1 m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- Projection region 2 over the thread state: entered with every unscoped buffer at `U3`, left with them at `U4`.
    Its four arrays are split out of the unscoped buffers at entry and put back at their final contents at exit; the
    generator register goes into the region's invariant and comes back; nothing is owed; the kernel has no semaphore. -/
def reg2 : Pipeline.RegionSeg (pcfgs (F := F)) adm (pdats m dat3) () defs₀ 𝒱₀ L lv 2 where
  win := launch2.win.to₀
  block_pos := launch2.block_pos
  stage_whole := launch2.stage_whole
  K := PEmpty
  osem k := k.elim
  ho := Pipeline.OwnSemFacts.none _
  hbody c := (Proj2.body_obligation (T3 m) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) adm (pdats m dat3) launch2.win launch2.arr_whole c
      ((pdats m dat3 2 c).share_full fun _ => rfl) (T3 m c) fun _ => rfl
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (pdats m dat3 2 c).Φ 0 = Pipeline.ΦA spec2 c from rfl]; unfold Pipeline.ΦA
    iintro ⟨Hgen, -, Hsc⟩
    isplitl [Hsc]; · iexact Hsc
    iexact Hgen
  hout c := by
    rw [Pipeline.ownSems0_none, show (pdats m dat3 2 c).Φ (Fin.last _) = Pipeline.ΦA spec2 c from rfl]; unfold Pipeline.ΦA
    iintro ⟨Hsc, Hgen⟩
    isplitl [Hgen]; · iexact Hgen
    isplitr; · iempintro
    iexact Hsc
  hexit c := by
    have hjoin := Pipeline.unscopedBufs_of_arrays (p := 2) (pcfgs (F := F)) adm (Ix := Unit) (Name := ℕ) (U := UR sig nD τ) (Lvl := ℕ)
      launch2.win launch2.arr_whole c (pdats m dat3) ((pdats m dat3 2 c).share_full fun _ => rfl)
      (T3 m c) (fun b => U4 m c b) ((pdats m dat3 2 c).arrAt · cfg2.N) (arr2 m c) (rest2 m c)
    rw [Pipeline.unscopedBufs_held] at hjoin
    iintro ⟨Harr, Hdue, Hgen, Hrest⟩
    imodintro
    isplitl [Harr Hrest]
    · iapply hjoin; isplitl [Harr] <;> iassumption
    isplitl [Hgen]; · iexact Hgen
    unfold Pipeline.Dat.owesAt Pipeline.owesWithin
    icases Hdue with ⟨%W, -, Hdue⟩; iexists W; iexact Hdue

/-! ## The attention region as a segment, and the run -/

/-- The attention region's half, at the contents `U5` it is entered with: its proof data, reading its arrays off `U5`,
    at full shares, owing nothing, with no bound on recorded waits; the body obligation at every point; and its invariant
    made, before the first point, from the generator register and the scoped buffers no window stages, and giving them
    back after the last. -/
structure AttnHalf where
  dat : (c : Dev nD) → Dat τ (Elt F) Unit ℕ (UR sig nD τ) ℕ cfg3 c
  hA : ∀ c w, (dat c).A w = T5 m c (Pipeline.arrRef spec3 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, iprop((∃ r, prngReg c r) ∗ Pipeline.scopedRest (Ix := Unit) (Name := ℕ) (U := UR sig nD τ) (Lvl := ℕ) (Val := Elt F) spec3 c)
    ⊢ ((dat c).Φ 0 : sProp 𝕄)
  hout : ∀ c, ((dat c).Φ (Fin.last cfg3.N) : sProp 𝕄)
    ⊢ iprop((∃ r, prngReg c r) ∗ Pipeline.scopedRest (Ix := Unit) (Name := ℕ) (U := UR sig nD τ) (Lvl := ℕ) (Val := Elt F) spec3 c)

variable (a : AttnHalf m)

/-- The last thread state without the dues: every unscoped buffer at the final contents, the generator register at some state. -/
abbrev Tend (c : Dev nD) : sProp 𝕄 :=
  iprop(StableHlo.held (c : Thread nD τ) (Pipeline.ucRefs τ sig) (U6 m a.dat c) ∗ ∃ r, prngReg c r)

set_option backward.isDefEq.respectTransparency.types false in
/-- The attention region over the thread state: entered with every unscoped buffer at `U5`, left with them at `U6`. Its
    six arrays are split out at entry and put back at exit; its invariant takes the generator register and the scoped
    buffers no window stages — among them the scratch it carries from head to head — and gives them back. -/
def reg3 : Pipeline.RegionSeg (pcfgs (F := F)) adm (pdats m a.dat) () defs₀ 𝒱₀ L lv 3 where
  win := launch3.win.to₀
  block_pos := launch3.block_pos
  stage_whole := launch3.stage_whole
  K := PEmpty
  osem k := k.elim
  ho := Pipeline.OwnSemFacts.none _
  hbody c := (a.hbody c).loose
  hwaits := Pipeline.hwaits_of_owed_zero _ _ _ _ L lv 3 fun c t => a.howed c t
  pre c := iprop(StableHlo.held (c : Thread nD τ) (Pipeline.ucRefs τ sig) (U5 m c) ∗ R c)
  post c := iprop(Tend m a c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (T5 m c)
  hentry c := by
    rw [Pipeline.ownSems0_none]
    have hsplit := Pipeline.arrays_of_unscopedBufs (p := 3) (pcfgs (F := F)) adm (pdats m a.dat) launch3.win launch3.arr_whole c
      ((pdats m a.dat 3 c).share_full fun w => a.hq c w) (T5 m c) fun w => a.hA c w
    rw [Pipeline.unscopedBufs_held] at hsplit
    iintro ⟨⟨Hbufs, Hgen, Hdue⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      rw [show (pdats m a.dat 3 c).owed 0 = 0 from a.howed c 0]
      icases Hdue with ⟨%W, Hdue⟩; iexists W; isplitr; · ipureintro; exact fun _ _ => Or.inl (by rw [show (pdats m a.dat 3 c).recorded 0 = Set.univ from a.hrec c 0]; trivial)
      iexact Hdue
    isplitl [Hgen]; · iexact Hgen
    iexact Hrest
  hin c := by
    rw [show (pdats m a.dat 3 c).Φ 0 = (a.dat c).Φ 0 from rfl]
    iintro ⟨Hgen, -, Hsc⟩
    iapply a.hin c
    isplitl [Hgen]; · iexact Hgen
    iexact Hsc
  hout c := by
    rw [Pipeline.ownSems0_none, show (pdats m a.dat 3 c).Φ (Fin.last _) = (a.dat c).Φ (Fin.last cfg3.N) from rfl]
    iintro H
    ihave H2 := a.hout c $$ H
    icases H2 with ⟨Hgen, Hsc⟩
    isplitl [Hgen]; · iexact Hgen
    isplitr; · iempintro
    iexact Hsc
  hexit c := by
    have hjoin := Pipeline.unscopedBufs_of_arrays (p := 3) (pcfgs (F := F)) adm (Ix := Unit) (Name := ℕ) (U := UR sig nD τ) (Lvl := ℕ)
      launch3.win launch3.arr_whole c (pdats m a.dat) ((pdats m a.dat 3 c).share_full fun w => a.hq c w)
      (T5 m c) (fun b => U6 m a.dat c b) ((pdats m a.dat 3 c).arrAt · cfg3.N) (arr3 m a.dat a.hA c) (rest3 m a.dat c)
    rw [Pipeline.unscopedBufs_held] at hjoin
    iintro ⟨Harr, Hdue, Hgen, Hrest⟩
    imodintro
    isplitl [Harr Hrest Hgen]
    · isplitl [Harr Hrest]
      · iapply hjoin; isplitl [Harr] <;> iassumption
      iexact Hgen
    unfold Pipeline.Dat.owesAt Pipeline.owesWithin
    rw [show (pdats m a.dat 3 c).owed (Fin.last _) = 0 from a.howed c _]
    icases Hdue with ⟨%W, -, Hdue⟩; iexists W; iexact Hdue

/-- The program's six segments in order. -/
abbrev segs : List (Pipeline.Seg (pcfgs (F := F)) adm (pdats m a.dat) () defs₀ 𝒱₀ L lv) :=
  [ .host (hseg hostOps0 hostOps0_sub hostOps0_fresh (U0 m)),
    .region (reg0 m a.dat),
    .region (reg1 m a.dat),
    .region (reg2 m a.dat),
    .host (hseg hostOps3 hostOps3_sub hostOps3_fresh (U4 m)),
    .region (reg3 m a) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of the program terminates, nothing faulting,
    and in every final state each unscoped buffer of each core holds the last boundary's contents `U6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m a.dat c b) :=
  Pipeline.θ_run_regions_kit (pcfgs (F := F)) adm (pdats m a.dat) () cellOf_inj emb₁ defs₀ 𝒱₀ L lv m ρ main
    (segs m a)
    (fun c Q => by
      rw [main_segs adm (pdats m a.dat) () 𝒱₀ L lv (hseg hostOps0 hostOps0_sub hostOps0_fresh (U0 m))
        (hseg hostOps3 hostOps3_sub hostOps3_fresh (U4 m)) (reg0 m a.dat) (reg1 m a.dat) (reg2 m a.dat)
        (reg3 m a) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tend m a)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m a.dat c b)
    (hfin := fun c s' => by
      iintro ⟨⟨Hh, -⟩, HSI⟩
      unfold StableHlo.held
      imodintro
      iapply (pointsTo_read_all (Pipeline.ucRefs τ sig) (fun b => (((c : Thread nD τ)).1, b)) (U6 m a.dat c) s')
      isplitl [Hh] <;> iassumption)
    (hQ := fun s h => h)

end Cert.KernelIdeal.Whole

end
-- ==== Proof.AttnBase.lean ====
/-
  The attention kernel of the fourth call, one grid point at a time: what is shared by its three head cases.

  The grid is (batch, query tile, head), the head innermost, sixteen heads. The body zeroes its accumulator at head 0,
  adds one head's contribution at every head, and at head 15 writes accumulator plus bias to the output block. The two
  conditions depend on the head coordinate alone, so a point is in exactly one of three cases: first head, a middle
  head, last head.
-/
import proofs.«104749_j59691455480063_2_alg».proof.Proof.Gen.KernelIdeal.Launch
import proofs.«104749_j59691455480063_2_alg».proof.Proof.Gen.KernelIdeal.Skeleton
import proofs.«104749_j59691455480063_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, and where they hold -/

/-- The body zeroes its accumulator here: the head coordinate is 0. -/
abbrev isFirst (i : grid3.Coords) : Prop :=
  (Scalar.cmpi .ne (Scalar.extui (Scalar.cmpi .eq (BitVec.ofNat 32 (i 2).val) 0#32)) 0#32) = 1#1
/-- The body writes the output block here: the head coordinate is 15. -/
abbrev isLast (i : grid3.Coords) : Prop := k3_cond2 i = 1#1

/-- The first-head points are those whose position is a multiple of 16. -/
theorem isFirst_iff : ∀ t : Fin cfg3.N, isFirst (grid3.coords t) ↔ t.val % 16 = 0 :=
  (by decide +kernel : ∀ t : Fin grid3.N, isFirst (grid3.coords t) ↔ t.val % 16 = 0)
/-- The last-head points are those whose position is 15 modulo 16. -/
theorem isLast_iff : ∀ t : Fin cfg3.N, isLast (grid3.coords t) ↔ t.val % 16 = 15 :=
  (by decide +kernel : ∀ t : Fin grid3.N, isLast (grid3.coords t) ↔ t.val % 16 = 15)

/-! ## Where the windows are idle -/

theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel
theorem live_4 : ∀ t : Fin cfg3.N, cfg3.idle 4 (grid3.coords t) = false := by decide +kernel
/-- Off the last head the output window is idle, -/
theorem idle_5 : ∀ t : Fin cfg3.N, ¬isLast (grid3.coords t) → cfg3.idle 5 (grid3.coords t) = true := by decide +kernel
/-- and its block is not written back; -/
theorem noFlush_5 : ∀ t : Fin cfg3.N, ¬isLast (grid3.coords t) → (cfg3.win 5).flush t = false := by decide +kernel
/-- at the last head it is live. -/
theorem live_5 : ∀ t : Fin cfg3.N, isLast (grid3.coords t) → cfg3.idle 5 (grid3.coords t) = false := by decide +kernel

/-! ## Whole-buffer loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole of a whole buffer held at the contents that read `X` reads `X`. -/
theorem readAt_all {sp : Space} {s : Shape} {e : EltTy} {m : Memref sig .tc sp s e} (h : m.IsWhole) (X : s.Idx → Elt F e)
    {off : Fin s.rank → Nat} (hoff : off = fun _ => 0) (inb : ∀ a, off a + s.size a ≤ s.size a) :
    View.readAt (Elt F) m.view (Rect.unit off s.size inb).toLoadRect (h.unread X) = X := by
  rw [View.readAt_eq_ld, h.read_unread, View.ld_unit_zero hoff]

/-- One store of the whole buffer, the last, leaves its payload, whatever was stored before and held before. -/
theorem read_stored_all {sp : Space} {s : Shape} {e : EltTy} (v : View sig .tc sp s e) (f : v.ty.Contents (Elt F))
    {off : Fin s.rank → Nat} (hoff : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero hoff inb y⟩),
    View.canon_cons_unit_zero hoff]

end Cert.KernelIdeal.Attn

end
-- ==== Proof.AttnFirst.lean ====
/-
  The attention kernel at a first-head point: the accumulator, whatever it held, is set to zero, and one head's
  contribution is added to it; the output block is not touched.
-/
import proofs.«104749_j59691455480063_2_alg».proof.Proof.AttnBase

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a first-head point, on whole buffers — the five inputs at `x0 … x4`, the output block at `y5`, the accumulator at
    anything — the body runs to the continuation with the inputs and the output block as they were and the accumulator at
    the first head's contribution added to the zero block. -/
theorem run_first (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole)
    (hc0 : isFirst i) (hc1 : ¬isLast i) (x0 : Vec F S1x512x64 .bf16) (x1 : Vec F S1x2048x64 .bf16) (x2 : Vec F S1x2048x64 .bf16) (x3 : Vec F S1x64x1024 .bf16) (x4 : Vec F S1x1024 .f32)
    (y5 : Vec F S1x512x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y5
        ∗ owns (c : Thread nD τ) arg9 fullShare (k3_pay3 x0 x1 x2 x3 (k3_pay2 (F := F)))) -∗ K ⟨⟩))
      ⊢ wp frame (wpE (defs₀ (F := F)) Variants.none c none) E (cc3__attn_o_kernel i arg3 harg3 arg4 harg4 arg5 harg5 arg6 harg6 arg7 harg7 arg8 harg8 arg9 harg9) K := by
  simp only [cc3__attn_o_kernel_eq_skeleton]; unfold cc3__attn_o_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact hf4
    iexact H4
  isplitl [H5]
  · iexists _; isplitr; · ipureintro; exact hf5
    iexact H5
  iexists _; isplitr
  swap; · iexact H9
  ipureintro
  rw [read_stored_all _ _ hz2]
  sl_unfold_run_names
  rw [View.readCov_unit_zero (S := S512x1024) _ hz2]
  simp only [readAt_all harg3 _ hz3, readAt_all harg4 _ hz3, readAt_all harg5 _ hz3, readAt_all harg6 _ hz3]

end Cert.KernelIdeal.Attn

end
-- ==== Proof.AttnMid.lean ====
/-
  The attention kernel at a middle-head point: one head's contribution is added to the accumulator; the output block is
  not touched.
-/
import proofs.«104749_j59691455480063_2_alg».proof.Proof.AttnFirst

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle-head point, on whole buffers — the five inputs at `x0 … x4`, the output block at `y5`, the accumulator at
    `a` — the body runs to the continuation with the inputs and the output block as they were and the accumulator at `a`
    plus this head's contribution. -/
theorem run_mid (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole)
    (hc0 : ¬isFirst i) (hc1 : ¬isLast i) (x0 : Vec F S1x512x64 .bf16) (x1 : Vec F S1x2048x64 .bf16) (x2 : Vec F S1x2048x64 .bf16) (x3 : Vec F S1x64x1024 .bf16) (x4 : Vec F S1x1024 .f32)
    (y5 : Vec F S1x512x1024 .f32) (a : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y5
        ∗ owns (c : Thread nD τ) arg9 fullShare a
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare y5
        ∗ owns (c : Thread nD τ) arg9 fullShare (k3_pay3 x0 x1 x2 x3 a)) -∗ K ⟨⟩))
      ⊢ wp frame (wpE (defs₀ (F := F)) Variants.none c none) E (cc3__attn_o_kernel i arg3 harg3 arg4 harg4 arg5 harg5 arg6 harg6 arg7 harg7 arg8 harg8 arg9 harg9) K := by
  simp only [cc3__attn_o_kernel_eq_skeleton]; unfold cc3__attn_o_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, Hk⟩
  obtain rfl := harg3.eq_unread hf0; obtain rfl := harg4.eq_unread hf1; obtain rfl := harg5.eq_unread hf2
  obtain rfl := harg6.eq_unread hf3; obtain rfl := harg9.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact hf4
    iexact H4
  isplitl [H5]
  · iexists _; isplitr; · ipureintro; exact hf5
    iexact H5
  iexists _; isplitr
  swap; · iexact H9
  ipureintro
  rw [read_stored_all _ _ hz2]
  simp only [readAt_all harg3 _ hz3, readAt_all harg4 _ hz3, readAt_all harg5 _ hz3, readAt_all harg6 _ hz3, readAt_all harg9 _ hz2]

end Cert.KernelIdeal.Attn

end
-- ==== Proof.AttnLast.lean ====
/-
  The attention kernel at a last-head point: the last head's contribution is added to the accumulator, and the
  accumulator plus the bias row is written to the output block.
-/
import proofs.«104749_j59691455480063_2_alg».proof.Proof.AttnMid

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a last-head point, on whole buffers — the five inputs at `x0 … x4`, the output block at anything, the accumulator
    at `a` — the body runs to the continuation with the inputs as they were, the accumulator at `a` plus this head's
    contribution, and the output block at that sum plus the bias row. -/
theorem run_last (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .f32) (harg9 : arg9.IsWhole)
    (hc0 : ¬isFirst i) (hc1 : isLast i) (x0 : Vec F S1x512x64 .bf16) (x1 : Vec F S1x2048x64 .bf16) (x2 : Vec F S1x2048x64 .bf16) (x3 : Vec F S1x64x1024 .bf16) (x4 : Vec F S1x1024 .f32)
    (a : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare a
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare (k3_pay1 (k3_pay3 x0 x1 x2 x3 a) x4)
        ∗ owns (c : Thread nD τ) arg9 fullShare (k3_pay3 x0 x1 x2 x3 a)) -∗ K ⟨⟩))
      ⊢ wp frame (wpE (defs₀ (F := F)) Variants.none c none) E (cc3__attn_o_kernel i arg3 harg3 arg4 harg4 arg5 harg5 arg6 harg6 arg7 harg7 arg8 harg8 arg9 harg9) K := by
  simp only [cc3__attn_o_kernel_eq_skeleton]; unfold cc3__attn_o_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    rw [read_stored_all _ _ hz3]
    sl_unfold_run_names
    rw [View.readCov_unit_zero (S := S512x1024) _ hz2]
    simp only [readAt_all harg3 _ hz3, readAt_all harg4 _ hz3, readAt_all harg5 _ hz3, readAt_all harg6 _ hz3, readAt_all harg7 _ hz2, readAt_all harg9 _ hz2]
  iexists _; isplitr
  swap; · iexact H9
  ipureintro
  sl_unfold_run_names
  rw [read_stored_all _ _ hz2]
  simp only [readAt_all harg3 _ hz3, readAt_all harg4 _ hz3, readAt_all harg5 _ hz3, readAt_all harg6 _ hz3, readAt_all harg9 _ hz2]

end Cert.KernelIdeal.Attn

end
-- ==== Proof.Attn.lean ====
/-
  The attention kernel of the fourth call as one pipeline: its frame half, at any contents `V` of the core's buffers when
  the call is entered.

  The accumulator buffer is carried from point to point over the sixteen heads of a (batch, query tile) pair: `acc3` names
  what it holds after each point, the invariant `PhiS` keeps the buffer at that value between points, and the proof data
  `dat3` states what every window's staging buffer holds after the body. The body obligation follows from the three head
  cases' runs by the position modulo 16.
-/
import proofs.«104749_j59691455480063_2_alg».proof.Proof.AttnLast

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accumulator over the sixteen heads -/

/-- The accumulator after the body at position `n`: this head's contribution added to the zero block at a first head,
    to what the point before left otherwise. -/
def acc3 (c : Dev nD) : (n : ℕ) → n < cfg3.N → Vec F S512x1024 .f32
  | 0, hn => k3_pay3 (iblk3 V c 0 ⟨0, hn⟩) (iblk3 V c 1 ⟨0, hn⟩) (iblk3 V c 2 ⟨0, hn⟩) (iblk3 V c 3 ⟨0, hn⟩) (k3_pay2 (F := F))
  | n + 1, hn => k3_pay3 (iblk3 V c 0 ⟨n + 1, hn⟩) (iblk3 V c 1 ⟨n + 1, hn⟩) (iblk3 V c 2 ⟨n + 1, hn⟩) (iblk3 V c 3 ⟨n + 1, hn⟩)
      (if (n + 1) % 16 = 0 then k3_pay2 (F := F) else acc3 c n (Nat.lt_of_succ_lt hn))

/-- At a first head the accumulator starts from the zero block. -/
theorem acc3_first (c : Dev nD) (t : Fin cfg3.N) (h : t.val % 16 = 0) :
    acc3 V c t.val t.isLt = k3_pay3 (iblk3 V c 0 t) (iblk3 V c 1 t) (iblk3 V c 2 t) (iblk3 V c 3 t) (k3_pay2 (F := F)) := by
  obtain ⟨n, hn⟩ := t
  cases n with
  | zero => rfl
  | succ n => exact congrArg (k3_pay3 _ _ _ _) (if_pos h)

/-- At any other head it continues from what the point before left. -/
theorem acc3_next (c : Dev nD) (t : Fin cfg3.N) (h : ¬t.val % 16 = 0) :
    acc3 V c t.val t.isLt = k3_pay3 (iblk3 V c 0 t) (iblk3 V c 1 t) (iblk3 V c 2 t) (iblk3 V c 3 t)
      (acc3 V c (t.val - 1) (Nat.lt_of_le_of_lt (Nat.sub_le _ _) t.isLt)) := by
  obtain ⟨n, hn⟩ := t
  cases n with
  | zero => exact absurd (Nat.zero_mod _) h
  | succ n => exact congrArg (k3_pay3 _ _ _ _) (if_neg h)

/-! ## The invariant: the accumulator buffer between points -/

/-- The accumulator buffer, whole. -/
abbrev scM : Memref sig .tc .vmem S512x1024 .f32 := Memref.whole cc3_scratch0

/-- The other scoped buffers, unopened. -/
abbrev restBut (c : Dev nD) : sProp 𝕄 :=
  Pipeline.scopedRestBut (Ix := Unit) (Name := ℕ) (U := UR sig nD τ) (Lvl := ℕ) (Val := Elt F) spec3 c [cc3_scratch0]

/-- What the call is entered with and left with: the accumulator buffer at some contents, the other scoped buffers, the
    generator register at some state. -/
theorem PhiA3_eq (c : Dev nD) :
    (Pipeline.ΦA spec3 c : sProp 𝕄)
      = iprop(iprop(iprop((∃ d, owns (c : Thread nD τ) scM fullShare d)) ∗ restBut c) ∗ (∃ r, prngReg c r)) := by
  unfold Pipeline.ΦA; rw [scopedRest3_split]; simp only [scM, owns_whole]; try rfl

/-- The invariant before position `n`: before the first point what the call is entered with; afterwards the same with
    the accumulator buffer at what the point before left. -/
def PhiS (c : Dev nD) : (n : ℕ) → n ≤ cfg3.N → sProp 𝕄
  | 0, _ => Pipeline.ΦA spec3 c
  | n + 1, hn => iprop(iprop(owns (c : Thread nD τ) scM fullShare (acc3 V c n hn) ∗ restBut c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare (acc3 V c n hn) ∗ restBut c) ∗ (∃ r, prngReg c r)) := rfl

theorem PhiS_pos (c : Dev nD) (n : ℕ) (h : n ≤ cfg3.N) (hz : n ≠ 0) :
    PhiS V c n h = iprop(iprop(owns (c : Thread nD τ) scM fullShare (acc3 V c (n - 1) (by omega)) ∗ restBut c) ∗ (∃ r, prngReg c r)) := by
  cases n with
  | zero => exact absurd rfl hz
  | succ n => rfl

/-- At any position the invariant yields the accumulator buffer at some contents: its named contents forgotten. -/
theorem PhiS_forget (c : Dev nD) (n : ℕ) (h : n ≤ cfg3.N) : PhiS V c n h ⊢ Pipeline.ΦA spec3 c := by
  cases n with
  | zero => exact Idealize.SL.BI.Entails.refl _
  | succ n =>
    rw [PhiS_succ, PhiA3_eq]
    iintro ⟨⟨HS, Hb⟩, Hg⟩
    isplitl [HS Hb]
    · isplitl [HS]
      · iexists _; iexact HS
      iexact Hb
    iexact Hg

/-! ## The proof data of the call -/

/-- The proof data of the call on core `c`: the arrays as the call finds them; after the body at point `t` each input's
    buffer at its block, the output's at the accumulator there plus the bias row (what the last head stores; at the other
    heads the window is idle and this is not read); the invariant `PhiS`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (acc3 V c t.val t.isLt) (iblk3 V c 4 t)
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc (c : Dev nD) (t : Fin cfg3.N) :
    (dat3 V c).Φ t.castSucc = PhiS V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = k3_pay1 (acc3 V c t.val t.isLt) (iblk3 V c 4 t) := by dsimp only [dat3]

/-- Each input's current staging buffer holds its block at every point, fetched there or not: where it is not fetched
    the block index has not moved and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
      (fun t => by rw [after3_4]; unfold Dat.blockOf iblk3; rw [A_eq3]; try rfl) t d).trans
    (by unfold Dat.fetched Dat.blockOf iblk3; rw [A_eq3]; try rfl)

/-! ## The body obligation -/

/-- What the body leaves in each input window's buffer: its block, the windows being live everywhere. -/
theorem leaves3_0 (c : Dev nD) (t : Fin cfg3.N) :
    (dat3 V c).leavesExact 0 t = owns (c : Thread nD τ) (st3_0 t) fullShare (iblk3 V c 0 t) := by
  unfold Dat.leavesExact; rw [live_0 t, after3_0]
theorem leaves3_1 (c : Dev nD) (t : Fin cfg3.N) :
    (dat3 V c).leavesExact 1 t = owns (c : Thread nD τ) (st3_1 t) fullShare (iblk3 V c 1 t) := by
  unfold Dat.leavesExact; rw [live_1 t, after3_1]
theorem leaves3_2 (c : Dev nD) (t : Fin cfg3.N) :
    (dat3 V c).leavesExact 2 t = owns (c : Thread nD τ) (st3_2 t) fullShare (iblk3 V c 2 t) := by
  unfold Dat.leavesExact; rw [live_2 t, after3_2]
theorem leaves3_3 (c : Dev nD) (t : Fin cfg3.N) :
    (dat3 V c).leavesExact 3 t = owns (c : Thread nD τ) (st3_3 t) fullShare (iblk3 V c 3 t) := by
  unfold Dat.leavesExact; rw [live_3 t, after3_3]
theorem leaves3_4 (c : Dev nD) (t : Fin cfg3.N) :
    (dat3 V c).leavesExact 4 t = owns (c : Thread nD τ) (st3_4 t) fullShare (iblk3 V c 4 t) := by
  unfold Dat.leavesExact; rw [live_4 t, after3_4]

/-- The invariant at any position opened: the accumulator buffer at some contents, the other scoped buffers, the
    generator register. -/
theorem PhiS_open (c : Dev nD) (n : ℕ) (h : n ≤ cfg3.N) :
    PhiS V c n h ⊢ iprop(iprop(iprop((∃ d, owns (c : Thread nD τ) scM fullShare d)) ∗ restBut c) ∗ (∃ r, prngReg c r)) :=
  (PhiS_forget V c n h).trans (Entails.of_eq (PhiA3_eq c))

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point. The inputs' buffers hold their blocks; the position modulo 16 says which head case the point is
    in, and that case's run applies: at a first head the accumulator buffer is taken at whatever it holds, at the other
    heads at what the point before left; it is handed back at this point's accumulator. Off the last head the output
    window is idle and its buffer is handed back as found; at the last head it is left at the accumulator plus bias. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS V c (t.val + 1) t.isLt from rfl, PhiS_succ]
  rw [leaves3_0, leaves3_1, leaves3_2, leaves3_3, leaves3_4, PhiS_castSucc V c t]
  have hN : t.val < 128 := lt_of_lt_of_eq t.isLt (show cfg3.N = 128 from N_3)
  by_cases h0 : t.val % 16 = 0
  · have hc0 : isFirst (grid3.coords t) := (isFirst_iff t).mpr h0
    have hc1 : ¬isLast (grid3.coords t) := fun h => by have := (isLast_iff t).mp h; omega
    rw [Dat.leavesExact_idle (dat3 V c) 5 t (idle_5 t hc1) (noFlush_5 t hc1)]
    rw [acc3_first V c t h0]
    iintro ⟨HΦ, Ho, ⟨%d0, H0⟩, ⟨%d1, H1⟩, ⟨%d2, H2⟩, ⟨%d3, H3⟩, ⟨%d4, H4⟩, ⟨%d5, H5⟩⟩
    ihave HA := (PhiS_open V c _ _) $$ HΦ
    icases HA with ⟨⟨HS, Hb⟩, Hg⟩
    iapply (run_first c (grid3.coords t) _ _ _ _ _ _ _ _ _ _ _ _ _ _ hc0 hc1
      (iblk3 V c 0 t) (iblk3 V c 1 t) (iblk3 V c 2 t) (iblk3 V c 3 t) (iblk3 V c 4 t) ((dat3 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hb Hg]
    · isplitl [HS Hb]
      · isplitl [HS]; · iexact HS
        iexact Hb
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬isFirst (grid3.coords t) := fun h => h0 ((isFirst_iff t).mp h)
    have hz : t.val ≠ 0 := fun h => h0 (by rw [h])
    rw [acc3_next V c t h0, PhiS_pos V c _ _ hz]
    by_cases h1 : t.val % 16 = 15
    · have hc1 : isLast (grid3.coords t) := (isLast_iff t).mpr h1
      rw [show (dat3 V c).leavesExact 5 t = owns (c : Thread nD τ) (st3_5 t) fullShare ((dat3 V c).after 5 t) from by
        unfold Dat.leavesExact; rw [live_5 t hc1], after3_5, acc3_next V c t h0]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run_last c (grid3.coords t) _ _ _ _ _ _ _ _ _ _ _ _ _ _ hc0 hc1
        (iblk3 V c 0 t) (iblk3 V c 1 t) (iblk3 V c 2 t) (iblk3 V c 3 t) (iblk3 V c 4 t) (acc3 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬isLast (grid3.coords t) := fun h => h1 ((isLast_iff t).mp h)
      rw [Dat.leavesExact_idle (dat3 V c) 5 t (idle_5 t hc1) (noFlush_5 t hc1)]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run_mid c (grid3.coords t) _ _ _ _ _ _ _ _ _ _ _ _ _ _ hc0 hc1
        (iblk3 V c 0 t) (iblk3 V c 1 t) (iblk3 V c 2 t) (iblk3 V c 3 t) (iblk3 V c 4 t) ((dat3 V c).before 5 t d5) (acc3 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the call, at every point. -/
theorem body_obligation3 (c : Dev nD) : BodyObligation (dat3 (F := F) V c) (defs₀ (F := F)) Variants.none () Set.univ := fun t => by
  rw [bigSep_W3, bigSep_W3]
  exact sound_body3 V c t

/-! ## Entering and leaving the call -/

/-- What the call is entered with is the invariant before the first point. -/
theorem hin3' (c : Dev nD) : Pipeline.ΦA spec3 c ⊢ (dat3 V c).Φ 0 := by
  rw [show (dat3 V c).Φ 0 = PhiS V c 0 (Nat.zero_le _) from rfl, PhiS_zero V c 0 _ rfl]

/-- The same, from the generator register and the scoped buffers as two conjuncts. -/
theorem hin3 (c : Dev nD) :
    iprop((∃ r, prngReg c r) ∗ Pipeline.scopedRest (Ix := Unit) (Name := ℕ) (U := UR sig nD τ) (Lvl := ℕ) (Val := Elt F) spec3 c) ⊢ ((dat3 V c).Φ 0 : sProp 𝕄) :=
  (show iprop((∃ r, prngReg c r) ∗ Pipeline.scopedRest (Ix := Unit) (Name := ℕ) (U := UR sig nD τ) (Lvl := ℕ) (Val := Elt F) spec3 c) ⊢ (Pipeline.ΦA spec3 c : sProp 𝕄) from by
    unfold Pipeline.ΦA
    iintro ⟨Hg, Hr⟩
    isplitl [Hr]; · iexact Hr
    iexact Hg).trans (hin3' V c)

/-- After the last point the invariant gives back what the call was entered with: the accumulator's named contents are
    forgotten. -/
theorem hout3' (c : Dev nD) : (dat3 V c).Φ (Fin.last cfg3.N) ⊢ Pipeline.ΦA spec3 c := by
  rw [show (dat3 V c).Φ (Fin.last cfg3.N) = PhiS V c (Fin.last cfg3.N).val (Nat.le_of_lt_succ (Fin.last cfg3.N).isLt) from rfl]
  exact PhiS_forget V c _ _

/-- The same, to the generator register and the scoped buffers as two conjuncts. -/
theorem hout3 (c : Dev nD) :
    ((dat3 V c).Φ (Fin.last cfg3.N) : sProp 𝕄) ⊢ iprop((∃ r, prngReg c r) ∗ Pipeline.scopedRest (Ix := Unit) (Name := ℕ) (U := UR sig nD τ) (Lvl := ℕ) (Val := Elt F) spec3 c) :=
  (hout3' V c).trans (show (Pipeline.ΦA spec3 c : sProp 𝕄) ⊢ iprop((∃ r, prngReg c r) ∗ Pipeline.scopedRest (Ix := Unit) (Name := ℕ) (U := UR sig nD τ) (Lvl := ℕ) (Val := Elt F) spec3 c) from by
    unfold Pipeline.ΦA
    iintro ⟨Hr, Hg⟩
    isplitl [Hg]; · iexact Hg
    iexact Hr)

/-- The three side facts of the proof data: full shares, nothing owed, nothing recorded beyond the default. -/
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

/-- info: 'Cert.KernelIdeal.Attn.body_obligation3' depends on axioms: [propext, Classical.choice, Quot.sound] -/
#guard_msgs in #print axioms body_obligation3

end Cert.KernelIdeal.Attn

end
-- ==== Proof.Frame.lean ====
/-
  The frame: every weakly fair execution of the program terminates, nothing faulting, and the eleven argument arrays end
  holding what they held at launch.

  It is read off the run of the six segments: a host stretch changes only the buffers it writes and a region only its
  result array, none of which is an argument, so the last boundary's contents at an argument are the launch contents.
  The attention region's half comes from the module that proves it, at the contents the region is entered with.
-/
import proofs.«104749_j59691455480063_2_alg».proof.Proof.Run
import proofs.«104749_j59691455480063_2_alg».proof.Proof.Attn

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## What each segment leaves alone -/

/-- The first host stretch changes only the buffers it writes. -/
theorem U1_arg (c : Dev nD) (r : Ref sig .tc) (h : r ∉ hostOps0_W) : U1 m c r = m ((c : Thread nD τ).loc r) :=
  V1_of m c r h
/-- A projection region changes its result array only. -/
theorem U2_of (c : Dev nD) (r : Ref sig .tc) (h : r ≠ main_v12) : U2 m c r = U1 m c r := by
  unfold U2; exact Function.update_of_ne (StableHlo.devRef_ne_of_ne h) _ _
theorem U3_of (c : Dev nD) (r : Ref sig .tc) (h : r ≠ main_v13) : U3 m c r = U2 m c r := by
  unfold U3; exact Function.update_of_ne (StableHlo.devRef_ne_of_ne h) _ _
theorem U4_of (c : Dev nD) (r : Ref sig .tc) (h : r ≠ main_v14) : U4 m c r = U3 m c r := by
  unfold U4; exact Function.update_of_ne (StableHlo.devRef_ne_of_ne h) _ _
/-- The second host stretch changes only the buffers it writes. -/
theorem U5_of (c : Dev nD) (r : Ref sig .tc) (h : r ∉ hostOps3_W) : U5 m c r = U4 m c r :=
  StableHlo.after_of_writes_sub hostOps3 _ hostOps3_writes h
/-- The launch contents of an argument reach the second host stretch unchanged. -/
theorem U4_arg (c : Dev nD) (r : Ref sig .tc) (h0 : r ∉ hostOps0_W) (h12 : r ≠ main_v12) (h13 : r ≠ main_v13) (h14 : r ≠ main_v14) :
    U4 m c r = m ((c : Thread nD τ).loc r) :=
  (U4_of m c r h14).trans <| (U3_of m c r h13).trans <| (U2_of m c r h12).trans (U1_arg m c r h0)
/-- The attention region changes the program's result array only. -/
theorem U6_of (dat3 : (c : Dev nD) → Dat τ (Elt F) Unit ℕ (UR sig nD τ) ℕ cfg3 c) (c : Dev nD) (r : Ref sig .tc) (h : r ≠ main_v19) :
    U6 m dat3 c r = U5 m c r := by
  unfold U6; exact Function.update_of_ne (StableHlo.devRef_ne_of_ne h) _ _
/-- An argument array holds its launch contents at the last boundary. -/
theorem U6_arg (dat3 : (c : Dev nD) → Dat τ (Elt F) Unit ℕ (UR sig nD τ) ℕ cfg3 c) (c : Dev nD) (r : Ref sig .tc)
    (h0 : r ∉ hostOps0_W) (h3 : r ∉ hostOps3_W) (h12 : r ≠ main_v12) (h13 : r ≠ main_v13) (h14 : r ≠ main_v14) (h19 : r ≠ main_v19) :
    U6 m dat3 c r = m ((c : Thread nD τ).loc r) :=
  (U6_of m dat3 c r h19).trans <| (U5_of m c r h3).trans (U4_arg m c r h0 h12 h13 h14)

/-! ## The attention region's half, and the frame -/

/-- The attention region's half at the contents it is entered with. -/
def attnHalf : AttnHalf m where
  dat := fun c => Attn.dat3 (T5 m) c
  hA := Attn.A_eq3 (T5 m)
  hq := fun _ _ => rfl
  howed := fun _ _ => rfl
  hrec := fun _ _ => rfl
  hbody := Attn.body_obligation3 (T5 m)
  hin := Attn.hin3 (T5 m)
  hout := Attn.hout3 (T5 m)

/-- The run with the attention region's half supplied: every unscoped buffer ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = U6 m (attnHalf m).dat c b) :=
  run_all m ρ (attnHalf m)

/-- THE FRAME: the program terminates, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (U6_arg m _ c main_arg0 (by decide) (by decide) (by decide) (by decide) (by decide) (by decide)),
    (h c _ (mem_uc main_arg1 (by decide))).trans (U6_arg m _ c main_arg1 (by decide) (by decide) (by decide) (by decide) (by decide) (by decide)),
    (h c _ (mem_uc main_arg2 (by decide))).trans (U6_arg m _ c main_arg2 (by decide) (by decide) (by decide) (by decide) (by decide) (by decide)),
    (h c _ (mem_uc main_arg3 (by decide))).trans (U6_arg m _ c main_arg3 (by decide) (by decide) (by decide) (by decide) (by decide) (by decide)),
    (h c _ (mem_uc main_arg4 (by decide))).trans (U6_arg m _ c main_arg4 (by decide) (by decide) (by decide) (by decide) (by decide) (by decide)),
    (h c _ (mem_uc main_arg5 (by decide))).trans (U6_arg m _ c main_arg5 (by decide) (by decide) (by decide) (by decide) (by decide) (by decide)),
    (h c _ (mem_uc main_arg6 (by decide))).trans (U6_arg m _ c main_arg6 (by decide) (by decide) (by decide) (by decide) (by decide) (by decide)),
    (h c _ (mem_uc main_arg7 (by decide))).trans (U6_arg m _ c main_arg7 (by decide) (by decide) (by decide) (by decide) (by decide) (by decide)),
    (h c _ (mem_uc main_arg8 (by decide))).trans (U6_arg m _ c main_arg8 (by decide) (by decide) (by decide) (by decide) (by decide) (by decide)),
    (h c _ (mem_uc main_arg9 (by decide))).trans (U6_arg m _ c main_arg9 (by decide) (by decide) (by decide) (by decide) (by decide) (by decide)),
    (h c _ (mem_uc main_arg10 (by decide))).trans (U6_arg m _ c main_arg10 (by decide) (by decide) (by decide) (by decide) (by decide) (by decide))⟩)
    (run m ρ)

end Cert.KernelIdeal.Whole

end
-- ==== Proof.LibSumBlocks.lean ====
/-
  A sum over a * b positions, regrouped into a consecutive blocks of b positions.

  In any additive commutative monoid, the sum over the a * b positions n of f n is the sum over the blocks s < a of the
  sums over the positions y < b of f (s * b + y): position s * b + y is the y-th position of block s, and every position
  is of that form exactly once.
-/
import Mathlib.Algebra.BigOperators.Fin
import Mathlib.Logic.Equiv.Fin.Basic

open scoped BigOperators

namespace Cert.SumBlocks

/-- A sum over `a * b` positions, regrouped as `a` consecutive blocks of `b` positions: position `s * b + y` is the
    `y`-th position of block `s`. -/
theorem sum_blocks {M : Type*} [AddCommMonoid M] (a b : Nat) (f : Fin (a * b) → M) :
    (∑ n : Fin (a * b), f n) = ∑ s : Fin a, ∑ y : Fin b,
      f ⟨s.val * b + y.val, Nat.lt_of_lt_of_le (Nat.add_lt_add_left y.isLt _)
        (by rw [← Nat.succ_mul]; exact Nat.mul_le_mul_right _ s.isLt)⟩ := by
  rw [← Equiv.sum_comp finProdFinEquiv f, Fintype.sum_prod_type]
  refine Finset.sum_congr rfl fun s _ => Finset.sum_congr rfl fun y _ => ?_
  refine congrArg f (Fin.ext ?_)
  show y.val + b * s.val = s.val * b + y.val
  rw [Nat.mul_comm, Nat.add_comm]

end Cert.SumBlocks
-- ==== Proof.Attention.lean ====
/-
  Multi-head attention over the literal extents, as one function of the eleven argument arrays.

  Two batches, 2048 positions, model width 1024 split into 16 heads of width 64, no scaling of the scores. Position
  h · 64 + d of the model width is coordinate d of head h. The three projections are  x · Wᵀ + b  (weights stored
  output-major). For one batch, head and query position the scores against the 2048 keys are the 64-term dot products;
  their softmax subtracts the row's maximum, folded from the word of −∞, exponentiates, and divides by the sum of the
  exponentials; the head's output is the softmax row against the value columns. The result is the concatenated heads
  against the output weight plus the output bias, and that last contraction over the 1024 positions is stated two ways:
  head by head (16 blocks of 64 positions, added up), and all at once. The two agree in any additive commutative monoid;
  no finiteness of any entry is used.
-/
import Idealize.ShloMosaic.PureOps.Ideal
import Idealize.ShloMosaic.Lib.ValueIdx
import proofs.«104749_j59691455480063_2_alg».proof.Proof.LibSumBlocks

noncomputable section

open scoped BigOperators
open Idealize.ShloMosaic Idealize.ShloMosaic.ValueIdx

namespace Cert.Mha

/-- The arrays' types: activations and result, a weight, a bias. -/
abbrev Act := (⟨3, ![2, 2048, 1024]⟩ : Shape).Idx → EReal
abbrev Weight := (⟨2, ![1024, 1024]⟩ : Shape).Idx → EReal
abbrev Bias := (⟨1, ![1024]⟩ : Shape).Idx → EReal

/-- Coordinate d of head h, as a position of the model width. -/
def headPos (h : Fin 16) (d : Fin 64) : Fin 1024 := ⟨h.val * 64 + d.val, by have := h.isLt; have := d.isLt; omega⟩

/-- A projection  x · Wᵀ + b  at batch b, position s, output position e. -/
def proj (x : Act) (W : Weight) (c : Bias) (b : Fin 2) (s : Fin 2048) (e : Fin 1024) : EReal :=
  (∑ j : Fin 1024, x (ix3 b s j) * W (ix2 e j)) + c (ix1 e)

/-- A row's maximum, folded from the word of −∞. -/
def rowMax {n : Nat} (s : Fin n → EReal) : EReal :=
  (Finset.univ : Finset (Fin n)).fold max (Ideal.ofBits .f32 0xFF800000#32) s

/-- The softmax of a row of scores at position t. -/
def softmax {n : Nat} (s : Fin n → EReal) (t : Fin n) : EReal :=
  Ideal.div (Ideal.exp (s t - rowMax s)) (∑ u : Fin n, Ideal.exp (s u - rowMax s))

/-- One query row's scores against the keys. -/
def score (q : Fin 64 → EReal) (K : Fin 2048 → Fin 64 → EReal) (t : Fin 2048) : EReal :=
  ∑ d : Fin 64, q d * K t d

/-- One query row attended over keys and values: the softmax of its scores against column d of the values. -/
def attend (q : Fin 64 → EReal) (K V : Fin 2048 → Fin 64 → EReal) (d : Fin 64) : EReal :=
  ∑ t : Fin 2048, softmax (score q K) t * V t d

section
variable (x0 x1 x2 : Act) (x3 : Weight) (x4 : Bias) (x5 : Weight) (x6 : Bias) (x7 : Weight) (x8 : Bias)

/-- Head h's output for batch b and query position s, at coordinate d. -/
def headOut (b : Fin 2) (s : Fin 2048) (h : Fin 16) (d : Fin 64) : EReal :=
  attend (fun d' => proj x0 x3 x4 b s (headPos h d'))
    (fun t d' => proj x1 x5 x6 b t (headPos h d'))
    (fun t d' => proj x2 x7 x8 b t (headPos h d')) d

variable (x9 : Weight) (x10 : Bias)

/-- Head h's contribution to the output at (b, s, n): its 64 outputs against its 64 columns of the output weight. -/
def headTerm (b : Fin 2) (s : Fin 2048) (n : Fin 1024) (h : Fin 16) : EReal :=
  ∑ d : Fin 64, headOut x0 x1 x2 x3 x4 x5 x6 x7 x8 b s h d * x9 (ix2 n (headPos h d))

/-- The result at (b, s, n), head by head. -/
def outByHeads (b : Fin 2) (s : Fin 2048) (n : Fin 1024) : EReal :=
  (∑ h : Fin 16, headTerm x0 x1 x2 x3 x4 x5 x6 x7 x8 x9 b s n h) + x10 (ix1 n)

/-- The concatenated heads at position e of the model width: head e / 64, coordinate e % 64. -/
def headCat (b : Fin 2) (s : Fin 2048) (e : Fin 1024) : EReal :=
  headOut x0 x1 x2 x3 x4 x5 x6 x7 x8 b s ⟨e.val / 64, by have := e.isLt; omega⟩ ⟨e.val % 64, Nat.mod_lt _ (by decide)⟩

/-- The result at (b, s, n), the 1024 positions contracted at once. -/
def outFlat (b : Fin 2) (s : Fin 2048) (n : Fin 1024) : EReal :=
  (∑ e : Fin 1024, headCat x0 x1 x2 x3 x4 x5 x6 x7 x8 b s e * x9 (ix2 n e)) + x10 (ix1 n)

/-- Multi-head attention of the eleven arrays: the specification, one function on the result's index. -/
def mha : Act := fun i => outByHeads x0 x1 x2 x3 x4 x5 x6 x7 x8 x9 x10 (i 0) (i 1) (i 2)

theorem mha_apply (b : Fin 2) (s : Fin 2048) (n : Fin 1024) :
    mha x0 x1 x2 x3 x4 x5 x6 x7 x8 x9 x10 (ix3 b s n) = outByHeads x0 x1 x2 x3 x4 x5 x6 x7 x8 x9 x10 b s n := rfl

/-- Position h · 64 + d lies in head h at coordinate d. -/
theorem headCat_headPos (b : Fin 2) (s : Fin 2048) (h : Fin 16) (d : Fin 64) :
    headCat x0 x1 x2 x3 x4 x5 x6 x7 x8 b s (headPos h d) = headOut x0 x1 x2 x3 x4 x5 x6 x7 x8 b s h d := by
  unfold headCat headPos
  have hd := d.isLt
  congr 1
  · exact Fin.ext (by show (h.val * 64 + d.val) / 64 = h.val; omega)
  · exact Fin.ext (by show (h.val * 64 + d.val) % 64 = d.val; omega)

/-- The two statements of the last contraction agree: 1024 positions are 16 blocks of 64. -/
theorem outFlat_eq_outByHeads (b : Fin 2) (s : Fin 2048) (n : Fin 1024) :
    outFlat x0 x1 x2 x3 x4 x5 x6 x7 x8 x9 x10 b s n = outByHeads x0 x1 x2 x3 x4 x5 x6 x7 x8 x9 x10 b s n := by
  unfold outFlat outByHeads headTerm
  refine congrArg (fun a : EReal => a + x10 (ix1 n)) ?_
  refine (Cert.SumBlocks.sum_blocks 16 64
    (fun e : Fin (16 * 64) => headCat x0 x1 x2 x3 x4 x5 x6 x7 x8 b s e * x9 (ix2 n e))).trans ?_
  refine Finset.sum_congr rfl fun h _ => Finset.sum_congr rfl fun d _ => ?_
  exact congrArg (fun a : EReal => a * x9 (ix2 n (headPos h d))) (headCat_headPos x0 x1 x2 x3 x4 x5 x6 x7 x8 b s h d)

end

/-! ## The heads added one after another -/

/-- The sum of the first k terms of a sequence, built by adding one term at a time to 0: the accumulator after k heads. -/
def accumulate {M : Type*} [AddCommMonoid M] (c : Nat → M) : Nat → M
  | 0 => 0
  | k + 1 => accumulate c k + c k

theorem accumulate_eq_sum_range {M : Type*} [AddCommMonoid M] (c : Nat → M) (k : Nat) :
    accumulate c k = ∑ i ∈ Finset.range k, c i := by
  induction k with
  | zero => rfl
  | succ k ih => rw [accumulate, ih, Finset.sum_range_succ]

/-- Adding the 16 heads' terms one after another to 0 gives their sum. -/
theorem accumulate_heads {M : Type*} [AddCommMonoid M] (c : Nat → M) :
    accumulate c 16 = ∑ h : Fin 16, c h.val := by
  rw [accumulate_eq_sum_range, Finset.sum_range]

end Cert.Mha

end
-- ==== Proof.LibRowForm.lean ====
/-
  A vector recast as a one-row matrix, read at an index.
-/
import Idealize.ShloMosaic.Lib.ValueIdx
import Idealize.ShloMosaic.Lib.Pipeline.Value

namespace Cert.RowForm

open Idealize.ShloMosaic

/-- A vector of length `n` recast as a `1 × n` matrix, read at row `0` and column `j`, is the vector at `j`. -/
theorem row_of_reshape {α : Type} {n : Nat} (v : (⟨1, ![n]⟩ : Shape).Idx → α)
    (h : (⟨1, ![n]⟩ : Shape).ShapeCasts ⟨2, ![1, n]⟩) (j : Fin n) :
    shapeCast (⟨2, ![1, n]⟩ : Shape) v h (ValueIdx.ix2 (0 : Fin 1) j) = v (ValueIdx.ix1 j) := by
  rw [shapeCast_addUnit_apply ![n] v h]
  congr 1
  funext a
  match a with
  | ⟨0, _⟩ => rfl

end Cert.RowForm
-- ==== Proof.HostLayout.lean ====
/-
  The host stretches re-lay the weights per head, and nothing else: read at an index, each re-laid array is the weight
  matrix (or bias) at the matching place.

  * projections: `w[h, j, d] = W[h·64 + d, j]` (the matrix split into 16 row blocks, each transposed) and
    `bias[h, 0, d] = b[h·64 + d]`;
  * output projection: `wo[h, d, n] = Wo[n, h·64 + d]` (the columns split into 16 blocks) and `bo[0, n] = bo[n]`.

  The narrowing of the re-laid weights to a shorter float format is the identity on extended reals. Also recorded here:
  which boundary contents a buffer keeps — a segment changes only the buffers it writes.
-/
import proofs.«104749_j59691455480063_2_alg».proof.Proof.Frame
import proofs.«104749_j59691455480063_2_alg».proof.Proof.Attention
import proofs.«104749_j59691455480063_2_alg».proof.Proof.LibRowForm
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostLayout

open Idealize.ShloMosaic Idealize.ShloMosaic.TcCoe Idealize.ShloMosaic.ValueIdx Idealize.SL Idealize.SL.Sem Idealize.ShloMosaic.StableHlo
open Cert.KernelIdeal Cert.KernelIdeal.Gen Cert.KernelIdeal.Whole Cert.Mha

/-! ## The re-laid arrays at an index -/

/-- The per-head transposed weights: entry (h, j, d) is `W[h·64 + d, j]`. -/
def weightsByHead (W : S1024x1024.Idx → EReal) : FVec Ideal S16x1024x64 .bf16 :=
  truncf .bf16 (transpose S16x1024x64 [0, 2, 1] (shapeCast S16x64x1024 W shapeCasts_S1024x1024_S16x64x1024)
    transposes_S16x64x1024_S16x1024x64_0_2_1) bitsLt_bf16_f32

theorem weightsByHead_apply (W : S1024x1024.Idx → EReal) (h : Fin 16) (j : Fin 1024) (d : Fin 64) :
    weightsByHead W (ix3 h j d) = W (ix2 (headPos h d) j) := by
  unfold weightsByHead
  rw [truncf_apply]
  refine (transpose_apply [0, 2, 1] _ transposes_S16x64x1024_S16x1024x64_0_2_1 (ix3 h j d) (ix3 h d j) (fun b => match b with
    | ⟨0, _⟩ => rfl
    | ⟨1, _⟩ => rfl
    | ⟨2, _⟩ => rfl)).trans ?_
  exact shapeCast_apply W shapeCasts_S1024x1024_S16x64x1024 (ix3 h d j) (ix2 (headPos h d) j)
    (by rewrite [Shape.rowMajor_val_three, Shape.rowMajor_val_two]
        show (h.val * 64 + d.val) * 1024 + j.val = (h.val * 64 + d.val) * 1024 + j.val
        rfl)

/-- The per-head bias: entry (h, 0, d) is `b[h·64 + d]`. -/
def biasByHead (b : S1024.Idx → EReal) : FVec Ideal S16x1x64 .f32 := shapeCast S16x1x64 b shapeCasts_S1024_S16x1x64

theorem biasByHead_apply (b : S1024.Idx → EReal) (h : Fin 16) (d : Fin 64) :
    biasByHead b (ix3 h (0 : Fin 1) d) = b (ix1 (headPos h d)) := by
  unfold biasByHead
  exact shapeCast_apply b shapeCasts_S1024_S16x1x64 (ix3 h (0 : Fin 1) d) (ix1 (headPos h d))
    (by rewrite [Shape.rowMajor_val_three, Shape.rowMajor_val_one]
        show h.val * 64 + d.val = (h.val * 1 + 0) * 64 + d.val
        omega)

/-- The output weights by head: entry (h, d, n) is `Wo[n, h·64 + d]`. -/
def outWeightsByHead (W : S1024x1024.Idx → EReal) : FVec Ideal S16x64x1024 .bf16 :=
  truncf .bf16 (transpose S16x64x1024 [1, 2, 0] (shapeCast S1024x16x64 W shapeCasts_S1024x1024_S1024x16x64)
    transposes_S1024x16x64_S16x64x1024_1_2_0) bitsLt_bf16_f32

theorem outWeightsByHead_apply (W : S1024x1024.Idx → EReal) (h : Fin 16) (d : Fin 64) (n : Fin 1024) :
    outWeightsByHead W (ix3 h d n) = W (ix2 n (headPos h d)) := by
  unfold outWeightsByHead
  rw [truncf_apply]
  refine (transpose_apply [1, 2, 0] _ transposes_S1024x16x64_S16x64x1024_1_2_0 (ix3 h d n) (ix3 n h d) (fun b => match b with
    | ⟨0, _⟩ => rfl
    | ⟨1, _⟩ => rfl
    | ⟨2, _⟩ => rfl)).trans ?_
  exact shapeCast_apply W shapeCasts_S1024x1024_S1024x16x64 (ix3 n h d) (ix2 n (headPos h d))
    (by rewrite [Shape.rowMajor_val_three, Shape.rowMajor_val_two]
        show n.val * 1024 + (h.val * 64 + d.val) = (n.val * 16 + h.val) * 64 + d.val
        omega)

/-- The output bias as a row: entry (0, n) is `bo[n]`. -/
def biasRow (b : S1024.Idx → EReal) : FVec Ideal S1x1024 .f32 := shapeCast S1x1024 b shapeCasts_S1024_S1x1024

theorem biasRow_apply (b : S1024.Idx → EReal) (n : Fin 1024) : biasRow b (ix2 (0 : Fin 1) n) = b (ix1 n) :=
  Cert.RowForm.row_of_reshape b shapeCasts_S1024_S1x1024 n

/-! ## The boundary contents at the buffers the regions read -/

variable (m : (ℓ : Loc nD τ sig) → Buf (Elt Ideal) ℓ)

theorem U1_v2 (c : Dev nD) : T1 m c main_v2 = weightsByHead (m ((c : Thread nD τ).loc main_arg3)) := by
  show StableHlo.after hostOps0 (U0 m c) (Proc.devRef .tc main_v2) = _
  after_results; rfl
theorem U1_v3 (c : Dev nD) : T1 m c main_v3 = biasByHead (m ((c : Thread nD τ).loc main_arg4)) := by
  show StableHlo.after hostOps0 (U0 m c) (Proc.devRef .tc main_v3) = _
  after_results; rfl
theorem U1_v6 (c : Dev nD) : T1 m c main_v6 = weightsByHead (m ((c : Thread nD τ).loc main_arg5)) := by
  show StableHlo.after hostOps0 (U0 m c) (Proc.devRef .tc main_v6) = _
  after_results; rfl
theorem U1_v7 (c : Dev nD) : T1 m c main_v7 = biasByHead (m ((c : Thread nD τ).loc main_arg6)) := by
  show StableHlo.after hostOps0 (U0 m c) (Proc.devRef .tc main_v7) = _
  after_results; rfl
theorem U1_v10 (c : Dev nD) : T1 m c main_v10 = weightsByHead (m ((c : Thread nD τ).loc main_arg7)) := by
  show StableHlo.after hostOps0 (U0 m c) (Proc.devRef .tc main_v10) = _
  after_results; rfl
theorem U1_v11 (c : Dev nD) : T1 m c main_v11 = biasByHead (m ((c : Thread nD τ).loc main_arg8)) := by
  show StableHlo.after hostOps0 (U0 m c) (Proc.devRef .tc main_v11) = _
  after_results; rfl

theorem U2_v12 (c : Dev nD) : U2 m c main_v12 = o2 m c := by
  unfold U2; exact Function.update_self _ _ _
theorem U3_v13 (c : Dev nD) : U3 m c main_v13 = o3 m c := by
  unfold U3; exact Function.update_self _ _ _
theorem U4_v14 (c : Dev nD) : U4 m c main_v14 = o4 m c := by
  unfold U4; exact Function.update_self _ _ _
/-- What the attention region finds in the three head-major arrays: the projection regions' results. -/
theorem U5_v12 (c : Dev nD) : T5 m c main_v12 = o2 m c :=
  (U5_of m c main_v12 (by decide)).trans <| (U4_of m c main_v12 (by decide)).trans <| (U3_of m c main_v12 (by decide)).trans (U2_v12 m c)
theorem U5_v13 (c : Dev nD) : T5 m c main_v13 = o3 m c :=
  (U5_of m c main_v13 (by decide)).trans <| (U4_of m c main_v13 (by decide)).trans (U3_v13 m c)
theorem U5_v14 (c : Dev nD) : T5 m c main_v14 = o4 m c :=
  (U5_of m c main_v14 (by decide)).trans (U4_v14 m c)

theorem U5_v17 (c : Dev nD) : T5 m c main_v17 = outWeightsByHead (m ((c : Thread nD τ).loc main_arg9)) := by
  have e : T5 m c main_v17 = outWeightsByHead (U4 m c (Proc.devRef .tc main_arg9)) := by
    show StableHlo.after hostOps3 (U4 m c) (Proc.devRef .tc main_v17) = _
    after_results; rfl
  rw [e, U4_arg m c main_arg9 (by decide) (by decide) (by decide) (by decide)]
theorem U5_v18 (c : Dev nD) : T5 m c main_v18 = biasRow (m ((c : Thread nD τ).loc main_arg10)) := by
  have e : T5 m c main_v18 = biasRow (U4 m c (Proc.devRef .tc main_arg10)) := by
    show StableHlo.after hostOps3 (U4 m c) (Proc.devRef .tc main_v18) = _
    after_results; rfl
  rw [e, U4_arg m c main_arg10 (by decide) (by decide) (by decide) (by decide)]

/-- What each projection region finds in its activations: the launch contents. -/
theorem U1_arg0 (c : Dev nD) : T1 m c main_arg0 = m ((c : Thread nD τ).loc main_arg0) := U1_arg m c main_arg0 (by decide)
theorem U2_arg1 (c : Dev nD) : T2 m c main_arg1 = m ((c : Thread nD τ).loc main_arg1) :=
  (U2_of m c main_arg1 (by decide)).trans (U1_arg m c main_arg1 (by decide))
theorem U3_arg2 (c : Dev nD) : T3 m c main_arg2 = m ((c : Thread nD τ).loc main_arg2) :=
  (U3_of m c main_arg2 (by decide)).trans <| (U2_of m c main_arg2 (by decide)).trans (U1_arg m c main_arg2 (by decide))
theorem U2_v6 (c : Dev nD) : T2 m c main_v6 = weightsByHead (m ((c : Thread nD τ).loc main_arg5)) :=
  (U2_of m c main_v6 (by decide)).trans (U1_v6 m c)
theorem U2_v7 (c : Dev nD) : T2 m c main_v7 = biasByHead (m ((c : Thread nD τ).loc main_arg6)) :=
  (U2_of m c main_v7 (by decide)).trans (U1_v7 m c)
theorem U3_v10 (c : Dev nD) : T3 m c main_v10 = weightsByHead (m ((c : Thread nD τ).loc main_arg7)) :=
  (U3_of m c main_v10 (by decide)).trans <| (U2_of m c main_v10 (by decide)).trans (U1_v10 m c)
theorem U3_v11 (c : Dev nD) : T3 m c main_v11 = biasByHead (m ((c : Thread nD τ).loc main_arg8)) :=
  (U3_of m c main_v11 (by decide)).trans <| (U2_of m c main_v11 (by decide)).trans (U1_v11 m c)

end Cert.KernelIdeal.HostLayout

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.ProjectionTile.lean ====
/-
  One head's projection tile, read at an entry, at the ideal values.

  Each of the three projection bodies takes a 512 × 1024 tile of activations, one head's 1024 × 64 slice of the
  transposed weight and that head's 64 biases, and stores the 512 × 64 tile  x · w + b.  Read at row r and column d the
  stored value is the sum over the 1024 contracted positions j of x (r, j) · w (j, d), plus b (d): the changes of float
  format are the identity on extended reals, the leading unit axes only rename positions, and the product accumulates
  into the zero tile.
-/
import proofs.«104749_j59691455480063_2_alg».proof.Proof.Gen.KernelIdeal.Skeleton
import proofs.«104749_j59691455480063_2_alg».proof.Proof.LibTileOps
import Idealize.ShloMosaic.Lib.ValueLayout

noncomputable section

open scoped BigOperators
open Idealize.ShloMosaic Idealize.ShloMosaic.ValueIdx

namespace Cert.Mha.ProjectionTile

open Cert.KernelIdeal Cert.KernelIdeal.Gen

/-- The query projection's stored tile at (r, d): the row of activations against the weight column, plus the bias. -/
theorem k0_pay1_apply (x : Vec Ideal S1x512x1024 .f32) (w : Vec Ideal S1x1024x64 .bf16) (b : Vec Ideal S1x1x64 .f32)
    (r : Fin 512) (d : Fin 64) :
    k0_pay1 (F := Ideal) x w b (ix3 (0 : Fin 1) r d)
      = (∑ j : Fin 1024, x (ix3 (0 : Fin 1) r j) * w (ix3 (0 : Fin 1) j d)) + b (ix3 (0 : Fin 1) (0 : Fin 1) d) := by
  unfold k0_pay1
  refine (shapeCast_ab_1ab_apply _ _ (0 : Fin 1) r d).trans ?_
  refine congrArg₂ (fun a b : EReal => a + b) ?_ ?_
  · refine (TileOps.matmul_zero_apply dot_S512x1024_S1024x64_S512x64_1_0_0_1_n_n_wf none _ _ r d).trans ?_
    refine Finset.sum_congr rfl fun j _ => ?_
    refine congrArg₂ (fun a b : EReal => a * b) ?_ ?_
    · exact shapeCast_1ab_ab_apply _ _ r j
    · exact shapeCast_1ab_ab_apply _ _ j d
  · refine (broadcastTo_1b_ab_apply _ _ r d).trans ?_
    exact shapeCast_1ab_ab_apply _ _ (0 : Fin 1) d

/-- The key projection's stored tile at (r, d): the same reading. -/
theorem k1_pay1_apply (x : Vec Ideal S1x512x1024 .f32) (w : Vec Ideal S1x1024x64 .bf16) (b : Vec Ideal S1x1x64 .f32)
    (r : Fin 512) (d : Fin 64) :
    k1_pay1 (F := Ideal) x w b (ix3 (0 : Fin 1) r d)
      = (∑ j : Fin 1024, x (ix3 (0 : Fin 1) r j) * w (ix3 (0 : Fin 1) j d)) + b (ix3 (0 : Fin 1) (0 : Fin 1) d) := by
  unfold k1_pay1
  refine (shapeCast_ab_1ab_apply _ _ (0 : Fin 1) r d).trans ?_
  refine congrArg₂ (fun a b : EReal => a + b) ?_ ?_
  · refine (TileOps.matmul_zero_apply dot_S512x1024_S1024x64_S512x64_1_0_0_1_n_n_wf none _ _ r d).trans ?_
    refine Finset.sum_congr rfl fun j _ => ?_
    refine congrArg₂ (fun a b : EReal => a * b) ?_ ?_
    · exact shapeCast_1ab_ab_apply _ _ r j
    · exact shapeCast_1ab_ab_apply _ _ j d
  · refine (broadcastTo_1b_ab_apply _ _ r d).trans ?_
    exact shapeCast_1ab_ab_apply _ _ (0 : Fin 1) d

/-- The value projection's stored tile at (r, d): the same reading. -/
theorem k2_pay1_apply (x : Vec Ideal S1x512x1024 .f32) (w : Vec Ideal S1x1024x64 .bf16) (b : Vec Ideal S1x1x64 .f32)
    (r : Fin 512) (d : Fin 64) :
    k2_pay1 (F := Ideal) x w b (ix3 (0 : Fin 1) r d)
      = (∑ j : Fin 1024, x (ix3 (0 : Fin 1) r j) * w (ix3 (0 : Fin 1) j d)) + b (ix3 (0 : Fin 1) (0 : Fin 1) d) := by
  unfold k2_pay1
  refine (shapeCast_ab_1ab_apply _ _ (0 : Fin 1) r d).trans ?_
  refine congrArg₂ (fun a b : EReal => a + b) ?_ ?_
  · refine (TileOps.matmul_zero_apply dot_S512x1024_S1024x64_S512x64_1_0_0_1_n_n_wf none _ _ r d).trans ?_
    refine Finset.sum_congr rfl fun j _ => ?_
    refine congrArg₂ (fun a b : EReal => a * b) ?_ ?_
    · exact shapeCast_1ab_ab_apply _ _ r j
    · exact shapeCast_1ab_ab_apply _ _ j d
  · refine (broadcastTo_1b_ab_apply _ _ r d).trans ?_
    exact shapeCast_1ab_ab_apply _ _ (0 : Fin 1) d

end Cert.Mha.ProjectionTile

end
-- ==== Proof.ProjValue0.lean ====
/-
  What projection region 0 leaves in its result array, as ONE function of the arrays it reads, at the exact
  (extended-real) reading of the floats.

  The result array is head-major: row `b·16 + h` holds head `h` of batch `b`. Its entry at (b·16 + h, s, d) is
  `Σ_j x[b, s, j] · w[h, j, d] + bias[h, 0, d]`. A grid point (h, b, i) writes the 512×64 tile of rows `i·512 … i·512+511`
  of row `b·16 + h`; the 128 points' tiles tile the array, so the array ends holding that function everywhere.
-/
import proofs.«104749_j59691455480063_2_alg».proof.Proof.Proj0
import proofs.«104749_j59691455480063_2_alg».proof.Proof.ProjectionTile
import Idealize.ShloMosaic.Lib.Pipeline.Value
import Idealize.ShloMosaic.Lib.ValueIdx

set_option maxRecDepth 16384

noncomputable section

namespace Cert.KernelIdeal.ProjValue0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- One entry of a head-major projection: row `a = b·16 + h`, position `s`, coordinate `d`. -/
def entry (x : S2x2048x1024.Idx → EReal) (w : S16x1024x64.Idx → EReal) (bias : S16x1x64.Idx → EReal)
    (a : Fin 32) (s : Fin 2048) (d : Fin 64) : EReal :=
  (∑ j : Fin 1024, x (ix3 (⟨a.val / 16, by have := a.isLt; omega⟩ : Fin 2) s j) * w (ix3 (⟨a.val % 16, by omega⟩ : Fin 16) j d))
    + bias (ix3 (⟨a.val % 16, by omega⟩ : Fin 16) (0 : Fin 1) d)

/-- The whole head-major array. -/
def headMajor (x : S2x2048x1024.Idx → EReal) (w : S16x1024x64.Idx → EReal) (bias : S16x1x64.Idx → EReal) :
    S32x2048x64.Idx → EReal := fun i => entry x w bias (i 0) (i 1) (i 2)

theorem hz3 : (![0, 0, 0] : Fin 3 → Nat) = fun _ => 0 := funext fun a => by fin_cases a <;> rfl

/-- How the four windows' block indices are related at every grid point (decided over the 128 points): the output's row
    is `16 ·` the activations' batch `+` the weights' head, its tile index the activations' tile index, every other block
    index is zero, and the bias moves with the weights. -/
theorem idx_facts : ∀ t : Fin cfg0.N,
    win0_3.index t (0 : Fin 3) = win0_0.index t (0 : Fin 3) * 16 + win0_1.index t (0 : Fin 3)
    ∧ win0_1.index t (0 : Fin 3) < 16 ∧ win0_0.index t (0 : Fin 3) < 2
    ∧ win0_3.index t (1 : Fin 3) = win0_0.index t (1 : Fin 3) ∧ win0_0.index t (1 : Fin 3) < 4
    ∧ win0_3.index t (2 : Fin 3) = 0 ∧ win0_0.index t (2 : Fin 3) = 0
    ∧ win0_1.index t (1 : Fin 3) = 0 ∧ win0_1.index t (2 : Fin 3) = 0
    ∧ win0_2.index t (0 : Fin 3) = win0_1.index t (0 : Fin 3) ∧ win0_2.index t (1 : Fin 3) = 0
    ∧ win0_2.index t (2 : Fin 3) = 0 :=
  (by decide +kernel : ∀ t : Fin grid0.N, _)

/-- Every (row, tile) pair is some point's output block. -/
theorem idx_onto : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-- At a point `t`, the tile entry computed from the three input blocks is the head-major entry at the place the output
    block puts it: the blocks' places in their arrays line up as `idx_facts` says. -/
theorem tile_eq (x : S2x2048x1024.Idx → EReal) (w : S16x1024x64.Idx → EReal) (bias : S16x1x64.Idx → EReal)
    (t : Fin cfg0.N) (r : Fin 512) (d : Fin 64) :
    (∑ jj : Fin 1024, x (((cfg0.win 0).blk t).view.emb (ix3 (0 : Fin 1) r jj))
        * w (((cfg0.win 1).blk t).view.emb (ix3 (0 : Fin 1) jj d)))
      + bias (((cfg0.win 2).blk t).view.emb (ix3 (0 : Fin 1) (0 : Fin 1) d))
    = headMajor x w bias (((cfg0.win 3).blk t).view.emb (ix3 (0 : Fin 1) r d)) := by
  obtain ⟨e0, e1, e2, e3, e4, e5, e6, e7, e8, e9, e10, e11⟩ := idx_facts t
  unfold headMajor entry
  refine congrArg₂ (· + ·) (Finset.sum_congr rfl fun jj _ => congrArg₂ (· * ·) (congrArg x ?_) (congrArg w ?_)) (congrArg bias ?_)
  · funext a; apply Fin.ext
    match a with
    | ⟨0, _⟩ => show win0_0.index t (0 : Fin 3) * 1 + 1 * 0 = (win0_3.index t (0 : Fin 3) * 1 + 1 * 0) / 16; omega
    | ⟨1, _⟩ => show win0_0.index t (1 : Fin 3) * 512 + 1 * r.val = win0_3.index t (1 : Fin 3) * 512 + 1 * r.val; omega
    | ⟨2, _⟩ => show win0_0.index t (2 : Fin 3) * 1024 + 1 * jj.val = jj.val; omega
  · funext a; apply Fin.ext
    match a with
    | ⟨0, _⟩ => show win0_1.index t (0 : Fin 3) * 1 + 1 * 0 = (win0_3.index t (0 : Fin 3) * 1 + 1 * 0) % 16; omega
    | ⟨1, _⟩ => show win0_1.index t (1 : Fin 3) * 1024 + 1 * jj.val = jj.val; omega
    | ⟨2, _⟩ => show win0_1.index t (2 : Fin 3) * 64 + 1 * d.val = win0_3.index t (2 : Fin 3) * 64 + 1 * d.val; omega
  · funext a; apply Fin.ext
    match a with
    | ⟨0, _⟩ => show win0_2.index t (0 : Fin 3) * 1 + 1 * 0 = (win0_3.index t (0 : Fin 3) * 1 + 1 * 0) % 16; omega
    | ⟨1, _⟩ => show win0_2.index t (1 : Fin 3) * 1 + 1 * 0 = 0; omega
    | ⟨2, _⟩ => show win0_2.index t (2 : Fin 3) * 64 + 1 * d.val = win0_3.index t (2 : Fin 3) * 64 + 1 * d.val; omega

/-- What point `t` writes back is block `t` of the head-major projection of the arrays the region reads. -/
theorem flushed_eq (c : Dev nD) (t : Fin cfg0.N) :
    (Proj0.dat V c).flushed 3 t
      = ((cfg0.win 3).blk t).view.read (Elt Ideal) (headMajor (V c main_arg0) (V c main_v2) (V c main_v3)) := by
  show (cfg0.win 3).cut (grid0.coords t) ((Proj0.dat V c).after 3 t) = _
  rw [Proj0.after_3]
  unfold Proj0.outTile
  rw [View.canon_unit_zero hz3]
  simp only [View.ld_unit_zero (S := S1x512x1024) hz3, View.ld_unit_zero (S := S1x1024x64) hz3, View.ld_unit_zero (S := S1x1x64) hz3]
  funext j
  obtain ⟨p, r, d, rfl⟩ : ∃ (p : Fin 1) (r : Fin 512) (d : Fin 64), j = ix3 p r d := ⟨j 0, j 1, j 2, eq_ix3 j⟩
  obtain rfl : p = 0 := Subsingleton.elim _ _
  refine (Cert.Mha.ProjectionTile.k0_pay1_apply _ _ _ r d).trans ?_
  exact tile_eq (V c main_arg0) (V c main_v2) (V c main_v3) t r d

/-- An index of the result array is in point `t`'s block iff each coordinate is in the block's range on its axis. -/
theorem mem_blk (t : Fin cfg0.N) (i : S32x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v12).slice (win0_3.rect t)).set ↔ _
  rw [View.set_slice_whole, Rect.mem_set_unit]
  exact Iff.rfl

/-- Every index of the result array is in some point's block: the point whose row is the index's and whose tile holds its
    position. -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The result array after the region: the head-major projection of the arrays the region reads. -/
theorem final (c : Dev nD) :
    (Proj0.dat V c).arrAt 3 cfg0.N = headMajor (V c main_arg0) (V c main_v2) (V c main_v3) :=
  (Proj0.dat V c).arrAt_eq_of_cover 3 _ (fun t _ => flushed_eq V c t) cover

end Cert.KernelIdeal.ProjValue0

end
-- ==== Proof.ProjValue1.lean ====
/-
  What projection region 1 leaves in its result array, as ONE function of the arrays it reads, at the exact
  (extended-real) reading of the floats.

  The result array is head-major: row `b·16 + h` holds head `h` of batch `b`. Its entry at (b·16 + h, s, d) is
  `Σ_j x[b, s, j] · w[h, j, d] + bias[h, 0, d]`. A grid point (h, b, i) writes the 512×64 tile of rows `i·512 … i·512+511`
  of row `b·16 + h`; the 128 points' tiles tile the array, so the array ends holding that function everywhere.
-/
import proofs.«104749_j59691455480063_2_alg».proof.Proof.Proj1
import proofs.«104749_j59691455480063_2_alg».proof.Proof.ProjectionTile
import Idealize.ShloMosaic.Lib.Pipeline.Value
import Idealize.ShloMosaic.Lib.ValueIdx

set_option maxRecDepth 16384

noncomputable section

namespace Cert.KernelIdeal.ProjValue1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- One entry of a head-major projection: row `a = b·16 + h`, position `s`, coordinate `d`. -/
def entry (x : S2x2048x1024.Idx → EReal) (w : S16x1024x64.Idx → EReal) (bias : S16x1x64.Idx → EReal)
    (a : Fin 32) (s : Fin 2048) (d : Fin 64) : EReal :=
  (∑ j : Fin 1024, x (ix3 (⟨a.val / 16, by have := a.isLt; omega⟩ : Fin 2) s j) * w (ix3 (⟨a.val % 16, by omega⟩ : Fin 16) j d))
    + bias (ix3 (⟨a.val % 16, by omega⟩ : Fin 16) (0 : Fin 1) d)

/-- The whole head-major array. -/
def headMajor (x : S2x2048x1024.Idx → EReal) (w : S16x1024x64.Idx → EReal) (bias : S16x1x64.Idx → EReal) :
    S32x2048x64.Idx → EReal := fun i => entry x w bias (i 0) (i 1) (i 2)

theorem hz3 : (![0, 0, 0] : Fin 3 → Nat) = fun _ => 0 := funext fun a => by fin_cases a <;> rfl

/-- How the four windows' block indices are related at every grid point (decided over the 128 points): the output's row
    is `16 ·` the activations' batch `+` the weights' head, its tile index the activations' tile index, every other block
    index is zero, and the bias moves with the weights. -/
theorem idx_facts : ∀ t : Fin cfg1.N,
    win1_3.index t (0 : Fin 3) = win1_0.index t (0 : Fin 3) * 16 + win1_1.index t (0 : Fin 3)
    ∧ win1_1.index t (0 : Fin 3) < 16 ∧ win1_0.index t (0 : Fin 3) < 2
    ∧ win1_3.index t (1 : Fin 3) = win1_0.index t (1 : Fin 3) ∧ win1_0.index t (1 : Fin 3) < 4
    ∧ win1_3.index t (2 : Fin 3) = 0 ∧ win1_0.index t (2 : Fin 3) = 0
    ∧ win1_1.index t (1 : Fin 3) = 0 ∧ win1_1.index t (2 : Fin 3) = 0
    ∧ win1_2.index t (0 : Fin 3) = win1_1.index t (0 : Fin 3) ∧ win1_2.index t (1 : Fin 3) = 0
    ∧ win1_2.index t (2 : Fin 3) = 0 :=
  (by decide +kernel : ∀ t : Fin grid1.N, _)

/-- Every (row, tile) pair is some point's output block. -/
theorem idx_onto : ∀ (q0 : Fin 32) (q1 : Fin 4), ∃ t : Fin cfg1.N, win1_3.index t = ![q0.val, q1.val, 0] :=
  (by decide +kernel : ∀ (q0 : Fin 32) (q1 : Fin 4), ∃ t : Fin grid1.N, win1_3.index t = ![q0.val, q1.val, 0])

/-- At a point `t`, the tile entry computed from the three input blocks is the head-major entry at the place the output
    block puts it: the blocks' places in their arrays line up as `idx_facts` says. -/
theorem tile_eq (x : S2x2048x1024.Idx → EReal) (w : S16x1024x64.Idx → EReal) (bias : S16x1x64.Idx → EReal)
    (t : Fin cfg1.N) (r : Fin 512) (d : Fin 64) :
    (∑ jj : Fin 1024, x (((cfg1.win 0).blk t).view.emb (ix3 (0 : Fin 1) r jj))
        * w (((cfg1.win 1).blk t).view.emb (ix3 (0 : Fin 1) jj d)))
      + bias (((cfg1.win 2).blk t).view.emb (ix3 (0 : Fin 1) (0 : Fin 1) d))
    = headMajor x w bias (((cfg1.win 3).blk t).view.emb (ix3 (0 : Fin 1) r d)) := by
  obtain ⟨e0, e1, e2, e3, e4, e5, e6, e7, e8, e9, e10, e11⟩ := idx_facts t
  unfold headMajor entry
  refine congrArg₂ (· + ·) (Finset.sum_congr rfl fun jj _ => congrArg₂ (· * ·) (congrArg x ?_) (congrArg w ?_)) (congrArg bias ?_)
  · funext a; apply Fin.ext
    match a with
    | ⟨0, _⟩ => show win1_0.index t (0 : Fin 3) * 1 + 1 * 0 = (win1_3.index t (0 : Fin 3) * 1 + 1 * 0) / 16; omega
    | ⟨1, _⟩ => show win1_0.index t (1 : Fin 3) * 512 + 1 * r.val = win1_3.index t (1 : Fin 3) * 512 + 1 * r.val; omega
    | ⟨2, _⟩ => show win1_0.index t (2 : Fin 3) * 1024 + 1 * jj.val = jj.val; omega
  · funext a; apply Fin.ext
    match a with
    | ⟨0, _⟩ => show win1_1.index t (0 : Fin 3) * 1 + 1 * 0 = (win1_3.index t (0 : Fin 3) * 1 + 1 * 0) % 16; omega
    | ⟨1, _⟩ => show win1_1.index t (1 : Fin 3) * 1024 + 1 * jj.val = jj.val; omega
    | ⟨2, _⟩ => show win1_1.index t (2 : Fin 3) * 64 + 1 * d.val = win1_3.index t (2 : Fin 3) * 64 + 1 * d.val; omega
  · funext a; apply Fin.ext
    match a with
    | ⟨0, _⟩ => show win1_2.index t (0 : Fin 3) * 1 + 1 * 0 = (win1_3.index t (0 : Fin 3) * 1 + 1 * 0) % 16; omega
    | ⟨1, _⟩ => show win1_2.index t (1 : Fin 3) * 1 + 1 * 0 = 0; omega
    | ⟨2, _⟩ => show win1_2.index t (2 : Fin 3) * 64 + 1 * d.val = win1_3.index t (2 : Fin 3) * 64 + 1 * d.val; omega

/-- What point `t` writes back is block `t` of the head-major projection of the arrays the region reads. -/
theorem flushed_eq (c : Dev nD) (t : Fin cfg1.N) :
    (Proj1.dat V c).flushed 3 t
      = ((cfg1.win 3).blk t).view.read (Elt Ideal) (headMajor (V c main_arg1) (V c main_v6) (V c main_v7)) := by
  show (cfg1.win 3).cut (grid1.coords t) ((Proj1.dat V c).after 3 t) = _
  rw [Proj1.after_3]
  unfold Proj1.outTile
  rw [View.canon_unit_zero hz3]
  simp only [View.ld_unit_zero (S := S1x512x1024) hz3, View.ld_unit_zero (S := S1x1024x64) hz3, View.ld_unit_zero (S := S1x1x64) hz3]
  funext j
  obtain ⟨p, r, d, rfl⟩ : ∃ (p : Fin 1) (r : Fin 512) (d : Fin 64), j = ix3 p r d := ⟨j 0, j 1, j 2, eq_ix3 j⟩
  obtain rfl : p = 0 := Subsingleton.elim _ _
  refine (Cert.Mha.ProjectionTile.k1_pay1_apply _ _ _ r d).trans ?_
  exact tile_eq (V c main_arg1) (V c main_v6) (V c main_v7) t r d

/-- An index of the result array is in point `t`'s block iff each coordinate is in the block's range on its axis. -/
theorem mem_blk (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v13).slice (win1_3.rect t)).set ↔ _
  rw [View.set_slice_whole, Rect.mem_set_unit]
  exact Iff.rfl

/-- Every index of the result array is in some point's block: the point whose row is the index's and whose tile holds its
    position. -/
theorem cover (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The result array after the region: the head-major projection of the arrays the region reads. -/
theorem final (c : Dev nD) :
    (Proj1.dat V c).arrAt 3 cfg1.N = headMajor (V c main_arg1) (V c main_v6) (V c main_v7) :=
  (Proj1.dat V c).arrAt_eq_of_cover 3 _ (fun t _ => flushed_eq V c t) cover

end Cert.KernelIdeal.ProjValue1

end
-- ==== Proof.ProjValue2.lean ====
/-
  What projection region 2 leaves in its result array, as ONE function of the arrays it reads, at the exact
  (extended-real) reading of the floats.

  The result array is head-major: row `b·16 + h` holds head `h` of batch `b`. Its entry at (b·16 + h, s, d) is
  `Σ_j x[b, s, j] · w[h, j, d] + bias[h, 0, d]`. A grid point (h, b, i) writes the 512×64 tile of rows `i·512 … i·512+511`
  of row `b·16 + h`; the 128 points' tiles tile the array, so the array ends holding that function everywhere.
-/
import proofs.«104749_j59691455480063_2_alg».proof.Proof.Proj2
import proofs.«104749_j59691455480063_2_alg».proof.Proof.ProjectionTile
import Idealize.ShloMosaic.Lib.Pipeline.Value
import Idealize.ShloMosaic.Lib.ValueIdx

set_option maxRecDepth 16384

noncomputable section

namespace Cert.KernelIdeal.ProjValue2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- One entry of a head-major projection: row `a = b·16 + h`, position `s`, coordinate `d`. -/
def entry (x : S2x2048x1024.Idx → EReal) (w : S16x1024x64.Idx → EReal) (bias : S16x1x64.Idx → EReal)
    (a : Fin 32) (s : Fin 2048) (d : Fin 64) : EReal :=
  (∑ j : Fin 1024, x (ix3 (⟨a.val / 16, by have := a.isLt; omega⟩ : Fin 2) s j) * w (ix3 (⟨a.val % 16, by omega⟩ : Fin 16) j d))
    + bias (ix3 (⟨a.val % 16, by omega⟩ : Fin 16) (0 : Fin 1) d)

/-- The whole head-major array. -/
def headMajor (x : S2x2048x1024.Idx → EReal) (w : S16x1024x64.Idx → EReal) (bias : S16x1x64.Idx → EReal) :
    S32x2048x64.Idx → EReal := fun i => entry x w bias (i 0) (i 1) (i 2)

theorem hz3 : (![0, 0, 0] : Fin 3 → Nat) = fun _ => 0 := funext fun a => by fin_cases a <;> rfl

/-- How the four windows' block indices are related at every grid point (decided over the 128 points): the output's row
    is `16 ·` the activations' batch `+` the weights' head, its tile index the activations' tile index, every other block
    index is zero, and the bias moves with the weights. -/
theorem idx_facts : ∀ t : Fin cfg2.N,
    win2_3.index t (0 : Fin 3) = win2_0.index t (0 : Fin 3) * 16 + win2_1.index t (0 : Fin 3)
    ∧ win2_1.index t (0 : Fin 3) < 16 ∧ win2_0.index t (0 : Fin 3) < 2
    ∧ win2_3.index t (1 : Fin 3) = win2_0.index t (1 : Fin 3) ∧ win2_0.index t (1 : Fin 3) < 4
    ∧ win2_3.index t (2 : Fin 3) = 0 ∧ win2_0.index t (2 : Fin 3) = 0
    ∧ win2_1.index t (1 : Fin 3) = 0 ∧ win2_1.index t (2 : Fin 3) = 0
    ∧ win2_2.index t (0 : Fin 3) = win2_1.index t (0 : Fin 3) ∧ win2_2.index t (1 : Fin 3) = 0
    ∧ win2_2.index t (2 : Fin 3) = 0 :=
  (by decide +kernel : ∀ t : Fin grid2.N, _)

/-- Every (row, tile) pair is some point's output block. -/
theorem idx_onto : ∀ (q0 : Fin 32) (q1 : Fin 4), ∃ t : Fin cfg2.N, win2_3.index t = ![q0.val, q1.val, 0] :=
  (by decide +kernel : ∀ (q0 : Fin 32) (q1 : Fin 4), ∃ t : Fin grid2.N, win2_3.index t = ![q0.val, q1.val, 0])

/-- At a point `t`, the tile entry computed from the three input blocks is the head-major entry at the place the output
    block puts it: the blocks' places in their arrays line up as `idx_facts` says. -/
theorem tile_eq (x : S2x2048x1024.Idx → EReal) (w : S16x1024x64.Idx → EReal) (bias : S16x1x64.Idx → EReal)
    (t : Fin cfg2.N) (r : Fin 512) (d : Fin 64) :
    (∑ jj : Fin 1024, x (((cfg2.win 0).blk t).view.emb (ix3 (0 : Fin 1) r jj))
        * w (((cfg2.win 1).blk t).view.emb (ix3 (0 : Fin 1) jj d)))
      + bias (((cfg2.win 2).blk t).view.emb (ix3 (0 : Fin 1) (0 : Fin 1) d))
    = headMajor x w bias (((cfg2.win 3).blk t).view.emb (ix3 (0 : Fin 1) r d)) := by
  obtain ⟨e0, e1, e2, e3, e4, e5, e6, e7, e8, e9, e10, e11⟩ := idx_facts t
  unfold headMajor entry
  refine congrArg₂ (· + ·) (Finset.sum_congr rfl fun jj _ => congrArg₂ (· * ·) (congrArg x ?_) (congrArg w ?_)) (congrArg bias ?_)
  · funext a; apply Fin.ext
    match a with
    | ⟨0, _⟩ => show win2_0.index t (0 : Fin 3) * 1 + 1 * 0 = (win2_3.index t (0 : Fin 3) * 1 + 1 * 0) / 16; omega
    | ⟨1, _⟩ => show win2_0.index t (1 : Fin 3) * 512 + 1 * r.val = win2_3.index t (1 : Fin 3) * 512 + 1 * r.val; omega
    | ⟨2, _⟩ => show win2_0.index t (2 : Fin 3) * 1024 + 1 * jj.val = jj.val; omega
  · funext a; apply Fin.ext
    match a with
    | ⟨0, _⟩ => show win2_1.index t (0 : Fin 3) * 1 + 1 * 0 = (win2_3.index t (0 : Fin 3) * 1 + 1 * 0) % 16; omega
    | ⟨1, _⟩ => show win2_1.index t (1 : Fin 3) * 1024 + 1 * jj.val = jj.val; omega
    | ⟨2, _⟩ => show win2_1.index t (2 : Fin 3) * 64 + 1 * d.val = win2_3.index t (2 : Fin 3) * 64 + 1 * d.val; omega
  · funext a; apply Fin.ext
    match a with
    | ⟨0, _⟩ => show win2_2.index t (0 : Fin 3) * 1 + 1 * 0 = (win2_3.index t (0 : Fin 3) * 1 + 1 * 0) % 16; omega
    | ⟨1, _⟩ => show win2_2.index t (1 : Fin 3) * 1 + 1 * 0 = 0; omega
    | ⟨2, _⟩ => show win2_2.index t (2 : Fin 3) * 64 + 1 * d.val = win2_3.index t (2 : Fin 3) * 64 + 1 * d.val; omega

/-- What point `t` writes back is block `t` of the head-major projection of the arrays the region reads. -/
theorem flushed_eq (c : Dev nD) (t : Fin cfg2.N) :
    (Proj2.dat V c).flushed 3 t
      = ((cfg2.win 3).blk t).view.read (Elt Ideal) (headMajor (V c main_arg2) (V c main_v10) (V c main_v11)) := by
  show (cfg2.win 3).cut (grid2.coords t) ((Proj2.dat V c).after 3 t) = _
  rw [Proj2.after_3]
  unfold Proj2.outTile
  rw [View.canon_unit_zero hz3]
  simp only [View.ld_unit_zero (S := S1x512x1024) hz3, View.ld_unit_zero (S := S1x1024x64) hz3, View.ld_unit_zero (S := S1x1x64) hz3]
  funext j
  obtain ⟨p, r, d, rfl⟩ : ∃ (p : Fin 1) (r : Fin 512) (d : Fin 64), j = ix3 p r d := ⟨j 0, j 1, j 2, eq_ix3 j⟩
  obtain rfl : p = 0 := Subsingleton.elim _ _
  refine (Cert.Mha.ProjectionTile.k2_pay1_apply _ _ _ r d).trans ?_
  exact tile_eq (V c main_arg2) (V c main_v10) (V c main_v11) t r d

/-- An index of the result array is in point `t`'s block iff each coordinate is in the block's range on its axis. -/
theorem mem_blk (t : Fin cfg2.N) (i : S32x2048x64.Idx) :
    i ∈ ((cfg2.win 3).blk t).view.set ↔ ∀ a : Fin 3, win2_3.index t a * S1x512x64.size a ≤ (i a).val ∧ (i a).val < win2_3.index t a * S1x512x64.size a + S1x512x64.size a := by
  show i ∈ ((View.whole main_v14).slice (win2_3.rect t)).set ↔ _
  rw [View.set_slice_whole, Rect.mem_set_unit]
  exact Iff.rfl

/-- Every index of the result array is in some point's block: the point whose row is the index's and whose tile holds its
    position. -/
theorem cover (i : S32x2048x64.Idx) :
    ∃ t : Fin cfg2.N, (cfg2.win 3).flush t = true ∧ i ∈ ((cfg2.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 64 ≤ (i 2).val ∧ (i 2).val < win2_3.index t (2 : Fin 3) * 64 + 64; omega

/-- The result array after the region: the head-major projection of the arrays the region reads. -/
theorem final (c : Dev nD) :
    (Proj2.dat V c).arrAt 3 cfg2.N = headMajor (V c main_arg2) (V c main_v10) (V c main_v11) :=
  (Proj2.dat V c).arrAt_eq_of_cover 3 _ (fun t _ => flushed_eq V c t) cover

end Cert.KernelIdeal.ProjValue2

end
-- ==== Proof.AttnSpec.lean ====
/-
  What the attention region computes from the arrays it reads, as one function: for batch `b`, position `s`, output
  coordinate `n`,

    Σ_{h < 16} Σ_{d < 64} attend(q_h, K_h, V_h)(d) · wo[h, d, n]  +  bo[0, n],

  where `q_h`, `K_h`, `V_h` are row `b·16 + h` of the three head-major arrays (the query at position `s`, the keys and
  values at all 2048 positions) and `attend` is softmax attention without scaling.
-/
import proofs.«104749_j59691455480063_2_alg».proof.Proof.Attention
import Idealize.ShloMosaic.Lib.ValueIdx

noncomputable section

namespace Cert.Mha

open Idealize.ShloMosaic Idealize.ShloMosaic.ValueIdx
open scoped BigOperators

/-- A head-major array (32 rows = 2 batches × 16 heads). -/
abbrev HeadMajor := (⟨3, ![32, 2048, 64]⟩ : Shape).Idx → EReal
/-- The output weights by head, and the output bias as a row. -/
abbrev OutWeights := (⟨3, ![16, 64, 1024]⟩ : Shape).Idx → EReal
abbrev BiasRow := (⟨2, ![1, 1024]⟩ : Shape).Idx → EReal

/-- Row `b·16 + h` of a head-major array. -/
def headRow (b : Fin 2) (h : Fin 16) : Fin 32 := ⟨b.val * 16 + h.val, by have := b.isLt; have := h.isLt; omega⟩

/-- One entry of the attention region's result. -/
def attnEntry (Q K Vv : HeadMajor) (wo : OutWeights) (bo : BiasRow) (b : Fin 2) (s : Fin 2048) (n : Fin 1024) : EReal :=
  (∑ h : Fin 16, ∑ d : Fin 64,
      attend (fun d' => Q (ix3 (headRow b h) s d')) (fun t d' => K (ix3 (headRow b h) t d')) (fun t d' => Vv (ix3 (headRow b h) t d')) d
        * wo (ix3 h d n))
    + bo (ix2 (0 : Fin 1) n)

/-- The attention region's whole result array. -/
def attnOut (Q K Vv : HeadMajor) (wo : OutWeights) (bo : BiasRow) : Act := fun i => attnEntry Q K Vv wo bo (i 0) (i 1) (i 2)

theorem attnOut_apply (Q K Vv : HeadMajor) (wo : OutWeights) (bo : BiasRow) (b : Fin 2) (s : Fin 2048) (n : Fin 1024) :
    attnOut Q K Vv wo bo (ix3 b s n) = attnEntry Q K Vv wo bo b s n := rfl

end Cert.Mha

end
-- ==== Proof.KernelValue.lean ====
/-
  The kernel's value as a function of its arguments: the attention function of the three head-major projections and the
  re-laid output weights is multi-head attention of the eleven argument arrays.

  Row `b·16 + h` of a head-major projection of re-laid weights holds head `h` of the plain projection of batch `b`:
  `Σ_j x[b,s,j] · W[h·64+d, j] + bias[h·64+d]`. With that, each head's term of the attention function is the
  specification's term for the head, and the output bias is the bias: the two sums agree term by term.
-/
import proofs.«104749_j59691455480063_2_alg».proof.Proof.HostLayout
import proofs.«104749_j59691455480063_2_alg».proof.Proof.ProjValue0
import proofs.«104749_j59691455480063_2_alg».proof.Proof.ProjValue1
import proofs.«104749_j59691455480063_2_alg».proof.Proof.ProjValue2
import proofs.«104749_j59691455480063_2_alg».proof.Proof.AttnSpec

set_option maxRecDepth 16384

noncomputable section

namespace Cert.KernelIdeal.KernelValue

open Idealize.ShloMosaic Idealize.ShloMosaic.ValueIdx
open Cert.KernelIdeal Cert.KernelIdeal.HostLayout Cert.Mha
open scoped BigOperators

theorem headMajor0_proj (x : Act) (W : Weight) (bb : Bias) (b : Fin 2) (h : Fin 16) (s : Fin 2048) (d : Fin 64) :
    ProjValue0.headMajor x (weightsByHead W) (biasByHead bb) (ix3 (headRow b h) s d) = proj x W bb b s (headPos h d) := by
  show ProjValue0.entry x (weightsByHead W) (biasByHead bb) (headRow b h) s d = _
  unfold ProjValue0.entry proj
  have hb : ∀ p, (⟨(headRow b h).val / 16, p⟩ : Fin 2) = b := fun p => Fin.ext (by
    show (b.val * 16 + h.val) / 16 = b.val
    have := h.isLt; omega)
  have hh : ∀ p, (⟨(headRow b h).val % 16, p⟩ : Fin 16) = h := fun p => Fin.ext (by
    show (b.val * 16 + h.val) % 16 = h.val
    have := h.isLt; omega)
  simp only [hb, hh, weightsByHead_apply, biasByHead_apply]

theorem headMajor1_proj (x : Act) (W : Weight) (bb : Bias) (b : Fin 2) (h : Fin 16) (s : Fin 2048) (d : Fin 64) :
    ProjValue1.headMajor x (weightsByHead W) (biasByHead bb) (ix3 (headRow b h) s d) = proj x W bb b s (headPos h d) := by
  show ProjValue1.entry x (weightsByHead W) (biasByHead bb) (headRow b h) s d = _
  unfold ProjValue1.entry proj
  have hb : ∀ p, (⟨(headRow b h).val / 16, p⟩ : Fin 2) = b := fun p => Fin.ext (by
    show (b.val * 16 + h.val) / 16 = b.val
    have := h.isLt; omega)
  have hh : ∀ p, (⟨(headRow b h).val % 16, p⟩ : Fin 16) = h := fun p => Fin.ext (by
    show (b.val * 16 + h.val) % 16 = h.val
    have := h.isLt; omega)
  simp only [hb, hh, weightsByHead_apply, biasByHead_apply]

theorem headMajor2_proj (x : Act) (W : Weight) (bb : Bias) (b : Fin 2) (h : Fin 16) (s : Fin 2048) (d : Fin 64) :
    ProjValue2.headMajor x (weightsByHead W) (biasByHead bb) (ix3 (headRow b h) s d) = proj x W bb b s (headPos h d) := by
  show ProjValue2.entry x (weightsByHead W) (biasByHead bb) (headRow b h) s d = _
  unfold ProjValue2.entry proj
  have hb : ∀ p, (⟨(headRow b h).val / 16, p⟩ : Fin 2) = b := fun p => Fin.ext (by
    show (b.val * 16 + h.val) / 16 = b.val
    have := h.isLt; omega)
  have hh : ∀ p, (⟨(headRow b h).val % 16, p⟩ : Fin 16) = h := fun p => Fin.ext (by
    show (b.val * 16 + h.val) % 16 = h.val
    have := h.isLt; omega)
  simp only [hb, hh, weightsByHead_apply, biasByHead_apply]

/-- The attention function of the projections is the specification. -/
theorem attnOut_eq_mha (x0 x1 x2 : Act) (x3 : Weight) (x4 : Bias) (x5 : Weight) (x6 : Bias) (x7 : Weight) (x8 : Bias)
    (x9 : Weight) (x10 : Bias) :
    attnOut (ProjValue0.headMajor x0 (weightsByHead x3) (biasByHead x4)) (ProjValue1.headMajor x1 (weightsByHead x5) (biasByHead x6))
        (ProjValue2.headMajor x2 (weightsByHead x7) (biasByHead x8)) (outWeightsByHead x9) (biasRow x10)
      = mha x0 x1 x2 x3 x4 x5 x6 x7 x8 x9 x10 := by
  funext i
  obtain ⟨b, s, n, rfl⟩ : ∃ (b : Fin 2) (s : Fin 2048) (n : Fin 1024), i = ix3 b s n := ⟨i 0, i 1, i 2, eq_ix3 i⟩
  rw [attnOut_apply, mha_apply]
  unfold attnEntry outByHeads headTerm headOut
  simp only [headMajor0_proj, headMajor1_proj, headMajor2_proj, outWeightsByHead_apply, biasRow_apply]

end Cert.KernelIdeal.KernelValue

end
-- ==== Proof.KernelRun.lean ====
/-
  The program's result array, at the end of the run, as a function of the launch memory: multi-head attention of the eleven
  argument arrays.

  The last boundary's contents at the result array are what the attention region leaves there: the attention function of
  the arrays the region reads. Those are the three projection regions' results — head-major projections of the activations
  with the re-laid weights — and the re-laid output weights, each read back through the boundaries to the launch memory.
-/
import proofs.«104749_j59691455480063_2_alg».proof.Proof.KernelValue

set_option maxRecDepth 16384

noncomputable section

namespace Cert.KernelIdeal.KernelRun

open Idealize.ShloMosaic Idealize.ShloMosaic.TcCoe Idealize.ShloMosaic.ValueIdx Idealize.SL Idealize.SL.Sem
open Idealize.ShloMosaic.Pipeline (Dat)
open Cert.KernelIdeal Cert.KernelIdeal.Gen Cert.KernelIdeal.Whole Cert.KernelIdeal.HostLayout Cert.KernelIdeal.KernelValue Cert.Mha

variable (m : (ℓ : Loc nD τ sig) → Buf (Elt Ideal) ℓ)

/-- The result array at the last boundary is multi-head attention of the arguments, given what the attention region
    leaves in it as a function of the arrays it reads. -/
theorem result
    (hfinal : ∀ (V : (c : Dev nD) → (b : Ref sig .tc) → Buf (Elt Ideal) ((c : Thread nD τ).loc b)) (c : Dev nD),
      (Attn.dat3 V c).arrAt 5 cfg3.N = attnOut (V c main_v12) (V c main_v13) (V c main_v14) (V c main_v17) (V c main_v18))
    (c : Dev nD) :
    U6 m (attnHalf m).dat c main_v19
      = mha (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e6 : U6 m (attnHalf m).dat c main_v19 = (Attn.dat3 (T5 m) c).arrAt 5 cfg3.N := by
    unfold U6; exact Function.update_self _ _ _
  have q2 : o2 m c = ProjValue0.headMajor (m ((c : Thread nD τ).loc main_arg0)) (weightsByHead (m ((c : Thread nD τ).loc main_arg3))) (biasByHead (m ((c : Thread nD τ).loc main_arg4))) := by
    unfold o2; rw [ProjValue0.final (T1 m) c, U1_arg0, U1_v2, U1_v3]
  have q3 : o3 m c = ProjValue1.headMajor (m ((c : Thread nD τ).loc main_arg1)) (weightsByHead (m ((c : Thread nD τ).loc main_arg5))) (biasByHead (m ((c : Thread nD τ).loc main_arg6))) := by
    unfold o3; rw [ProjValue1.final (T2 m) c, U2_arg1, U2_v6, U2_v7]
  have q4 : o4 m c = ProjValue2.headMajor (m ((c : Thread nD τ).loc main_arg2)) (weightsByHead (m ((c : Thread nD τ).loc main_arg7))) (biasByHead (m ((c : Thread nD τ).loc main_arg8))) := by
    unfold o4; rw [ProjValue2.final (T3 m) c, U3_arg2, U3_v10, U3_v11]
  rw [e6, hfinal (T5 m) c, U5_v12, U5_v13, U5_v14, U5_v17, U5_v18, q2, q3, q4]
  exact attnOut_eq_mha _ _ _ _ _ _ _ _ _ _ _

end Cert.KernelIdeal.KernelRun

end
-- ==== Proof.BiasTile.lean ====
/-
  The accumulator's two bookends, read at an entry, at the ideal values.

  Before the first head the 512 × 1024 accumulator tile is set to the zero tile; after the last head the stored output
  tile is the accumulator plus the output bias, the 1 × 1024 bias row repeated down the 512 rows.
-/
import proofs.«104749_j59691455480063_2_alg».proof.Proof.Gen.KernelIdeal.Skeleton
import Idealize.ShloMosaic.PureOps.Ideal.Laws
import Idealize.ShloMosaic.Lib.ValueLayout

noncomputable section

open scoped BigOperators
open Idealize.ShloMosaic Idealize.ShloMosaic.ValueIdx

namespace Cert.Mha.BiasTile

open Cert.KernelIdeal Cert.KernelIdeal.Gen

/-- The tile the accumulator starts from holds the extended real 0 at every entry. -/
theorem k3_pay2_apply (r : Fin 512) (n : Fin 1024) :
    k3_pay2 (F := Ideal) (ix2 r n) = 0 := by
  unfold k3_pay2
  rw [shapeCast_self]
  exact Ideal.ofBits_zero_f32

/-- The stored output tile at (r, n): the accumulator's entry plus the bias of column n. -/
theorem k3_pay1_apply (acc : Vec Ideal S512x1024 .f32) (bo : Vec Ideal S1x1024 .f32) (r : Fin 512) (n : Fin 1024) :
    k3_pay1 (F := Ideal) acc bo (ix3 (0 : Fin 1) r n) = acc (ix2 r n) + bo (ix2 (0 : Fin 1) n) := by
  unfold k3_pay1
  refine (shapeCast_ab_1ab_apply _ _ (0 : Fin 1) r n).trans ?_
  refine congrArg (fun a : EReal => acc (ix2 r n) + a) ?_
  refine (broadcastTo_1b_ab_apply _ _ r n).trans ?_
  rw [shapeCast_self]

end Cert.Mha.BiasTile

end
-- ==== Proof.LibTileNT.lean ====
/-
  A two-dimensional tile times the transpose of another, read at an index, at the ideal values.

  The product of an m×k tile by the transpose of an n×k tile — both operands contracted along their columns, no batch
  axes — accumulated into the zero tile is, entry by entry, the sum over the contracted coordinate of the products of
  the entries: the entry (a, b) is the sum over c of A (a, c) * B (b, c). The statement is for the dimension numbers as a
  record over any extents; a program's own record is one of these at its literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by the transpose of an n×k tile (both operands contracted on their columns, no batch
    axes) into the zero tile, read at (a, b): the sum over the contracted coordinate c of A (a, c) * B (b, c). -/
theorem matmul_nt_zero_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.TileOps

end
-- ==== Proof.LibColForm.lean ====
/-
  A column read at an index: a vector recast as a one-column matrix, and a one-column matrix stretched along its rows.
-/
import Idealize.ShloMosaic.Lib.ValueIdx
import Idealize.ShloMosaic.Lib.Pipeline.Value

namespace Cert.ColForm

open Idealize.ShloMosaic Idealize.ShloMosaic.ValueIdx

/-- A vector of length `n` recast as an `n × 1` matrix, read at row `j` and column `0`, is the vector at `j`: both
    positions are the `j`-th in row-major order. -/
theorem col_of_reshape {α : Type} {n : Nat} (v : (⟨1, ![n]⟩ : Shape).Idx → α)
    (h : (⟨1, ![n]⟩ : Shape).ShapeCasts ⟨2, ![n, 1]⟩) (j : Fin n) :
    shapeCast (⟨2, ![n, 1]⟩ : Shape) v h (ix2 j (0 : Fin 1)) = v (ix1 j) := by
  refine shapeCast_apply v h (ix2 j (0 : Fin 1)) (ix1 j) ?_
  rw [Shape.rowMajor_val_one, Shape.rowMajor_val_two]
  show j.val = j.val * 1 + 0
  omega

/-- An `m × 1` column stretched to `m × n` reads, at `(a, b)`, the column's entry `a`. -/
theorem broadcastCol_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    by_cases hm : m = 1
    · rw [if_pos hm]; have := a.isLt; omega
    · rw [if_neg hm]
  | ⟨1, _⟩ => rfl

end Cert.ColForm
-- ==== Proof.LibLaneSum.lean ====
/-
  A sum along the second axis of a two-dimensional tile, read at a row.

  The float add-reduction of an m×n tile over its second axis, at the ideal values, holds at row p the finite sum of
  the row's n entries; the accumulator word is the zero word, the sum's neutral element, and does not appear.
-/
import Idealize.ShloMosaic.PureOps.Ideal.Laws
import Idealize.ShloMosaic.Lib.ValueIdx

noncomputable section

open scoped BigOperators

namespace Idealize.ShloMosaic.LaneSum

open Idealize.ShloMosaic.ValueIdx

/-- The add-reduction over axis 1 of an m×n tile, read at row p: the sum over j of the entries (p, j). -/
theorem laneSum_apply {m n : Nat} (src : FVec Ideal ⟨2, ![m, n]⟩ .f32)
    (h : (⟨2, ![m, n]⟩ : Shape).Reduces [(1 : Fin 2)] ⟨1, ![m]⟩) (hφ : FKind.Formats FTy.f32)
    (hacc : (0x00000000#32 : BitVec FTy.f32.bits) = FKind.add.neutral FTy.f32 hφ) (p : Fin m) :
    multiReduction .add [(1 : Fin 2)] ⟨1, ![m]⟩ src 0x00000000#32 h hφ hacc (ix1 p) = ∑ j : Fin n, src (ix2 p j) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => simp [Shape.Reduces.liftVal]
  | ⟨1, _⟩ => simp [Shape.Reduces.liftVal]

end Idealize.ShloMosaic.LaneSum

end
-- ==== Proof.LibLaneMax.lean ====
/-
  A maximum along the second axis of a two-dimensional tile, read at a row.

  The float maximum-reduction of an m×n tile over its second axis, at the ideal values, holds at row p the maximum of
  the row's n entries folded from the value of the accumulator word.
-/
import Idealize.ShloMosaic.PureOps.Ideal.Laws
import Idealize.ShloMosaic.Lib.ValueIdx

noncomputable section

open scoped BigOperators
open Idealize.ShloMosaic Idealize.ShloMosaic.ValueIdx

namespace Idealize.ShloMosaic.LaneMax

/-- The maximum-reduction over axis 1 of an m×n tile, read at row p: the fold of max, from the accumulator word's
    value, over the entries (p, j). -/
theorem laneMax_apply {m n : Nat} (src : FVec Ideal ⟨2, ![m, n]⟩ .f32) (acc : BitVec FTy.f32.bits)
    (h : (⟨2, ![m, n]⟩ : Shape).Reduces [(1 : Fin 2)] ⟨1, ![m]⟩) (hφ : FKind.Formats FTy.f32)
    (hacc : acc = FKind.maximumf.neutral FTy.f32 hφ) (p : Fin m) :
    multiReduction .maximumf [(1 : Fin 2)] ⟨1, ![m]⟩ src acc h hφ hacc (ix1 p)
      = (Finset.univ : Finset (Fin n)).fold max (Ideal.ofBits .f32 acc) (fun j => src (ix2 p j)) := by
  refine (Ideal.multiReduction_maximumf_single src acc h hφ hacc (ix1 p)).trans ?_
  refine congrArg (fun f : Fin n → EReal => (Finset.univ : Finset (Fin n)).fold max (Ideal.ofBits .f32 acc) f) ?_
  funext k
  refine congrArg src (funext fun c => Fin.ext ?_)
  rw [h.lift_val]
  match c with
  | ⟨0, _⟩ => simp [Shape.Reduces.liftVal]
  | ⟨1, _⟩ => simp [Shape.Reduces.liftVal]

end Idealize.ShloMosaic.LaneMax

end
-- ==== Proof.AttentionTile.lean ====
/-
  One head's attention tile folded into the accumulator, read at an entry, at the ideal values.

  The body takes a 512 × 64 tile of one head's queries, the head's 2048 × 64 keys and values, the head's 64 × 1024 rows
  of the transposed output weight, and the 512 × 1024 accumulator. It forms the 512 × 2048 scores (queries against the
  transposed keys), takes each row's maximum from the word of −∞, subtracts it, exponentiates, divides by the row's sum,
  multiplies by the values and then by the output-weight rows, and adds the product to the accumulator. Read at row r and
  column n: the accumulator's entry plus, summed over the head's 64 coordinates d, query row r attended over the keys and
  values at d, times the output weight at (d, n). The row maximum and the row sum are the same functions of the same
  row of scores as in the specification; neither is evaluated.
-/
import proofs.«104749_j59691455480063_2_alg».proof.Proof.Gen.KernelIdeal.Skeleton
import proofs.«104749_j59691455480063_2_alg».proof.Proof.LibTileOps
import proofs.«104749_j59691455480063_2_alg».proof.Proof.LibTileNT
import proofs.«104749_j59691455480063_2_alg».proof.Proof.LibColForm
import proofs.«104749_j59691455480063_2_alg».proof.Proof.LibLaneSum
import proofs.«104749_j59691455480063_2_alg».proof.Proof.LibLaneMax
import proofs.«104749_j59691455480063_2_alg».proof.Proof.Attention
import Idealize.ShloMosaic.Lib.ValueLayout

noncomputable section

open scoped BigOperators
open Idealize.ShloMosaic Idealize.ShloMosaic.ValueIdx

namespace Cert.Mha.AttentionTile

open Cert.KernelIdeal Cert.KernelIdeal.Gen

/-- The scores tile at (r, t): query row r against key row t, over the head's 64 coordinates. -/
theorem scoresTile_apply (q : Vec Ideal S1x512x64 .bf16) (k : Vec Ideal S1x2048x64 .bf16) (r : Fin 512) (t : Fin 2048) :
    matmul (F := Ideal) (φ₁ := .bf16) (φ₂ := .bf16) dot_S512x64_S2048x64_S512x2048_1_1_0_0_n_n none (shapeCast S512x64 q shapeCasts_S1x512x64_S512x64)
        (shapeCast S2048x64 k shapeCasts_S1x2048x64_S2048x64) (constant S512x2048 .f32 0x00000000#32) (ix2 r t)
      = score (fun d' => q (ix3 (0 : Fin 1) r d')) (fun u d' => k (ix3 (0 : Fin 1) u d')) t := by
  refine (TileOps.matmul_nt_zero_apply dot_S512x64_S2048x64_S512x2048_1_1_0_0_n_n_wf none _ _ r t).trans ?_
  unfold score
  refine Finset.sum_congr rfl fun c _ => ?_
  refine congrArg₂ (fun a b : EReal => a * b) ?_ ?_
  · exact shapeCast_1ab_ab_apply _ _ r c
  · exact shapeCast_1ab_ab_apply _ _ t c

/-- A scores tile's row maximum, kept as a column and stretched back over the row: at (r, t) the maximum of row r. -/
theorem rowMaxTile_apply (S : FVec Ideal S512x2048 .f32) (r : Fin 512) (t : Fin 2048) :
    broadcastTo S512x2048 (shapeCast S512x1 (multiReduction (F := Ideal) .maximumf [1] S512 S 0xFF800000#32 reduces_S512x2048_S512 (.inl rfl) rfl)
        shapeCasts_S512_S512x1) broadcasts_S512x1_S512x2048 (ix2 r t)
      = rowMax (fun u => S (ix2 r u)) := by
  refine (Cert.ColForm.broadcastCol_apply _ _ r t).trans ?_
  refine (Cert.ColForm.col_of_reshape _ _ r).trans ?_
  exact LaneMax.laneMax_apply S _ _ _ _ r

/-- The softmax tile at (r, t): the softmax of row r of the scores, at t. -/
theorem softmaxTile_apply (S : FVec Ideal S512x2048 .f32) (r : Fin 512) (t : Fin 2048) :
    divf (exp (subf S (broadcastTo S512x2048 (shapeCast S512x1 (multiReduction (F := Ideal) .maximumf [1] S512 S 0xFF800000#32 reduces_S512x2048_S512 (.inl rfl) rfl)
        shapeCasts_S512_S512x1) broadcasts_S512x1_S512x2048)))
      (broadcastTo S512x2048 (shapeCast S512x1 (multiReduction (F := Ideal) .add [1] S512
          (exp (subf S (broadcastTo S512x2048 (shapeCast S512x1 (multiReduction (F := Ideal) .maximumf [1] S512 S 0xFF800000#32 reduces_S512x2048_S512 (.inl rfl) rfl)
            shapeCasts_S512_S512x1) broadcasts_S512x1_S512x2048)))
          0x00000000#32 reduces_S512x2048_S512 (.inl rfl) rfl) shapeCasts_S512_S512x1) broadcasts_S512x1_S512x2048) (ix2 r t)
      = softmax (fun u => S (ix2 r u)) t := by
  unfold softmax
  refine congrArg₂ (fun a b : EReal => Ideal.div a b) ?_ ?_
  · exact congrArg (fun m : EReal => Ideal.exp (S (ix2 r t) - m)) (rowMaxTile_apply S r t)
  · refine (Cert.ColForm.broadcastCol_apply _ _ r t).trans ?_
    refine (Cert.ColForm.col_of_reshape _ _ r).trans ?_
    refine (LaneSum.laneSum_apply _ _ _ _ r).trans ?_
    refine Finset.sum_congr rfl fun u _ => ?_
    exact congrArg (fun m : EReal => Ideal.exp (S (ix2 r u) - m)) (rowMaxTile_apply S r u)

/-- One head folded into the accumulator, at (r, n): the accumulator's entry plus the head's 64 attended outputs for
    query row r against the head's 64 rows of the output weight, column n. -/
theorem k3_pay3_apply (q : Vec Ideal S1x512x64 .bf16) (k v : Vec Ideal S1x2048x64 .bf16) (wo : Vec Ideal S1x64x1024 .bf16)
    (acc : Vec Ideal S512x1024 .f32) (r : Fin 512) (n : Fin 1024) :
    k3_pay3 (F := Ideal) q k v wo acc (ix2 r n)
      = acc (ix2 r n) + ∑ d : Fin 64, attend (fun d' => q (ix3 (0 : Fin 1) r d')) (fun t d' => k (ix3 (0 : Fin 1) t d'))
          (fun t d' => v (ix3 (0 : Fin 1) t d')) d * wo (ix3 (0 : Fin 1) d n) := by
  unfold k3_pay3
  refine (congrFun (shapeCast_self _ _) (ix2 r n)).trans ?_
  refine congrArg (fun a : EReal => acc (ix2 r n) + a) ?_
  refine (TileOps.matmul_zero_apply dot_S512x64_S64x1024_S512x1024_1_0_0_1_n_n_wf none _ _ r n).trans ?_
  refine Finset.sum_congr rfl fun d _ => ?_
  refine congrArg₂ (fun a b : EReal => a * b) ?_ ?_
  · refine (TileOps.matmul_zero_apply dot_S512x2048_S2048x64_S512x64_1_0_0_1_n_n_wf none _ _ r d).trans ?_
    unfold attend
    refine Finset.sum_congr rfl fun t _ => ?_
    refine congrArg₂ (fun a b : EReal => a * b) ?_ ?_
    · refine (softmaxTile_apply _ r t).trans ?_
      exact congrArg (fun s : Fin 2048 → EReal => softmax s t) (funext fun u => scoresTile_apply q k r u)
    · exact shapeCast_1ab_ab_apply _ _ t d
  · exact shapeCast_1ab_ab_apply _ _ d n

end Cert.Mha.AttentionTile

end
-- ==== Proof.AttnValue.lean ====
/-
  What the attention region leaves in its result array, as one function of the arrays it reads, at the exact
  (extended-real) reading of the floats.

  A grid point is (batch b, query tile i, head h), the head innermost: its position is (b · 4 + i) · 16 + h. At every
  point the body folds one head's attention tile into the accumulator, which starts from the zero tile at head 0; at
  head 15 it writes accumulator plus bias to block (b, i) of the result. Read at an entry, the accumulator after head h is
  the sum of the terms of heads 0 … h, a finite sum in an additive commutative monoid, so the block written at head 15
  holds the sixteen heads' terms plus the bias: the region's entry at batch b and position i · 512 + r. The 8 blocks
  written back tile the array, so the array ends holding that function everywhere.
-/
import proofs.«104749_j59691455480063_2_alg».proof.Proof.Attn
import proofs.«104749_j59691455480063_2_alg».proof.Proof.BiasTile
import proofs.«104749_j59691455480063_2_alg».proof.Proof.AttentionTile
import proofs.«104749_j59691455480063_2_alg».proof.Proof.AttnSpec
import Idealize.ShloMosaic.Lib.Pipeline.Value
import Idealize.ShloMosaic.Lib.ValueIdx

set_option maxRecDepth 16384

noncomputable section

namespace Cert.KernelIdeal.AttnValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

open Cert.Mha (attend accumulate HeadMajor OutWeights BiasRow headRow attnEntry attnOut)

variable (V : (c : Dev nD) → (b : Ref sig .tc) → Buf (Elt Ideal) ((c : Thread nD τ).loc b))

/-- Where the six windows' blocks sit at every grid point (decided over the 128 points). A point's position is
    (b · 4 + i) · 16 + h for batch b, query tile i, head h: queries, keys and values are read at row b · 16 + h of their
    head-major arrays (the queries at tile i), the output weight at head h, the bias row whole, and the result block is
    (b, i). -/
theorem idx_facts : ∀ t : Fin cfg3.N,
    win3_0.index t (0 : Fin 3) = (t.val / 64) * 16 + t.val % 16 ∧ win3_0.index t (1 : Fin 3) = (t.val / 16) % 4 ∧ win3_0.index t (2 : Fin 3) = 0
    ∧ win3_1.index t (0 : Fin 3) = (t.val / 64) * 16 + t.val % 16 ∧ win3_1.index t (1 : Fin 3) = 0 ∧ win3_1.index t (2 : Fin 3) = 0
    ∧ win3_2.index t (0 : Fin 3) = (t.val / 64) * 16 + t.val % 16 ∧ win3_2.index t (1 : Fin 3) = 0 ∧ win3_2.index t (2 : Fin 3) = 0
    ∧ win3_3.index t (0 : Fin 3) = t.val % 16 ∧ win3_3.index t (1 : Fin 3) = 0 ∧ win3_3.index t (2 : Fin 3) = 0
    ∧ win3_4.index t (0 : Fin 2) = 0 ∧ win3_4.index t (1 : Fin 2) = 0
    ∧ win3_5.index t (0 : Fin 3) = t.val / 64 ∧ win3_5.index t (1 : Fin 3) = (t.val / 16) % 4 ∧ win3_5.index t (2 : Fin 3) = 0 :=
  (by decide +kernel : ∀ t : Fin grid3.N, _)

/-! ## The blocks' places, by the position of the grid point

  A position is g · 16 + h with g = b · 4 + i: batch b = g / 4, query tile i = g % 4, head h. -/

/-- The batch of group g. -/
def batchN (g : ℕ) : Fin 2 := ⟨g / 4 % 2, Nat.mod_lt _ (by decide)⟩
/-- Head h as a head index. -/
def headN (h : ℕ) : Fin 16 := ⟨h % 16, Nat.mod_lt _ (by decide)⟩
/-- The head-major row of group g's batch and head h. -/
def rowN (g h : ℕ) : Fin 32 :=
  ⟨g / 4 % 2 * 16 + h % 16, by have := Nat.mod_lt (g / 4) (show 0 < 2 by decide); have := Nat.mod_lt h (show 0 < 16 by decide); omega⟩
/-- Row r of group g's query tile, as a position. -/
def posN (g : ℕ) (r : Fin 512) : Fin 2048 :=
  ⟨g % 4 * 512 + r.val, by have := r.isLt; have := Nat.mod_lt g (show 0 < 4 by decide); omega⟩

theorem emb0 (t : Fin cfg3.N) (r : Fin 512) (d : Fin 64) :
    ((cfg3.win 0).blk t).view.emb (ix3 (0 : Fin 1) r d) = ix3 (rowN (t.val / 16) (t.val % 16)) (posN (t.val / 16) r) d := by
  obtain ⟨a0, a1, a2, _⟩ := idx_facts t
  have hN : t.val < 128 := lt_of_lt_of_eq t.isLt (show cfg3.N = 128 from N_3)
  funext a; apply Fin.ext
  match a with
  | ⟨0, _⟩ => show win3_0.index t (0 : Fin 3) * 1 + 1 * 0 = t.val / 16 / 4 % 2 * 16 + t.val % 16 % 16; omega
  | ⟨1, _⟩ => show win3_0.index t (1 : Fin 3) * 512 + 1 * r.val = t.val / 16 % 4 * 512 + r.val; omega
  | ⟨2, _⟩ => show win3_0.index t (2 : Fin 3) * 64 + 1 * d.val = d.val; omega

theorem emb1 (t : Fin cfg3.N) (u : Fin 2048) (d : Fin 64) :
    ((cfg3.win 1).blk t).view.emb (ix3 (0 : Fin 1) u d) = ix3 (rowN (t.val / 16) (t.val % 16)) u d := by
  obtain ⟨_, _, _, b0, b1, b2, _⟩ := idx_facts t
  have hN : t.val < 128 := lt_of_lt_of_eq t.isLt (show cfg3.N = 128 from N_3)
  funext a; apply Fin.ext
  match a with
  | ⟨0, _⟩ => show win3_1.index t (0 : Fin 3) * 1 + 1 * 0 = t.val / 16 / 4 % 2 * 16 + t.val % 16 % 16; omega
  | ⟨1, _⟩ => show win3_1.index t (1 : Fin 3) * 2048 + 1 * u.val = u.val; omega
  | ⟨2, _⟩ => show win3_1.index t (2 : Fin 3) * 64 + 1 * d.val = d.val; omega

theorem emb2 (t : Fin cfg3.N) (u : Fin 2048) (d : Fin 64) :
    ((cfg3.win 2).blk t).view.emb (ix3 (0 : Fin 1) u d) = ix3 (rowN (t.val / 16) (t.val % 16)) u d := by
  obtain ⟨_, _, _, _, _, _, c0, c1, c2, _⟩ := idx_facts t
  have hN : t.val < 128 := lt_of_lt_of_eq t.isLt (show cfg3.N = 128 from N_3)
  funext a; apply Fin.ext
  match a with
  | ⟨0, _⟩ => show win3_2.index t (0 : Fin 3) * 1 + 1 * 0 = t.val / 16 / 4 % 2 * 16 + t.val % 16 % 16; omega
  | ⟨1, _⟩ => show win3_2.index t (1 : Fin 3) * 2048 + 1 * u.val = u.val; omega
  | ⟨2, _⟩ => show win3_2.index t (2 : Fin 3) * 64 + 1 * d.val = d.val; omega

theorem emb3 (t : Fin cfg3.N) (d : Fin 64) (n : Fin 1024) :
    ((cfg3.win 3).blk t).view.emb (ix3 (0 : Fin 1) d n) = ix3 (headN (t.val % 16)) d n := by
  obtain ⟨_, _, _, _, _, _, _, _, _, d0, d1, d2, _⟩ := idx_facts t
  funext a; apply Fin.ext
  match a with
  | ⟨0, _⟩ => show win3_3.index t (0 : Fin 3) * 1 + 1 * 0 = t.val % 16 % 16; omega
  | ⟨1, _⟩ => show win3_3.index t (1 : Fin 3) * 64 + 1 * d.val = d.val; omega
  | ⟨2, _⟩ => show win3_3.index t (2 : Fin 3) * 1024 + 1 * n.val = n.val; omega

theorem emb4 (t : Fin cfg3.N) (n : Fin 1024) :
    ((cfg3.win 4).blk t).view.emb (ix2 (0 : Fin 1) n) = ix2 (0 : Fin 1) n := by
  obtain ⟨_, _, _, _, _, _, _, _, _, _, _, _, e0, e1, _⟩ := idx_facts t
  funext a; apply Fin.ext
  match a with
  | ⟨0, _⟩ => show win3_4.index t (0 : Fin 2) * 1 + 1 * 0 = 0; omega
  | ⟨1, _⟩ => show win3_4.index t (1 : Fin 2) * 1024 + 1 * n.val = n.val; omega

theorem emb5 (t : Fin cfg3.N) (r : Fin 512) (n : Fin 1024) :
    ((cfg3.win 5).blk t).view.emb (ix3 (0 : Fin 1) r n) = ix3 (batchN (t.val / 16)) (posN (t.val / 16) r) n := by
  obtain ⟨_, _, _, _, _, _, _, _, _, _, _, _, _, _, f0, f1, f2⟩ := idx_facts t
  have hN : t.val < 128 := lt_of_lt_of_eq t.isLt (show cfg3.N = 128 from N_3)
  funext a; apply Fin.ext
  match a with
  | ⟨0, _⟩ => show win3_5.index t (0 : Fin 3) * 1 + 1 * 0 = t.val / 16 / 4 % 2; omega
  | ⟨1, _⟩ => show win3_5.index t (1 : Fin 3) * 512 + 1 * r.val = t.val / 16 % 4 * 512 + r.val; omega
  | ⟨2, _⟩ => show win3_5.index t (2 : Fin 3) * 1024 + 1 * n.val = n.val; omega

/-! ## One head's term -/

/-- The term of one head: the 64 attended outputs for the query at row ρ, position s of the head-major arrays, against
    column n of head h's rows of the output weight. -/
def rawTerm (Q K Vv : HeadMajor) (wo : OutWeights) (ρ : Fin 32) (s : Fin 2048) (h : Fin 16) (n : Fin 1024) : EReal :=
  ∑ d : Fin 64, attend (fun d' => Q (ix3 ρ s d')) (fun u d' => K (ix3 ρ u d')) (fun u d' => Vv (ix3 ρ u d')) d * wo (ix3 h d n)

/-- The term of head h of group g, at row r of the group's query tile and column n. -/
def termN (Q K Vv : HeadMajor) (wo : OutWeights) (r : Fin 512) (n : Fin 1024) (g h : ℕ) : EReal :=
  rawTerm Q K Vv wo (rowN g h) (posN g r) (headN h) n

/-- Attention of equal queries, keys and values is equal. -/
theorem attend_congr {q q' : Fin 64 → EReal} {K K' W W' : Fin 2048 → Fin 64 → EReal} (hq : q = q') (hK : K = K') (hW : W = W')
    (d : Fin 64) : attend q K W d = attend q' K' W' d := by
  subst hq; subst hK; subst hW; rfl

/-- The head's term computed from the four blocks of a point t, each block entry read off its array at the place the block
    puts it, is the term of the point's head and group. -/
theorem point_term (Q K Vv : HeadMajor) (wo : OutWeights) (t : Fin cfg3.N) (r : Fin 512) (n : Fin 1024) :
    (∑ d : Fin 64, attend (fun d' => Q (((cfg3.win 0).blk t).view.emb (ix3 (0 : Fin 1) r d')))
        (fun u d' => K (((cfg3.win 1).blk t).view.emb (ix3 (0 : Fin 1) u d')))
        (fun u d' => Vv (((cfg3.win 2).blk t).view.emb (ix3 (0 : Fin 1) u d'))) d
      * wo (((cfg3.win 3).blk t).view.emb (ix3 (0 : Fin 1) d n)))
      = termN Q K Vv wo r n (t.val / 16) (t.val % 16) := by
  unfold termN rawTerm
  refine Finset.sum_congr rfl fun d _ => ?_
  exact congrArg₂ (fun u w : EReal => u * w)
    (attend_congr (funext fun d' => congrArg Q (emb0 t r d')) (funext fun u => funext fun d' => congrArg K (emb1 t u d'))
      (funext fun u => funext fun d' => congrArg Vv (emb2 t u d')) d) (congrArg wo (emb3 t d n))

/-- At a point t, one head folded into an accumulator tile, read at (r, n): the accumulator's entry plus the term of the
    point's head and group. -/
theorem step_apply (Q K Vv : HeadMajor) (wo : OutWeights) (t : Fin cfg3.N)
    (acc : Vec Ideal S512x1024 .f32) (r : Fin 512) (n : Fin 1024) :
    k3_pay3 (F := Ideal) (((cfg3.win 0).blk t).view.read (Elt Ideal) Q) (((cfg3.win 1).blk t).view.read (Elt Ideal) K)
        (((cfg3.win 2).blk t).view.read (Elt Ideal) Vv) (((cfg3.win 3).blk t).view.read (Elt Ideal) wo) acc (ix2 r n)
      = acc (ix2 r n) + termN Q K Vv wo r n (t.val / 16) (t.val % 16) := by
  refine (Cert.Mha.AttentionTile.k3_pay3_apply _ _ _ _ acc r n).trans ?_
  refine congrArg (fun z : EReal => acc (ix2 r n) + z) ?_
  exact point_term Q K Vv wo t r n

/-- The accumulator after the body at position p, read at (r, n): the terms of the heads 0 … p % 16 of the position's
    group, added up. -/
theorem acc3_apply (c : Dev nD) (r : Fin 512) (n : Fin 1024) : ∀ (p : ℕ) (hp : p < cfg3.N),
    Attn.acc3 V c p hp (ix2 r n)
      = ∑ h ∈ Finset.range (p % 16 + 1), termN (V c main_v12) (V c main_v13) (V c main_v14) (V c main_v17) r n (p / 16) h
  | 0, hp => by
    refine (congrFun (Attn.acc3_first V c ⟨0, hp⟩ rfl) (ix2 r n)).trans ?_
    refine (step_apply (V c main_v12) (V c main_v13) (V c main_v14) (V c main_v17) ⟨0, hp⟩ _ r n).trans ?_
    rw [Cert.Mha.BiasTile.k3_pay2_apply, zero_add]
    exact (Finset.sum_range_one _).symm
  | p + 1, hp => by
    by_cases h0 : (p + 1) % 16 = 0
    · refine (congrFun (Attn.acc3_first V c ⟨p + 1, hp⟩ h0) (ix2 r n)).trans ?_
      refine (step_apply (V c main_v12) (V c main_v13) (V c main_v14) (V c main_v17) ⟨p + 1, hp⟩ _ r n).trans ?_
      rw [Cert.Mha.BiasTile.k3_pay2_apply, zero_add]
      show termN _ _ _ _ r n ((p + 1) / 16) ((p + 1) % 16) = _
      rw [h0]
      exact (Finset.sum_range_one _).symm
    · refine (congrFun (Attn.acc3_next V c ⟨p + 1, hp⟩ h0) (ix2 r n)).trans ?_
      refine (step_apply (V c main_v12) (V c main_v13) (V c main_v14) (V c main_v17) ⟨p + 1, hp⟩ _ r n).trans ?_
      have ih := acc3_apply c r n p (Nat.lt_of_succ_lt hp)
      have e1 : (p + 1) / 16 = p / 16 := by omega
      have e2 : (p + 1) % 16 = p % 16 + 1 := by omega
      show Attn.acc3 V c p _ (ix2 r n) + termN _ _ _ _ r n ((p + 1) / 16) ((p + 1) % 16) = _
      rw [ih, e1, e2, Finset.sum_range_succ _ (p % 16 + 1)]

/-! ## What a last-head point writes back, and the whole array -/

/-- The sixteen terms of a group are the sixteen summands of the region's entry at the group's batch and position. -/
theorem sum_terms (Q K Vv : HeadMajor) (wo : OutWeights) (bo : BiasRow) (r : Fin 512) (n : Fin 1024) (g : ℕ) :
    (∑ h ∈ Finset.range 16, termN Q K Vv wo r n g h) + bo (ix2 (0 : Fin 1) n)
      = attnEntry Q K Vv wo bo (batchN g) (posN g r) n := by
  unfold attnEntry
  refine congrArg (fun z : EReal => z + bo (ix2 (0 : Fin 1) n)) ?_
  rw [Finset.sum_range]
  refine Finset.sum_congr rfl fun h _ => ?_
  have hh := h.isLt
  have e1 : rowN g h.val = headRow (batchN g) h := Fin.ext (by show g / 4 % 2 * 16 + h.val % 16 = g / 4 % 2 * 16 + h.val; omega)
  have e2 : headN h.val = h := Fin.ext (by show h.val % 16 = h.val; omega)
  unfold termN rawTerm
  rw [e1, e2]

/-- What a last-head point t writes back is block t of the region's result function of the arrays the region reads. -/
theorem flushed_eq (c : Dev nD) (t : Fin cfg3.N) (h15 : t.val % 16 = 15) :
    (Attn.dat3 V c).flushed 5 t
      = ((cfg3.win 5).blk t).view.read (Elt Ideal)
          (attnOut (V c main_v12) (V c main_v13) (V c main_v14) (V c main_v17) (V c main_v18)) := by
  show (cfg3.win 5).cut (grid3.coords t) ((Attn.dat3 V c).after 5 t) = _
  rw [Attn.after3_5]
  funext j
  obtain ⟨p, r, n, rfl⟩ : ∃ (p : Fin 1) (r : Fin 512) (n : Fin 1024), j = ix3 p r n := ⟨j 0, j 1, j 2, eq_ix3 j⟩
  obtain rfl : p = 0 := Subsingleton.elim _ _
  refine (Cert.Mha.BiasTile.k3_pay1_apply _ _ r n).trans ?_
  rw [acc3_apply V c r n t.val t.isLt, h15]
  show _ = attnOut (V c main_v12) (V c main_v13) (V c main_v14) (V c main_v17) (V c main_v18)
    (((cfg3.win 5).blk t).view.emb (ix3 (0 : Fin 1) r n))
  rw [emb5, Cert.Mha.attnOut_apply]
  refine Eq.trans ?_ (sum_terms (V c main_v12) (V c main_v13) (V c main_v14) (V c main_v17) (V c main_v18) r n (t.val / 16))
  refine congrArg (fun z : EReal => (∑ h ∈ Finset.range 16, termN (V c main_v12) (V c main_v13) (V c main_v14) (V c main_v17) r n (t.val / 16) h) + z) ?_
  show V c main_v18 (((cfg3.win 4).blk t).view.emb (ix2 (0 : Fin 1) n)) = _
  rw [emb4]

/-- An index of the result array is in point t's block iff each coordinate is in the block's range on its axis. -/
theorem mem_blk (t : Fin cfg3.N) (i : S2x2048x1024.Idx) :
    i ∈ ((cfg3.win 5).blk t).view.set ↔ ∀ a : Fin 3, win3_5.index t a * S1x512x1024.size a ≤ (i a).val ∧ (i a).val < win3_5.index t a * S1x512x1024.size a + S1x512x1024.size a := by
  show i ∈ ((View.whole main_v19).slice (win3_5.rect t)).set ↔ _
  rw [View.set_slice_whole, Rect.mem_set_unit]
  exact Iff.rfl

/-- Every index of the result array is in the block of a point that writes back: the last head of the index's batch and
    query tile. -/
theorem cover (i : S2x2048x1024.Idx) :
    ∃ t : Fin cfg3.N, (cfg3.win 5).flush t = true ∧ i ∈ ((cfg3.win 5).blk t).view.set := by
  have hi0 : (i 0).val < 2 := (i 0).isLt
  have hi1 : (i 1).val < 2048 := (i 1).isLt
  have hi2 : (i 2).val < 1024 := (i 2).isLt
  have hN : cfg3.N = 128 := N_3
  let t : Fin cfg3.N := ⟨((i 0).val * 4 + (i 1).val / 512) * 16 + 15, by rw [hN]; omega⟩
  have ht : t.val = ((i 0).val * 4 + (i 1).val / 512) * 16 + 15 := rfl
  obtain ⟨_, _, _, _, _, _, _, _, _, _, _, _, _, _, f0, f1, f2⟩ := idx_facts t
  refine ⟨t, (flush3_5 t).mpr (by rw [ht]; omega), ?_⟩
  rw [mem_blk]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 512 ≤ (i 1).val ∧ (i 1).val < win3_5.index t (1 : Fin 3) * 512 + 512; omega
  | ⟨2, _⟩ => show win3_5.index t (2 : Fin 3) * 1024 ≤ (i 2).val ∧ (i 2).val < win3_5.index t (2 : Fin 3) * 1024 + 1024; omega

/-- The result array after the region: the region's result function of the arrays it reads. -/
theorem final (c : Dev nD) :
    (Attn.dat3 V c).arrAt 5 cfg3.N
      = attnOut (V c main_v12) (V c main_v13) (V c main_v14) (V c main_v17) (V c main_v18) :=
  (Attn.dat3 V c).arrAt_eq_of_cover 5 _ (fun t hf => flushed_eq V c t ((flush3_5 t).mp hf)) cover

end Cert.KernelIdeal.AttnValue

end
-- ==== Proof.RefRead.lean ====
/-
  The reference's run, read one host operation at a time: this module only brings the generated run and its
  read-at-an-index lemmas into the unit, for the modules that state what the reference computes.
-/
import proofs.«104749_j59691455480063_2_alg».proof.Proof.Gen.ReferenceIdeal.Run
import proofs.«104749_j59691455480063_2_alg».proof.Proof.Gen.ReferenceIdeal.Read
-- ==== Proof.RefProjection.lean ====
/-
  The reference's three projections in head layout, read at an entry.

  Each of queries, keys and values is computed as  x · Wᵀ + b  over the model width, recast as 16 heads of 64
  coordinates and transposed so the head axis comes second. Read at batch b, head h, position s and coordinate d the
  result is the projection at position h · 64 + d of the model width: the recast keeps row-major order, and
  ((b · 2048 + s) · 16 + h) · 64 + d  is position  h · 64 + d  of row (b, s).
-/
import proofs.«104749_j59691455480063_2_alg».proof.Proof.RefRead
import proofs.«104749_j59691455480063_2_alg».proof.Proof.Attention

noncomputable section

open scoped BigOperators
open Idealize.ShloMosaic Idealize.ShloMosaic.ValueIdx

namespace Cert.Mha.RefProjection

open Cert.ReferenceIdeal Cert.ReferenceIdeal.Gen Cert.ReferenceIdeal.Read

/-- The reshape to heads after the transpose reads position h · 64 + d of the model width. -/
theorem headIdx_queries (b : Fin 2) (h : Fin 16) (s : Fin 2048) (d : Fin 64) :
    idx_main_v4 (idx_main_v5 (ix4 b h s d)) = ix3 b s (headPos h d) := by
  have hb := b.isLt; have hh := h.isLt; have hs := s.isLt; have hd := d.isLt
  funext a
  apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The reference's queries in head layout, at (b, h, s, d): the projection at position h · 64 + d. -/
theorem queries_apply (x0 : Act) (x3 : Weight) (x4 : Bias) (b : Fin 2) (h : Fin 16) (s : Fin 2048) (d : Fin 64) :
    val_main_v5 (F := Ideal) x0 x3 x4 (ix4 b h s d) = proj x0 x3 x4 b s (headPos h d) := by
  rw [val_main_v5_apply, val_main_v4_apply, headIdx_queries, val_main_v3_apply, val_main_v0_apply, val_main_v2_apply,
    val_main_v1_apply]
  unfold proj
  refine congrArg₂ (fun u w : EReal => u + w)
    (Finset.sum_congr rfl fun j _ => congrArg₂ (fun u w : EReal => u * w) (congrArg x0 ?_) (congrArg x3 ?_)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The reshape to heads after the transpose reads position h · 64 + d of the model width. -/
theorem headIdx_keys (b : Fin 2) (h : Fin 16) (s : Fin 2048) (d : Fin 64) :
    idx_main_v10 (idx_main_v11 (ix4 b h s d)) = ix3 b s (headPos h d) := by
  have hb := b.isLt; have hh := h.isLt; have hs := s.isLt; have hd := d.isLt
  funext a
  apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The reference's keys in head layout, at (b, h, s, d): the projection at position h · 64 + d. -/
theorem keys_apply (x1 : Act) (x5 : Weight) (x6 : Bias) (b : Fin 2) (h : Fin 16) (s : Fin 2048) (d : Fin 64) :
    val_main_v11 (F := Ideal) x1 x5 x6 (ix4 b h s d) = proj x1 x5 x6 b s (headPos h d) := by
  rw [val_main_v11_apply, val_main_v10_apply, headIdx_keys, val_main_v9_apply, val_main_v6_apply, val_main_v8_apply,
    val_main_v7_apply]
  unfold proj
  refine congrArg₂ (fun u w : EReal => u + w)
    (Finset.sum_congr rfl fun j _ => congrArg₂ (fun u w : EReal => u * w) (congrArg x1 ?_) (congrArg x5 ?_)) (congrArg x6 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The reshape to heads after the transpose reads position h · 64 + d of the model width. -/
theorem headIdx_values (b : Fin 2) (h : Fin 16) (s : Fin 2048) (d : Fin 64) :
    idx_main_v16 (idx_main_v17 (ix4 b h s d)) = ix3 b s (headPos h d) := by
  have hb := b.isLt; have hh := h.isLt; have hs := s.isLt; have hd := d.isLt
  funext a
  apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The reference's values in head layout, at (b, h, s, d): the projection at position h · 64 + d. -/
theorem values_apply (x2 : Act) (x7 : Weight) (x8 : Bias) (b : Fin 2) (h : Fin 16) (s : Fin 2048) (d : Fin 64) :
    val_main_v17 (F := Ideal) x2 x7 x8 (ix4 b h s d) = proj x2 x7 x8 b s (headPos h d) := by
  rw [val_main_v17_apply, val_main_v16_apply, headIdx_values, val_main_v15_apply, val_main_v12_apply, val_main_v14_apply,
    val_main_v13_apply]
  unfold proj
  refine congrArg₂ (fun u w : EReal => u + w)
    (Finset.sum_congr rfl fun j _ => congrArg₂ (fun u w : EReal => u * w) (congrArg x2 ?_) (congrArg x7 ?_)) (congrArg x8 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

end Cert.Mha.RefProjection

end
-- ==== Proof.RefSoftmax.lean ====
/-
  The reference's scores, softmax and heads, read at an entry.

  In head layout the scores at (b, h, s, t) are the 64-term dot product of query (b, s) and key (b, t) of head h. The
  row maximum is the host's fold of max along the key axis from the word of −∞, followed by one more max against that
  word, which changes nothing: a fold of max from a value is at least that value. The exponentials of the scores minus
  the maximum are summed along the key axis from the zero word, the extended real 0, and divided through. Each head's
  output at (b, h, s, d) is the softmax row against column d of the head's values.
-/
import proofs.«104749_j59691455480063_2_alg».proof.Proof.RefProjection

noncomputable section

open scoped BigOperators
open Idealize.ShloMosaic Idealize.ShloMosaic.ValueIdx

namespace Cert.Mha.RefSoftmax

open Cert.ReferenceIdeal Cert.ReferenceIdeal.Gen Cert.ReferenceIdeal.Read

/-- One more max against the starting value of a row maximum changes nothing. -/
theorem max_rowMax {n : Nat} (s : Fin n → EReal) : max (Ideal.ofBits .f32 0xFF800000#32) (rowMax s) = rowMax s :=
  max_eq_right ((Finset.le_fold_max _).mpr (Or.inl le_rfl))

section
variable (x0 x1 : Act) (x3 : Weight) (x4 : Bias) (x5 : Weight) (x6 : Bias)

/-- The reference's scores at (b, h, s, t). -/
theorem scores_apply (b : Fin 2) (h : Fin 16) (s t : Fin 2048) :
    val_main_v18 (F := Ideal) x0 x1 x3 x4 x5 x6 (ix4 b h s t)
      = score (fun d' => proj x0 x3 x4 b s (headPos h d')) (fun u d' => proj x1 x5 x6 b u (headPos h d')) t := by
  rw [val_main_v18_apply]
  unfold score
  refine Finset.sum_congr rfl fun k _ => congrArg₂ (fun u w : EReal => u * w) ?_ ?_
  · exact (congrArg (val_main_v5 (F := Ideal) x0 x3 x4) (funext fun a => Fin.ext (by match a with | ⟨0, _⟩ => rfl | ⟨1, _⟩ => rfl | ⟨2, _⟩ => rfl | ⟨3, _⟩ => rfl))).trans
      (RefProjection.queries_apply x0 x3 x4 b h s k)
  · exact (congrArg (val_main_v11 (F := Ideal) x1 x5 x6) (funext fun a => Fin.ext (by match a with | ⟨0, _⟩ => rfl | ⟨1, _⟩ => rfl | ⟨2, _⟩ => rfl | ⟨3, _⟩ => rfl))).trans
      (RefProjection.keys_apply x1 x5 x6 b h t k)

/-- The reference's row maximum at (b, h, s): the maximum of the scores' row, folded from the word of −∞. -/
theorem rowMax_apply (b : Fin 2) (h : Fin 16) (s : Fin 2048) :
    val_main_v21 (F := Ideal) x0 x1 x3 x4 x5 x6 (ix3 b h s)
      = rowMax (fun t => val_main_v18 (F := Ideal) x0 x1 x3 x4 x5 x6 (ix4 b h s t)) := by
  rw [val_main_v21_apply, val_main_v20_apply, val_main_cst_0_apply]
  unfold val_main_v19
  generalize val_main_v18 (F := Ideal) x0 x1 x3 x4 x5 x6 = S
  have hfold := Host.reduce_eq_fold_single (FloatOps.maximumf (F := Ideal) (φ := .f32)) S (val_main_cst (F := Ideal))
    reducesTo_S2x16x2048x2048_S2x16x2048_d3 (by decide) h_S_ (ix3 b h s)
  refine Eq.trans (congrArg (fun z : EReal => max (Ideal.ofBits .f32 0xFF800000#32) z) hfold) ?_
  refine Eq.trans ?_ (max_rowMax fun t => S (ix4 b h s t))
  refine congrArg (fun z : EReal => max (Ideal.ofBits .f32 0xFF800000#32) z) ?_
  unfold rowMax
  refine congrArg (fun f : Fin 2048 → EReal => (Finset.univ : Finset (Fin 2048)).fold max (Ideal.ofBits .f32 0xFF800000#32) f) ?_
  funext k
  exact congrArg S (funext fun a => Fin.ext (by match a with | ⟨0, _⟩ => rfl | ⟨1, _⟩ => rfl | ⟨2, _⟩ => rfl | ⟨3, _⟩ => rfl))

/-- The reference's exponential at (b, h, s, u): of the score minus its row's maximum. -/
theorem exp_apply (b : Fin 2) (h : Fin 16) (s u : Fin 2048) :
    val_main_v25 (F := Ideal) x0 x1 x3 x4 x5 x6 (ix4 b h s u)
      = Ideal.exp (val_main_v18 (F := Ideal) x0 x1 x3 x4 x5 x6 (ix4 b h s u)
          - rowMax (fun t => val_main_v18 (F := Ideal) x0 x1 x3 x4 x5 x6 (ix4 b h s t))) := by
  rw [val_main_v25_apply, val_main_v24_apply, val_main_v23_apply, val_main_v22_apply,
    show idx_main_v22 (idx_main_v23 (ix4 b h s u)) = ix3 b h s from funext fun a => Fin.ext (by match a with | ⟨0, _⟩ => rfl | ⟨1, _⟩ => rfl | ⟨2, _⟩ => rfl),
    rowMax_apply]
  rfl

/-- The reference's softmax at (b, h, s, t): the softmax of the scores' row. -/
theorem softmax_apply (b : Fin 2) (h : Fin 16) (s t : Fin 2048) :
    val_main_v29 (F := Ideal) x0 x1 x3 x4 x5 x6 (ix4 b h s t)
      = softmax (fun u => val_main_v18 (F := Ideal) x0 x1 x3 x4 x5 x6 (ix4 b h s u)) t := by
  rw [val_main_v29_apply, val_main_v28_apply, val_main_v27_apply,
    show idx_main_v27 (idx_main_v28 (ix4 b h s t)) = ix3 b h s from funext fun a => Fin.ext (by match a with | ⟨0, _⟩ => rfl | ⟨1, _⟩ => rfl | ⟨2, _⟩ => rfl),
    val_main_v26_apply, exp_apply]
  unfold softmax
  refine congrArg (fun z : EReal => Ideal.div (Ideal.exp (val_main_v18 (F := Ideal) x0 x1 x3 x4 x5 x6 (ix4 b h s t)
      - rowMax (fun w => val_main_v18 (F := Ideal) x0 x1 x3 x4 x5 x6 (ix4 b h s w)))) z) ?_
  refine Eq.trans (congrArg (fun z : EReal => z + _) Ideal.ofBits_zero_f32) ?_
  refine (zero_add _).trans ?_
  refine Finset.sum_congr rfl fun u _ => ?_
  exact (congrArg (val_main_v25 (F := Ideal) x0 x1 x3 x4 x5 x6) (funext fun a => Fin.ext (by match a with | ⟨0, _⟩ => rfl | ⟨1, _⟩ => rfl | ⟨2, _⟩ => rfl | ⟨3, _⟩ => rfl))).trans (exp_apply x0 x1 x3 x4 x5 x6 b h s u)

variable (x2 : Act) (x7 : Weight) (x8 : Bias)

/-- The reference's head outputs at (b, h, s, d): query (b, s) of head h attended over the head's keys and values. -/
theorem heads_apply (b : Fin 2) (h : Fin 16) (s : Fin 2048) (d : Fin 64) :
    val_main_v30 (F := Ideal) x0 x1 x2 x3 x4 x5 x6 x7 x8 (ix4 b h s d) = headOut x0 x1 x2 x3 x4 x5 x6 x7 x8 b s h d := by
  rw [val_main_v30_apply]
  unfold headOut attend
  refine Finset.sum_congr rfl fun t _ => congrArg₂ (fun u w : EReal => u * w) ?_ ?_
  · refine (congrArg (val_main_v29 (F := Ideal) x0 x1 x3 x4 x5 x6)
      (show lidx_main_v30 (ix4 b h s d) t = ix4 b h s t from funext fun a => Fin.ext (by match a with | ⟨0, _⟩ => rfl | ⟨1, _⟩ => rfl | ⟨2, _⟩ => rfl | ⟨3, _⟩ => rfl))).trans ?_
    refine (softmax_apply x0 x1 x3 x4 x5 x6 b h s t).trans ?_
    exact congrArg (fun f : Fin 2048 → EReal => softmax f t) (funext fun u => scores_apply x0 x1 x3 x4 x5 x6 b h s u)
  · exact (congrArg (val_main_v17 (F := Ideal) x2 x7 x8) (funext fun a => Fin.ext (by match a with | ⟨0, _⟩ => rfl | ⟨1, _⟩ => rfl | ⟨2, _⟩ => rfl | ⟨3, _⟩ => rfl))).trans
      (RefProjection.values_apply x2 x7 x8 b h t d)

end

end Cert.Mha.RefSoftmax

end
-- ==== Proof.RefOutput.lean ====
/-
  The reference's result is the specification.

  The heads are transposed back and recast to the model width: position e holds coordinate e % 64 of head e / 64. The
  result contracts the 1024 positions against the output weight (stored output-major) and adds the output bias: the
  specification with the last contraction taken all at once, which equals it taken head by head.
-/
import proofs.«104749_j59691455480063_2_alg».proof.Proof.RefSoftmax

noncomputable section

open scoped BigOperators
open Idealize.ShloMosaic Idealize.ShloMosaic.ValueIdx

namespace Cert.Mha.RefOutput

open Cert.ReferenceIdeal Cert.ReferenceIdeal.Gen Cert.ReferenceIdeal.Read

section
variable (x0 x1 x2 : Act) (x3 : Weight) (x4 : Bias) (x5 : Weight) (x6 : Bias) (x7 : Weight) (x8 : Bias)

/-- The concatenated heads at (b, s, e): coordinate e % 64 of head e / 64. -/
theorem headCat_apply (b : Fin 2) (s : Fin 2048) (e : Fin 1024) :
    val_main_v32 (F := Ideal) x0 x1 x2 x3 x4 x5 x6 x7 x8 (ix3 b s e) = headCat x0 x1 x2 x3 x4 x5 x6 x7 x8 b s e := by
  have hb := b.isLt; have hs := s.isLt; have he := e.isLt
  have hidx : idx_main_v31 (idx_main_v32 (ix3 b s e))
      = ix4 b (⟨e.val / 64, by omega⟩ : Fin 16) s (⟨e.val % 64, Nat.mod_lt _ (by decide)⟩ : Fin 64) := by
    funext a
    apply Fin.ext
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega
  rw [val_main_v32_apply, val_main_v31_apply, hidx]
  exact RefSoftmax.heads_apply x0 x1 x3 x4 x5 x6 x2 x7 x8 b (⟨e.val / 64, by omega⟩ : Fin 16) s (⟨e.val % 64, Nat.mod_lt _ (by decide)⟩ : Fin 64)

variable (x9 : Weight) (x10 : Bias)

/-- The reference's result at (b, s, n): the concatenated heads against row n of the output weight, plus the bias. -/
theorem reference_apply (b : Fin 2) (s : Fin 2048) (n : Fin 1024) :
    val_main_v36 (F := Ideal) x0 x1 x2 x3 x4 x5 x6 x7 x8 x9 x10 (ix3 b s n) = outFlat x0 x1 x2 x3 x4 x5 x6 x7 x8 x9 x10 b s n := by
  rw [val_main_v36_apply, val_main_v33_apply, val_main_v35_apply, val_main_v34_apply]
  unfold outFlat
  refine congrArg₂ (fun u w : EReal => u + w)
    (Finset.sum_congr rfl fun e _ => congrArg₂ (fun u w : EReal => u * w) ?_ (congrArg x9 ?_)) (congrArg x10 ?_)
  · exact (congrArg (val_main_v32 (F := Ideal) x0 x1 x2 x3 x4 x5 x6 x7 x8) (funext fun a => Fin.ext (by match a with | ⟨0, _⟩ => rfl | ⟨1, _⟩ => rfl | ⟨2, _⟩ => rfl))).trans (headCat_apply x0 x1 x2 x3 x4 x5 x6 x7 x8 b s e)
  · exact funext fun a => Fin.ext (by match a with | ⟨0, _⟩ => rfl | ⟨1, _⟩ => rfl)
  · exact funext fun a => Fin.ext (by match a with | ⟨0, _⟩ => rfl)

/-- The reference's last stage, as a function of the eleven arguments, is the specification. -/
theorem reference_eq : val_main_v36 (F := Ideal) x0 x1 x2 x3 x4 x5 x6 x7 x8 x9 x10 = mha x0 x1 x2 x3 x4 x5 x6 x7 x8 x9 x10 := by
  funext i
  obtain ⟨b, s, n, rfl⟩ : ∃ (b : Fin 2) (s : Fin 2048) (n : Fin 1024), i = ix3 b s n := ⟨i 0, i 1, i 2, eq_ix3 i⟩
  rw [reference_apply, outFlat_eq_outByHeads]
  rfl

end

end Cert.Mha.RefOutput

end
-- ==== Proof.lean ====
/-
  Multi-head attention (2 batches, 2048 positions, width 1024, 16 heads of 64, no scaling of the scores) as four Pallas
  calls — three per-head projections `x · W_hᵀ + b_h`, then softmax attention per (batch, 512-row tile, head) with the
  output projection accumulated over the 16 heads in a scratch tile — against the plain program: projections, softmax of
  `Q Kᵀ`, `P V`, heads concatenated, output projection.

  Read on the extended reals both compute, at (b, s, n),

      Σ_e headcat[b, s, e] · Wo[n, e] + bo[n],   headcat[b, s, h·64+d] = Σ_t softmax(Q_h K_hᵀ)[s, t] · V_h[t, d].

  The kernel forms the sum over `e` head by head, `((0 + c_0) + c_1) + … + c_15` with `c_h = Σ_{d<64} head_h[·, d] · Wo[n, h·64+d]`;
  the reference contracts over all 1024 coordinates at once. Regrouping a finite sum is the only law between them, and it
  holds for extended reals without any finiteness, so the precondition is never used. The changes of float format are the
  identity on extended reals, and the reference's extra `max(−∞, m)` is `m`.

  The frames (both printings of the kernel run to the end, fault nowhere, leave the arguments as launched) come from
  running the program as six segments — two stretches of host operations re-laying the weights, four kernel regions —
  with every buffer's contents named at every boundary; the attention region carries its scratch tile from head to head
  in its invariant. The reference's frame is its generated run. Nothing was rewritten by the idealization, so `preserves`
  is trivial.
-/
import proofs.«104749_j59691455480063_2_alg».proof.Defs
import proofs.«104749_j59691455480063_2_alg».proof.Proof.Gen.Kernel
import proofs.«104749_j59691455480063_2_alg».proof.Proof.Gen.KernelIdeal
import proofs.«104749_j59691455480063_2_alg».proof.Proof.Gen.ReferenceIdeal
import proofs.«104749_j59691455480063_2_alg».proof.Proof.Gen.Pre_finite_inputs
import proofs.«104749_j59691455480063_2_alg».proof.Proof.WFrame
import proofs.«104749_j59691455480063_2_alg».proof.Proof.KernelRun
import proofs.«104749_j59691455480063_2_alg».proof.Proof.AttnValue
import proofs.«104749_j59691455480063_2_alg».proof.Proof.RefOutput
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end and leaves its arguments as launched. -/
theorem frame_kernel [Cert.Kernel.Facts] [Cert.Pre_finite_inputs.Facts] : Cert.frame_Kernel :=
  fun m ρ _ => Cert.Kernel.Whole.frame (F := Bits) m ρ

/-- So does the kernel read on the extended reals. -/
theorem frame_kernelIdeal [Cert.KernelIdeal.Facts] [Cert.Pre_finite_inputs.Facts] : Cert.frame_KernelIdeal :=
  fun m ρ _ => Cert.KernelIdeal.Whole.frame (F := Ideal) m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the arguments, the kernel's result array and the reference's both
    end holding multi-head attention of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Mha.mha (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨?_, (h c _ (Cert.KernelIdeal.Whole.mem_uc Cert.KernelIdeal.main_arg0 (by decide))).trans (Cert.KernelIdeal.Whole.U6_arg m _ c Cert.KernelIdeal.main_arg0 (by decide) (by decide) (by decide) (by decide) (by decide) (by decide)),
      (h c _ (Cert.KernelIdeal.Whole.mem_uc Cert.KernelIdeal.main_arg1 (by decide))).trans (Cert.KernelIdeal.Whole.U6_arg m _ c Cert.KernelIdeal.main_arg1 (by decide) (by decide) (by decide) (by decide) (by decide) (by decide)),
      (h c _ (Cert.KernelIdeal.Whole.mem_uc Cert.KernelIdeal.main_arg2 (by decide))).trans (Cert.KernelIdeal.Whole.U6_arg m _ c Cert.KernelIdeal.main_arg2 (by decide) (by decide) (by decide) (by decide) (by decide) (by decide)),
      (h c _ (Cert.KernelIdeal.Whole.mem_uc Cert.KernelIdeal.main_arg3 (by decide))).trans (Cert.KernelIdeal.Whole.U6_arg m _ c Cert.KernelIdeal.main_arg3 (by decide) (by decide) (by decide) (by decide) (by decide) (by decide)),
      (h c _ (Cert.KernelIdeal.Whole.mem_uc Cert.KernelIdeal.main_arg4 (by decide))).trans (Cert.KernelIdeal.Whole.U6_arg m _ c Cert.KernelIdeal.main_arg4 (by decide) (by decide) (by decide) (by decide) (by decide) (by decide)),
      (h c _ (Cert.KernelIdeal.Whole.mem_uc Cert.KernelIdeal.main_arg5 (by decide))).trans (Cert.KernelIdeal.Whole.U6_arg m _ c Cert.KernelIdeal.main_arg5 (by decide) (by decide) (by decide) (by decide) (by decide) (by decide)),
      (h c _ (Cert.KernelIdeal.Whole.mem_uc Cert.KernelIdeal.main_arg6 (by decide))).trans (Cert.KernelIdeal.Whole.U6_arg m _ c Cert.KernelIdeal.main_arg6 (by decide) (by decide) (by decide) (by decide) (by decide) (by decide)),
      (h c _ (Cert.KernelIdeal.Whole.mem_uc Cert.KernelIdeal.main_arg7 (by decide))).trans (Cert.KernelIdeal.Whole.U6_arg m _ c Cert.KernelIdeal.main_arg7 (by decide) (by decide) (by decide) (by decide) (by decide) (by decide)),
      (h c _ (Cert.KernelIdeal.Whole.mem_uc Cert.KernelIdeal.main_arg8 (by decide))).trans (Cert.KernelIdeal.Whole.U6_arg m _ c Cert.KernelIdeal.main_arg8 (by decide) (by decide) (by decide) (by decide) (by decide) (by decide)),
      (h c _ (Cert.KernelIdeal.Whole.mem_uc Cert.KernelIdeal.main_arg9 (by decide))).trans (Cert.KernelIdeal.Whole.U6_arg m _ c Cert.KernelIdeal.main_arg9 (by decide) (by decide) (by decide) (by decide) (by decide) (by decide)),
      (h c _ (Cert.KernelIdeal.Whole.mem_uc Cert.KernelIdeal.main_arg10 (by decide))).trans (Cert.KernelIdeal.Whole.U6_arg m _ c Cert.KernelIdeal.main_arg10 (by decide) (by decide) (by decide) (by decide) (by decide) (by decide))⟩)
      (Cert.KernelIdeal.Whole.run (F := Ideal) m ρ)
    exact (h c _ (Cert.KernelIdeal.Whole.mem_uc Cert.KernelIdeal.main_v19 (by decide))).trans
      (Cert.KernelIdeal.KernelRun.result m Cert.KernelIdeal.AttnValue.final c)
  · refine (θ_run Cert.ReferenceIdeal.defs _ _).mono (fun _ h c => ⟨?_, (h c).2⟩) (Cert.ReferenceIdeal.Value.run (F := Ideal) m' ρ')
    rw [(h c).1, Cert.ReferenceIdeal.Read.val_main_v36_eq, Cert.Mha.RefOutput.reference_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

end Cert.Proof

/-- Every claim of the certificate. -/
theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_reference, Cert.Proof.preserves, Cert.Proof.algebraic⟩

end
